-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v87) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1600000 : Shape := ⟨2, ![2, 1600000]⟩
abbrev S1600000x7 : Shape := ⟨2, ![1600000, 7]⟩
abbrev S100000x32 : Shape := ⟨2, ![100000, 32]⟩
abbrev S7x1 : Shape := ⟨2, ![7, 1]⟩
abbrev S1 : Shape := ⟨1, ![1]⟩
abbrev S1x64 : Shape := ⟨2, ![1, 64]⟩
abbrev S64 : Shape := ⟨1, ![64]⟩
abbrev S64x64 : Shape := ⟨2, ![64, 64]⟩
abbrev S7x64 : Shape := ⟨2, ![7, 64]⟩
abbrev S64x32 : Shape := ⟨2, ![64, 32]⟩
abbrev S32 : Shape := ⟨1, ![32]⟩
abbrev S32x6 : Shape := ⟨2, ![32, 6]⟩
abbrev S6 : Shape := ⟨1, ![6]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S1600000x7 : S_.BroadcastsInDim S1600000x7 (![] : Fin 0 → Fin S1600000x7.rank)
  reducesTo_S1600000x7_S_d0_1 : S1600000x7.ReducesTo [0, 1] S_
  bcast_S_S100000x32 : S_.BroadcastsInDim S100000x32 (![] : Fin 0 → Fin S100000x32.rank)
  reducesTo_S100000x32_S_d0_1 : S100000x32.ReducesTo [0, 1] S_
  bcast_S_S7x1 : S_.BroadcastsInDim S7x1 (![] : Fin 0 → Fin S7x1.rank)
  reducesTo_S7x1_S_d0_1 : S7x1.ReducesTo [0, 1] S_
  bcast_S_S1 : S_.BroadcastsInDim S1 (![] : Fin 0 → Fin S1.rank)
  reducesTo_S1_S_d0 : S1.ReducesTo [0] S_
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S7x64 : S_.BroadcastsInDim S7x64 (![] : Fin 0 → Fin S7x64.rank)
  reducesTo_S7x64_S_d0_1 : S7x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x6 : S_.BroadcastsInDim S32x6 (![] : Fin 0 → Fin S32x6.rank)
  reducesTo_S32x6_S_d0_1 : S32x6.ReducesTo [0, 1] S_
  bcast_S_S6 : S_.BroadcastsInDim S6 (![] : Fin 0 → Fin S6.rank)
  reducesTo_S6_S_d0 : S6.ReducesTo [0] S_

variable [Facts]

def fn_part6 {F : FTy → Type} [FloatOps F] (main_v98 : IVec S_ 1) (main_v101 : IVec S6 1) (main_c_39 : IVec S_ 1) : IVec S_ 1 :=
  let main_v102 : IVec S_ 1 := (fun x v => Host.reduce IntOp.andi x v reducesTo_S6_S_d0 h_S_) main_v101 main_c_39
  let main_v103 : IVec S_ 1 := andi main_v98 main_v102
  main_v103

def fn_part5 {F : FTy → Type} [FloatOps F] (main_arg20 : FVec F S32 .f32) (main_arg21 : FVec F S32x6 .f32) (main_arg22 : FVec F S6 .f32) (main_v83 : IVec S_ 1) (main_v84 : FVec F S64x32 .f32) (main_cst_32 : FVec F S_ .f32) : IVec S_ 1 :=
  let main_v85 : FVec F S64x32 .f32 := broadcastInDim S64x32 ![] bcast_S_S64x32 main_cst_32
  let main_v86 : IVec S64x32 1 := cmpf .olt main_v84 main_v85
  let main_c_33 : IVec S_ 1 := constantI S_ 1 1#1
  let main_v87 : IVec S_ 1 := (fun x v => Host.reduce IntOp.andi x v reducesTo_S64x32_S_d0_1 h_S_) main_v86 main_c_33
  let main_v88 : IVec S_ 1 := andi main_v83 main_v87
  let main_v89 : FVec F S32 .f32 := Host.absf main_arg20
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32x6 .f32 := Host.absf main_arg21
  let main_cst_36 : FVec F S_ .f32 := constant S_ .f32 0x7F800000#32
  let main_v95 : FVec F S32x6 .f32 := broadcastInDim S32x6 ![] bcast_S_S32x6 main_cst_36
  let main_v96 : IVec S32x6 1 := cmpf .olt main_v94 main_v95
  let main_c_37 : IVec S_ 1 := constantI S_ 1 1#1
  let main_v97 : IVec S_ 1 := (fun x v => Host.reduce IntOp.andi x v reducesTo_S32x6_S_d0_1 h_S_) main_v96 main_c_37
  let main_v98 : IVec S_ 1 := andi main_v93 main_v97
  let main_v99 : FVec F S6 .f32 := Host.absf main_arg22
  let main_cst_38 : FVec F S_ .f32 := constant S_ .f32 0x7F800000#32
  let main_v100 : FVec F S6 .f32 := broadcastInDim S6 ![] bcast_S_S6 main_cst_38
  let main_v101 : IVec S6 1 := cmpf .olt main_v99 main_v100
  let main_c_39 : IVec S_ 1 := constantI S_ 1 1#1
  fn_part6 (F := F) main_v98 main_v101 main_c_39

def fn_part4 {F : FTy → Type} [FloatOps F] (main_arg16 : FVec F S64 .f32) (main_arg17 : FVec F S64x32 .f32) (main_arg18 : FVec F S32 .f32) (main_arg19 : FVec F S64x32 .f32) (main_arg20 : FVec F S32 .f32) (main_arg21 : FVec F S32x6 .f32) (main_arg22 : FVec F S6 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x32 .f32 := Host.absf main_arg17
  let main_cst_28 : FVec F S_ .f32 := constant S_ .f32 0x7F800000#32
  let main_v75 : FVec F S64x32 .f32 := broadcastInDim S64x32 ![] bcast_S_S64x32 main_cst_28
  let main_v76 : IVec S64x32 1 := cmpf .olt main_v74 main_v75
  let main_c_29 : IVec S_ 1 := constantI S_ 1 1#1
  let main_v77 : IVec S_ 1 := (fun x v => Host.reduce IntOp.andi x v reducesTo_S64x32_S_d0_1 h_S_) main_v76 main_c_29
  let main_v78 : IVec S_ 1 := andi main_v73 main_v77
  let main_v79 : FVec F S32 .f32 := Host.absf main_arg18
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S64x32 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S64x64 .f32) (main_arg14 : FVec F S64 .f32) (main_arg15 : FVec F S64x64 .f32) (main_arg16 : FVec F S64 .f32) (main_arg17 : FVec F S64x32 .f32) (main_arg18 : FVec F S32 .f32) (main_arg19 : FVec F S64x32 .f32) (main_arg20 : FVec F S32 .f32) (main_arg21 : FVec F S32x6 .f32) (main_arg22 : FVec F S6 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg16 main_arg17 main_arg18 main_arg19 main_arg20 main_arg21 main_arg22 main_v63 main_v67

def fn_part2 {F : FTy → Type} [FloatOps F] (main_arg9 : FVec F S64x64 .f32) (main_arg10 : FVec F S64 .f32) (main_arg11 : FVec F S7x64 .f32) (main_arg12 : FVec F S64 .f32) (main_arg13 : FVec F S64x64 .f32) (main_arg14 : FVec F S64 .f32) (main_arg15 : FVec F S64x64 .f32) (main_arg16 : FVec F S64 .f32) (main_arg17 : FVec F S64x32 .f32) (main_arg18 : FVec F S32 .f32) (main_arg19 : FVec F S64x32 .f32) (main_arg20 : FVec F S32 .f32) (main_arg21 : FVec F S32x6 .f32) (main_arg22 : FVec F S6 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S7x64 .f32 := Host.absf main_arg11
  let main_cst_16 : FVec F S_ .f32 := constant S_ .f32 0x7F800000#32
  let main_v45 : FVec F S7x64 .f32 := broadcastInDim S7x64 ![] bcast_S_S7x64 main_cst_16
  let main_v46 : IVec S7x64 1 := cmpf .olt main_v44 main_v45
  let main_c_17 : IVec S_ 1 := constantI S_ 1 1#1
  let main_v47 : IVec S_ 1 := (fun x v => Host.reduce IntOp.andi x v reducesTo_S7x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S1 .f32) (main_arg7 : FVec F S1x64 .f32) (main_arg8 : FVec F S64 .f32) (main_arg9 : FVec F S64x64 .f32) (main_arg10 : FVec F S64 .f32) (main_arg11 : FVec F S7x64 .f32) (main_arg12 : FVec F S64 .f32) (main_arg13 : FVec F S64x64 .f32) (main_arg14 : FVec F S64 .f32) (main_arg15 : FVec F S64x64 .f32) (main_arg16 : FVec F S64 .f32) (main_arg17 : FVec F S64x32 .f32) (main_arg18 : FVec F S32 .f32) (main_arg19 : FVec F S64x32 .f32) (main_arg20 : FVec F S32 .f32) (main_arg21 : FVec F S32x6 .f32) (main_arg22 : FVec F S6 .f32) (main_v13 : IVec S_ 1) (main_v16 : IVec S7x1 1) : IVec S_ 1 :=
  let main_c_5 : IVec S_ 1 := constantI S_ 1 1#1
  let main_v17 : IVec S_ 1 := (fun x v => Host.reduce IntOp.andi x v reducesTo_S7x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1x64 .f32 := Host.absf main_arg7
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000 .f32) (main_arg1 : IVec S2x1600000 32) (main_arg2 : FVec F S1600000x7 .f32) (main_arg3 : IVec S100000 32) (main_arg4 : FVec F S100000x32 .f32) (main_arg5 : FVec F S7x1 .f32) (main_arg6 : FVec F S1 .f32) (main_arg7 : FVec F S1x64 .f32) (main_arg8 : FVec F S64 .f32) (main_arg9 : FVec F S64x64 .f32) (main_arg10 : FVec F S64 .f32) (main_arg11 : FVec F S7x64 .f32) (main_arg12 : FVec F S64 .f32) (main_arg13 : FVec F S64x64 .f32) (main_arg14 : FVec F S64 .f32) (main_arg15 : FVec F S64x64 .f32) (main_arg16 : FVec F S64 .f32) (main_arg17 : FVec F S64x32 .f32) (main_arg18 : FVec F S32 .f32) (main_arg19 : FVec F S64x32 .f32) (main_arg20 : FVec F S32 .f32) (main_arg21 : FVec F S32x6 .f32) (main_arg22 : FVec F S6 .f32) : IVec S_ 1 :=
  let main_v0 : FVec F S100000 .f32 := Host.absf main_arg0
  let main_cst : FVec F S_ .f32 := constant S_ .f32 0x7F800000#32
  let main_v1 : FVec F S100000 .f32 := broadcastInDim S100000 ![] bcast_S_S100000 main_cst
  let main_v2 : IVec S100000 1 := cmpf .olt main_v0 main_v1
  let main_c : IVec S_ 1 := constantI S_ 1 1#1
  let main_v3 : IVec S_ 1 := (fun x v => Host.reduce IntOp.andi x v reducesTo_S100000_S_d0 h_S_) main_v2 main_c
  let main_v4 : FVec F S1600000x7 .f32 := Host.absf main_arg2
  let main_cst_0 : FVec F S_ .f32 := constant S_ .f32 0x7F800000#32
  let main_v5 : FVec F S1600000x7 .f32 := broadcastInDim S1600000x7 ![] bcast_S_S1600000x7 main_cst_0
  let main_v6 : IVec S1600000x7 1 := cmpf .olt main_v4 main_v5
  let main_c_1 : IVec S_ 1 := constantI S_ 1 1#1
  let main_v7 : IVec S_ 1 := (fun x v => Host.reduce IntOp.andi x v reducesTo_S1600000x7_S_d0_1 h_S_) main_v6 main_c_1
  let main_v8 : IVec S_ 1 := andi main_v3 main_v7
  let main_v9 : FVec F S100000x32 .f32 := Host.absf main_arg4
  let main_cst_2 : FVec F S_ .f32 := constant S_ .f32 0x7F800000#32
  let main_v10 : FVec F S100000x32 .f32 := broadcastInDim S100000x32 ![] bcast_S_S100000x32 main_cst_2
  let main_v11 : IVec S100000x32 1 := cmpf .olt main_v9 main_v10
  let main_c_3 : IVec S_ 1 := constantI S_ 1 1#1
  let main_v12 : IVec S_ 1 := (fun x v => Host.reduce IntOp.andi x v reducesTo_S100000x32_S_d0_1 h_S_) main_v11 main_c_3
  let main_v13 : IVec S_ 1 := andi main_v8 main_v12
  let main_v14 : FVec F S7x1 .f32 := Host.absf main_arg5
  let main_cst_4 : FVec F S_ .f32 := constant S_ .f32 0x7F800000#32
  let main_v15 : FVec F S7x1 .f32 := broadcastInDim S7x1 ![] bcast_S_S7x1 main_cst_4
  let main_v16 : IVec S7x1 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000 : Shape := ⟨1, ![100000]⟩
abbrev S2x1600000 : Shape := ⟨2, ![2, 1600000]⟩
abbrev S1600000x7 : Shape := ⟨2, ![1600000, 7]⟩
abbrev S100000x32 : Shape := ⟨2, ![100000, 32]⟩
abbrev S7x1 : Shape := ⟨2, ![7, 1]⟩
abbrev S1 : Shape := ⟨1, ![1]⟩
abbrev S1x64 : Shape := ⟨2, ![1, 64]⟩
abbrev S64 : Shape := ⟨1, ![64]⟩
abbrev S64x64 : Shape := ⟨2, ![64, 64]⟩
abbrev S7x64 : Shape := ⟨2, ![7, 64]⟩
abbrev S64x32 : Shape := ⟨2, ![64, 32]⟩
abbrev S32 : Shape := ⟨1, ![32]⟩
abbrev S32x6 : Shape := ⟨2, ![32, 6]⟩
abbrev S6 : Shape := ⟨1, ![6]⟩
abbrev S1x1600000 : Shape := ⟨2, ![1, 1600000]⟩
abbrev S1600000 : Shape := ⟨1, ![1600000]⟩
abbrev S1600000x1 : Shape := ⟨2, ![1600000, 1]⟩
abbrev S1x1 : Shape := ⟨2, ![1, 1]⟩
abbrev S1600000x64 : Shape := ⟨2, ![1600000, 64]⟩
abbrev S_ : Shape := ⟨0, ![]⟩
abbrev S100000x1 : Shape := ⟨2, ![100000, 1]⟩
abbrev S100000x64 : Shape := ⟨2, ![100000, 64]⟩
abbrev S1x32 : Shape := ⟨2, ![1, 32]⟩
abbrev S512x32 : Shape := ⟨2, ![512, 32]⟩
abbrev S512 : Shape := ⟨1, ![512]⟩
abbrev S512x1 : Shape := ⟨2, ![512, 1]⟩
abbrev S1x6 : Shape := ⟨2, ![1, 6]⟩
abbrev S512x6 : Shape := ⟨2, ![512, 6]⟩
abbrev S8000x7 : Shape := ⟨2, ![8000, 7]⟩
abbrev S8000x64 : Shape := ⟨2, ![8000, 64]⟩
abbrev S4000x1 : Shape := ⟨2, ![4000, 1]⟩
abbrev S4000x64 : Shape := ⟨2, ![4000, 64]⟩
abbrev S2000x64 : Shape := ⟨2, ![2000, 64]⟩
abbrev S2000x32 : Shape := ⟨2, ![2000, 32]⟩

abbrev nBuf : Space → Nat
  | .hbm => 101
  | .vmem => 40
  | .smem => 0
  | _ => 0

abbrev bufTy : (tb : Table) → Fin (tcTables nBuf tb) → BufTy
  | .hbm, ⟨0, _⟩ => ⟨S100000, .f32⟩
  | .hbm, ⟨1, _⟩ => ⟨S2x1600000, .i32⟩
  | .hbm, ⟨2, _⟩ => ⟨S1600000x7, .f32⟩
  | .hbm, ⟨3, _⟩ => ⟨S100000, .i32⟩
  | .hbm, ⟨4, _⟩ => ⟨S100000x32, .f32⟩
  | .hbm, ⟨5, _⟩ => ⟨S7x1, .f32⟩
  | .hbm, ⟨6, _⟩ => ⟨S1, .f32⟩
  | .hbm, ⟨7, _⟩ => ⟨S1x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S7x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x32, .f32⟩
  | .hbm, ⟨18, _⟩ => ⟨S32, .f32⟩
  | .hbm, ⟨19, _⟩ => ⟨S64x32, .f32⟩
  | .hbm, ⟨20, _⟩ => ⟨S32, .f32⟩
  | .hbm, ⟨21, _⟩ => ⟨S32x6, .f32⟩
  | .hbm, ⟨22, _⟩ => ⟨S6, .f32⟩
  | .hbm, ⟨23, _⟩ => ⟨S1x1600000, .i32⟩
  | .hbm, ⟨24, _⟩ => ⟨S1600000, .i32⟩
  | .hbm, ⟨25, _⟩ => ⟨S1x1600000, .i32⟩
  | .hbm, ⟨26, _⟩ => ⟨S1600000, .i32⟩
  | .hbm, ⟨27, _⟩ => ⟨S1600000x1, .f32⟩
  | .hbm, ⟨28, _⟩ => ⟨S1x1, .f32⟩
  | .hbm, ⟨29, _⟩ => ⟨S1600000x1, .f32⟩
  | .hbm, ⟨30, _⟩ => ⟨S1600000x1, .f32⟩
  | .hbm, ⟨31, _⟩ => ⟨S1600000, .f32⟩
  | .hbm, ⟨32, _⟩ => ⟨S1x64, .f32⟩
  | .hbm, ⟨33, _⟩ => ⟨S1600000x64, .bf16⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S_, .f32⟩
  | .hbm, ⟨45, _⟩ => ⟨S1600000, .f32⟩
  | .hbm, ⟨46, _⟩ => ⟨S1600000, .f32⟩
  | .hbm, ⟨47, _⟩ => ⟨S_, .f32⟩
  | .hbm, ⟨48, _⟩ => ⟨S100000, .f32⟩
  | .hbm, ⟨49, _⟩ => ⟨S1600000x1, .i32⟩
  | .hbm, ⟨50, _⟩ => ⟨S100000, .f32⟩
  | .hbm, ⟨51, _⟩ => ⟨S100000, .f32⟩
  | .hbm, ⟨52, _⟩ => ⟨S100000x1, .f32⟩
  | .hbm, ⟨53, _⟩ => ⟨S1x64, .f32⟩
  | .hbm, ⟨54, _⟩ => ⟨S1x64, .f32⟩
  | .hbm, ⟨55, _⟩ => ⟨S100000x64, .f32⟩
  | .hbm, ⟨56, _⟩ => ⟨S100000x64, .bf16⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x64, .bf16⟩
  | .hbm, ⟨66, _⟩ => ⟨S1600000x64, .f32⟩
  | .hbm, ⟨67, _⟩ => ⟨S1600000x64, .f32⟩
  | .hbm, ⟨68, _⟩ => ⟨S1600000x64, .f32⟩
  | .hbm, ⟨69, _⟩ => ⟨S_, .f32⟩
  | .hbm, ⟨70, _⟩ => ⟨S1600000x64, .f32⟩
  | .hbm, ⟨71, _⟩ => ⟨S1600000x64, .f32⟩
  | .hbm, ⟨72, _⟩ => ⟨S_, .f32⟩
  | .hbm, ⟨73, _⟩ => ⟨S100000x64, .f32⟩
  | .hbm, ⟨74, _⟩ => ⟨S1600000x1, .i32⟩
  | .hbm, ⟨75, _⟩ => ⟨S100000x64, .f32⟩
  | .hbm, ⟨76, _⟩ => ⟨S1x64, .f32⟩
  | .hbm, ⟨77, _⟩ => ⟨S1x64, .f32⟩
  | .hbm, ⟨78, _⟩ => ⟨S1x32, .f32⟩
  | .hbm, ⟨79, _⟩ => ⟨S1x32, .f32⟩
  | .hbm, ⟨80, _⟩ => ⟨S100000x32, .f32⟩
  | .hbm, ⟨81, _⟩ => ⟨S100000x32, .f32⟩
  | .hbm, ⟨82, _⟩ => ⟨S100000x32, .f32⟩
  | .hbm, ⟨83, _⟩ => ⟨S_, .f32⟩
  | .hbm, ⟨84, _⟩ => ⟨S512x32, .f32⟩
  | .hbm, ⟨85, _⟩ => ⟨S100000x1, .i32⟩
  | .hbm, ⟨86, _⟩ => ⟨S512x32, .f32⟩
  | .hbm, ⟨87, _⟩ => ⟨S_, .f32⟩
  | .hbm, ⟨88, _⟩ => ⟨S100000, .f32⟩
  | .hbm, ⟨89, _⟩ => ⟨S_, .f32⟩
  | .hbm, ⟨90, _⟩ => ⟨S512, .f32⟩
  | .hbm, ⟨91, _⟩ => ⟨S100000x1, .i32⟩
  | .hbm, ⟨92, _⟩ => ⟨S512, .f32⟩
  | .hbm, ⟨93, _⟩ => ⟨S_, .f32⟩
  | .hbm, ⟨94, _⟩ => ⟨S512, .f32⟩
  | .hbm, ⟨95, _⟩ => ⟨S512, .f32⟩
  | .hbm, ⟨96, _⟩ => ⟨S512x1, .f32⟩
  | .hbm, ⟨97, _⟩ => ⟨S512x32, .f32⟩
  | .hbm, ⟨98, _⟩ => ⟨S512x32, .f32⟩
  | .hbm, ⟨99, _⟩ => ⟨S1x6, .f32⟩
  | .hbm, ⟨100, _⟩ => ⟨S512x6, .f32⟩
  | .local _ .vmem, ⟨0, _⟩ => ⟨S8000x7, .f32⟩
  | .local _ .vmem, ⟨1, _⟩ => ⟨S8000x7, .f32⟩
  | .local _ .vmem, ⟨2, _⟩ => ⟨S7x64, .f32⟩
  | .local _ .vmem, ⟨3, _⟩ => ⟨S1x64, .f32⟩
  | .local _ .vmem, ⟨4, _⟩ => ⟨S8000x64, .bf16⟩
  | .local _ .vmem, ⟨5, _⟩ => ⟨S8000x64, .bf16⟩
  | .local _ .vmem, ⟨6, _⟩ => ⟨S4000x1, .f32⟩
  | .local _ .vmem, ⟨7, _⟩ => ⟨S4000x1, .f32⟩
  | .local _ .vmem, ⟨8, _⟩ => ⟨S1x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S4000x64, .f32⟩
  | .local _ .vmem, ⟨13, _⟩ => ⟨S4000x64, .f32⟩
  | .local _ .vmem, ⟨14, _⟩ => ⟨S4000x64, .bf16⟩
  | .local _ .vmem, ⟨15, _⟩ => ⟨S4000x64, .bf16⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x32, .f32⟩
  | .local _ .vmem, ⟨21, _⟩ => ⟨S2000x32, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S64x32, .f32⟩
  | .local _ .vmem, ⟨27, _⟩ => ⟨S1x32, .f32⟩
  | .local _ .vmem, ⟨28, _⟩ => ⟨S64x32, .f32⟩
  | .local _ .vmem, ⟨29, _⟩ => ⟨S1x32, .f32⟩
  | .local _ .vmem, ⟨30, _⟩ => ⟨S2000x32, .f32⟩
  | .local _ .vmem, ⟨31, _⟩ => ⟨S2000x32, .f32⟩
  | .local _ .vmem, ⟨32, _⟩ => ⟨S2000x32, .f32⟩
  | .local _ .vmem, ⟨33, _⟩ => ⟨S2000x32, .f32⟩
  | .local _ .vmem, ⟨34, _⟩ => ⟨S2000x32, .f32⟩
  | .local _ .vmem, ⟨35, _⟩ => ⟨S2000x32, .f32⟩
  | .local _ .vmem, ⟨36, _⟩ => ⟨S512x32, .f32⟩
  | .local _ .vmem, ⟨37, _⟩ => ⟨S32x6, .f32⟩
  | .local _ .vmem, ⟨38, _⟩ => ⟨S1x6, .f32⟩
  | .local _ .vmem, ⟨39, _⟩ => ⟨S512x6, .f32⟩
  | _, _ => ⟨S100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_c : Ref sig .tc := ⟨.hbm, 34, rfl⟩
abbrev main_call0_v11 : Ref sig .tc := ⟨.hbm, 35, rfl⟩
abbrev main_call0_v12 : Ref sig .tc := ⟨.hbm, 36, rfl⟩
abbrev main_call0_c_0 : Ref sig .tc := ⟨.hbm, 37, rfl⟩
abbrev main_call0_v13 : Ref sig .tc := ⟨.hbm, 38, rfl⟩
abbrev main_call0_v14 : Ref sig .tc := ⟨.hbm, 39, rfl⟩
abbrev main_call0_v15 : Ref sig .tc := ⟨.hbm, 40, rfl⟩
abbrev main_call0_v16 : Ref sig .tc := ⟨.hbm, 41, rfl⟩
abbrev main_call0_v17 : Ref sig .tc := ⟨.hbm, 42, rfl⟩
abbrev main_call0_v18 : Ref sig .tc := ⟨.hbm, 43, rfl⟩
abbrev main_call0_call0_cst : Ref sig .tc := ⟨.hbm, 44, rfl⟩
abbrev main_call0_call0_v0 : Ref sig .tc := ⟨.hbm, 45, rfl⟩
abbrev main_call0_v19 : Ref sig .tc := ⟨.hbm, 46, rfl⟩
abbrev main_call0_cst : Ref sig .tc := ⟨.hbm, 47, rfl⟩
abbrev main_call0_v20 : Ref sig .tc := ⟨.hbm, 48, rfl⟩
abbrev main_call0_v21 : Ref sig .tc := ⟨.hbm, 49, rfl⟩
abbrev main_call0_v22 : Ref sig .tc := ⟨.hbm, 50, rfl⟩
abbrev main_call0_v23 : Ref sig .tc := ⟨.hbm, 51, rfl⟩
abbrev main_call0_v24 : Ref sig .tc := ⟨.hbm, 52, rfl⟩
abbrev main_call0_v25 : Ref sig .tc := ⟨.hbm, 53, rfl⟩
abbrev main_call0_v26 : Ref sig .tc := ⟨.hbm, 54, rfl⟩
abbrev main_call0_v27_0 : Ref sig .tc := ⟨.hbm, 55, rfl⟩
abbrev main_call0_v27_1 : Ref sig .tc := ⟨.hbm, 56, rfl⟩
abbrev main_call0_c_1 : Ref sig .tc := ⟨.hbm, 57, rfl⟩
abbrev main_call0_v28 : Ref sig .tc := ⟨.hbm, 58, rfl⟩
abbrev main_call0_v29 : Ref sig .tc := ⟨.hbm, 59, rfl⟩
abbrev main_call0_c_2 : Ref sig .tc := ⟨.hbm, 60, rfl⟩
abbrev main_call0_v30 : Ref sig .tc := ⟨.hbm, 61, rfl⟩
abbrev main_call0_v31 : Ref sig .tc := ⟨.hbm, 62, rfl⟩
abbrev main_call0_v32 : Ref sig .tc := ⟨.hbm, 63, rfl⟩
abbrev main_call0_v33 : Ref sig .tc := ⟨.hbm, 64, rfl⟩
abbrev main_call0_v34 : Ref sig .tc := ⟨.hbm, 65, rfl⟩
abbrev main_call0_v35 : Ref sig .tc := ⟨.hbm, 66, rfl⟩
abbrev main_call0_v36 : Ref sig .tc := ⟨.hbm, 67, rfl⟩
abbrev main_call0_v37 : Ref sig .tc := ⟨.hbm, 68, rfl⟩
abbrev main_call0_call1_cst : Ref sig .tc := ⟨.hbm, 69, rfl⟩
abbrev main_call0_call1_v0 : Ref sig .tc := ⟨.hbm, 70, rfl⟩
abbrev main_call0_v38 : Ref sig .tc := ⟨.hbm, 71, rfl⟩
abbrev main_call0_cst_3 : Ref sig .tc := ⟨.hbm, 72, rfl⟩
abbrev main_call0_v39 : Ref sig .tc := ⟨.hbm, 73, rfl⟩
abbrev main_call0_v40 : Ref sig .tc := ⟨.hbm, 74, rfl⟩
abbrev main_call0_v41 : Ref sig .tc := ⟨.hbm, 75, rfl⟩
abbrev main_call0_v42 : Ref sig .tc := ⟨.hbm, 76, rfl⟩
abbrev main_call0_v43 : Ref sig .tc := ⟨.hbm, 77, rfl⟩
abbrev main_call0_v44 : Ref sig .tc := ⟨.hbm, 78, rfl⟩
abbrev main_call0_v45 : Ref sig .tc := ⟨.hbm, 79, rfl⟩
abbrev main_v0_1 : Ref sig .tc := ⟨.hbm, 80, rfl⟩
abbrev main_v0_2 : Ref sig .tc := ⟨.hbm, 81, rfl⟩
abbrev main_v0_0 : Ref sig .tc := ⟨.hbm, 82, rfl⟩
abbrev main_call0_cst_4 : Ref sig .tc := ⟨.hbm, 83, rfl⟩
abbrev main_call0_v47 : Ref sig .tc := ⟨.hbm, 84, rfl⟩
abbrev main_call0_v48 : Ref sig .tc := ⟨.hbm, 85, rfl⟩
abbrev main_call0_v49 : Ref sig .tc := ⟨.hbm, 86, rfl⟩
abbrev main_call0_cst_5 : Ref sig .tc := ⟨.hbm, 87, rfl⟩
abbrev main_call0_v50 : Ref sig .tc := ⟨.hbm, 88, rfl⟩
abbrev main_call0_cst_6 : Ref sig .tc := ⟨.hbm, 89, rfl⟩
abbrev main_call0_v51 : Ref sig .tc := ⟨.hbm, 90, rfl⟩
abbrev main_call0_v52 : Ref sig .tc := ⟨.hbm, 91, rfl⟩
abbrev main_call0_v53 : Ref sig .tc := ⟨.hbm, 92, rfl⟩
abbrev main_call0_cst_7 : Ref sig .tc := ⟨.hbm, 93, rfl⟩
abbrev main_call0_v54 : Ref sig .tc := ⟨.hbm, 94, rfl⟩
abbrev main_call0_v55 : Ref sig .tc := ⟨.hbm, 95, rfl⟩
abbrev main_call0_v56 : Ref sig .tc := ⟨.hbm, 96, rfl⟩
abbrev main_call0_v57 : Ref sig .tc := ⟨.hbm, 97, rfl⟩
abbrev main_call0_v58 : Ref sig .tc := ⟨.hbm, 98, rfl⟩
abbrev main_call0_v59 : Ref sig .tc := ⟨.hbm, 99, rfl⟩
abbrev main_v0_3 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg9_0 : Ref sig .tc := ⟨.vmem, 28, rfl⟩
abbrev cc2_stg10_0 : Ref sig .tc := ⟨.vmem, 29, rfl⟩
abbrev cc2_stg11_0 : Ref sig .tc := ⟨.vmem, 30, rfl⟩
abbrev cc2_stg11_1 : Ref sig .tc := ⟨.vmem, 31, rfl⟩
abbrev cc2_stg12_0 : Ref sig .tc := ⟨.vmem, 32, rfl⟩
abbrev cc2_stg12_1 : Ref sig .tc := ⟨.vmem, 33, rfl⟩
abbrev cc2_stg13_0 : Ref sig .tc := ⟨.vmem, 34, rfl⟩
abbrev cc2_stg13_1 : Ref sig .tc := ⟨.vmem, 35, rfl⟩
abbrev cc3_stg0_0 : Ref sig .tc := ⟨.vmem, 36, rfl⟩
abbrev cc3_stg1_0 : Ref sig .tc := ⟨.vmem, 37, rfl⟩
abbrev cc3_stg2_0 : Ref sig .tc := ⟨.vmem, 38, rfl⟩
abbrev cc3_stg3_0 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem10_0 : DmaSem sig := 29
abbrev cc2_sem11_0 : DmaSem sig := 30
abbrev cc2_sem11_1 : DmaSem sig := 31
abbrev cc2_sem12_0 : DmaSem sig := 32
abbrev cc2_sem12_1 : DmaSem sig := 33
abbrev cc2_sem13_0 : DmaSem sig := 34
abbrev cc2_sem13_1 : DmaSem sig := 35
abbrev cc3_sem0_0 : DmaSem sig := 36
abbrev cc3_sem1_0 : DmaSem sig := 37
abbrev cc3_sem2_0 : DmaSem sig := 38
abbrev cc3_sem3_0 : DmaSem sig := 39

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x32 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x32 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S2000x32 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S2000x32 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S2000x32 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x32 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S32x6 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x6 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x6 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  shapeCasts_S1600000x1_S1600000 : S1600000x1.ShapeCasts S1600000
  shapeCasts_S64_S1x64 : S64.ShapeCasts S1x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  shapeCasts_S100000_S100000x1 : S100000.ShapeCasts S100000x1
  bitsLt_bf16_f32 : FTy.bits .bf16 < FTy.bits .f32
  bcast_S_S1600000x64 : S_.BroadcastsInDim S1600000x64 (![] : Fin 0 → Fin S1600000x64.rank)
  bcast_S_S100000x64 : S_.BroadcastsInDim S100000x64 (![] : Fin 0 → Fin S100000x64.rank)
  shapeCasts_S32_S1x32 : S32.ShapeCasts S1x32
  bcast_S_S512x32 : S_.BroadcastsInDim S512x32 (![] : Fin 0 → Fin S512x32.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x32_0_1 : S512x1.BroadcastsInDim S512x32 (![0, 1] : Fin 2 → Fin S512x32.rank)
  shapeCasts_S6_S1x6 : S6.ShapeCasts S1x6
  inb_S8000x7_S8000x7_0_0 : ∀ a, (![0, 0] : Fin 2 → Nat) a + S8000x7.size a ≤ S8000x7.size a
  h_S8000x7 : 0 < S8000x7.numel
  inb_S7x64_S7x64_0_0 : ∀ a, (![0, 0] : Fin 2 → Nat) a + S7x64.size a ≤ S7x64.size a
  h_S7x64 : 0 < S7x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  packedbf16_S8000x64_S8000x64_0_0 : (Rect.unit (s := S8000x64) ![0, 0] S8000x64.size inb_S8000x64_S8000x64_0_0).PackedRows (EltTy.packing .bf16)
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S1x64_S2000x64 : S1x64.Broadcasts S2000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S32x6_S32x6_0_0 : ∀ a, (![0, 0] : Fin 2 → Nat) a + S32x6.size a ≤ S32x6.size a
  h_S32x6 : 0 < S32x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S512x6 : S1x6.Broadcasts S512x6
  inb_S512x6_S512x6_0_0 : ∀ a, (![0, 0] : Fin 2 → Nat) a + S512x6.size a ≤ S512x6.size a
  h_S512x6 : 0 < S512x6.numel
  dot_S1600000x7_S7x1_S1600000x1_1_0_0_1_n_n_wf : DotDims.WF S1600000x7 S7x1 S1600000x1 [1] [0] [0] [1] [] []
  gather_S100000_S1600000x1_S1600000_n_0_n_n_0_1_1_wf : GatherDims.WF S100000 S1600000x1 S1600000 [] [0] [] [0] [] 1 ![1]
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S512x32_S100000x1_S100000x32_1_0_0_1_wf : ScatterDims.WF S512x32 S100000x1 S100000x32 [1] [0] [0] 1
  scatter_S512_S100000x1_S100000_n_0_0_1_wf : ScatterDims.WF S512 S100000x1 S100000 [] [0] [0] 1
  dot_S8000x7_S7x64_S8000x64_1_0_0_1_n_n_wf : DotDims.WF S8000x7 S7x64 S8000x64 [1] [0] [0] [1] [] []
  dot_S4000x64_S64x64_S4000x64_1_0_0_1_n_n_wf : DotDims.WF S4000x64 S64x64 S4000x64 [1] [0] [0] [1] [] []
  dot_S2000x64_S64x64_S2000x64_1_0_0_1_n_n_wf : DotDims.WF S2000x64 S64x64 S2000x64 [1] [0] [0] [1] [] []
  dot_S2000x64_S64x32_S2000x32_1_0_0_1_n_n_wf : DotDims.WF S2000x64 S64x32 S2000x32 [1] [0] [0] [1] [] []
  dot_S512x32_S32x6_S512x6_1_0_0_1_n_n_wf : DotDims.WF S512x32 S32x6 S512x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x7.size a ≤ S1600000x7.size a
  hwx0_0 : ∀ i : grid0.Coords, EltTy.bits .f32 = 32 ∨ (Rect.block (s := S1600000x7) S8000x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x64.size a ≤ S7x64.size a
  hwx0_1 : ∀ i : grid0.Coords, EltTy.bits .f32 = 32 ∨ (Rect.block (s := S7x64) S7x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x64.size a ≤ S1600000x64.size a
  hwx0_3 : ∀ i : grid0.Coords, EltTy.bits .bf16 = 32 ∨ (Rect.block (s := S1600000x64) S8000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x1.size a ≤ S100000x1.size a
  hwx1_0 : ∀ i : grid1.Coords, EltTy.bits .f32 = 32 ∨ (Rect.block (s := S100000x1) S4000x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S100000x64.size a
  hwx1_6 : ∀ i : grid1.Coords, EltTy.bits .bf16 = 32 ∨ (Rect.block (s := S100000x64) S4000x64.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x32.size a ≤ S100000x32.size a
  hwx2_2 : ∀ i : grid2.Coords, EltTy.bits .f32 = 32 ∨ (Rect.block (s := S100000x32) S2000x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x32.size a ≤ S64x32.size a
  hwx2_7 : ∀ i : grid2.Coords, EltTy.bits .f32 = 32 ∨ (Rect.block (s := S64x32) S64x32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x32.size a ≤ S1x32.size a
  hwx2_8 : ∀ i : grid2.Coords, EltTy.bits .f32 = 32 ∨ (Rect.block (s := S1x32) S1x32.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x32.size a ≤ S64x32.size a
  hwx2_9 : ∀ i : grid2.Coords, EltTy.bits .f32 = 32 ∨ (Rect.block (s := S64x32) S64x32.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x32.size a ≤ S1x32.size a
  hwx2_10 : ∀ i : grid2.Coords, EltTy.bits .f32 = 32 ∨ (Rect.block (s := S1x32) S1x32.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S2000x32.size a ≤ S100000x32.size a
  hwx2_11 : ∀ i : grid2.Coords, EltTy.bits .f32 = 32 ∨ (Rect.block (s := S100000x32) S2000x32.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S2000x32.size a ≤ S100000x32.size a
  hwx2_12 : ∀ i : grid2.Coords, EltTy.bits .f32 = 32 ∨ (Rect.block (s := S100000x32) S2000x32.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S2000x32.size a ≤ S100000x32.size a
  hwx2_13 : ∀ i : grid2.Coords, EltTy.bits .f32 = 32 ∨ (Rect.block (s := S100000x32) S2000x32.size (cc2_transform_13 i) (hinb2_13 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x32.size a ≤ S512x32.size a
  hwx3_0 : ∀ i : grid3.Coords, EltTy.bits .f32 = 32 ∨ (Rect.block (s := S512x32) S512x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x6.size a ≤ S32x6.size a
  hwx3_1 : ∀ i : grid3.Coords, EltTy.bits .f32 = 32 ∨ (Rect.block (s := S32x6) S32x6.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x6.size a ≤ S1x6.size a
  hwx3_2 : ∀ i : grid3.Coords, EltTy.bits .f32 = 32 ∨ (Rect.block (s := S1x6) S1x6.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x6.size a ≤ S512x6.size a
  hwx3_3 : ∀ i : grid3.Coords, EltTy.bits .f32 = 32 ∨ (Rect.block (s := S512x6) S512x6.size (cc3_transform_3 i) (hinb3_3 i)).WholeWords (EltTy.packing .f32)

variable [Facts₀]

def dot_S1600000x7_S7x1_S1600000x1_1_0_0_1_n_n : DotDims S1600000x7 S7x1 S1600000x1 where
  lhsContracting := [1]
  rhsContracting := [0]
  lhsNonContracting := [0]
  rhsNonContracting := [1]
  lhsBatch := []
  rhsBatch := []
  wf := dot_S1600000x7_S7x1_S1600000x1_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S512x32_S100000x1_S100000x32_1_0_0_1 : ScatterDims S512x32 S100000x1 S100000x32 where
  updateWindowDims := [1]
  insertedWindowDims := [0]
  scatterDimsToOperandDims := [0]
  indexVectorDim := 1
  wf := scatter_S512x32_S100000x1_S100000x32_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S8000x7_S7x64_S8000x64_1_0_0_1_n_n : DotDims S8000x7 S7x64 S8000x64 where
  lhsContracting := [1]
  rhsContracting := [0]
  lhsNonContracting := [0]
  rhsNonContracting := [1]
  lhsBatch := []
  rhsBatch := []
  wf := dot_S8000x7_S7x64_S8000x64_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def dot_S512x32_S32x6_S512x6_1_0_0_1_n_n : DotDims S512x32 S32x6 S512x6 where
  lhsContracting := [1]
  rhsContracting := [0]
  lhsNonContracting := [0]
  rhsNonContracting := [1]
  lhsBatch := []
  rhsBatch := []
  wf := dot_S512x32_S32x6_S512x6_1_0_0_1_n_n_wf

abbrev win0_0 : Pipeline.Window sig grid0 :=
  Pipeline.Window.ofSpec (Memref.whole main_arg2) S8000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg11) S7x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v9) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v10) S8000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v24) S4000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v25) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v26) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v27_0) S4000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_call0_v27_1) S4000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_call0_v27_0) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v41) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S2000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v42) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg15) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_call0_v43) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg17) S64x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_call0_v44) S1x32.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg19) S64x32.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_call0_v45) S1x32.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v0_1) S2000x32.size cc2_transform_11 reads2_11 true false 2 stage2_11 sem2_11
    hrank2 hreads2_11 hinb2_11 nbuf2_11 (Memref.isWhole_whole _) hwx2_11 hstage2_11

abbrev win2_12 : Pipeline.Window sig grid2 :=
  Pipeline.Window.ofSpec (Memref.whole main_v0_2) S2000x32.size cc2_transform_12 reads2_12 true false 2 stage2_12 sem2_12
    hrank2 hreads2_12 hinb2_12 nbuf2_12 (Memref.isWhole_whole _) hwx2_12 hstage2_12

abbrev win2_13 : Pipeline.Window sig grid2 :=
  Pipeline.Window.ofSpec (Memref.whole main_v0_0) S2000x32.size cc2_transform_13 reads2_13 true false 2 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

abbrev win3_0 : Pipeline.Window sig grid3 :=
  Pipeline.Window.ofSpec (Memref.whole main_call0_v58) S512x32.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg21) S32x6.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v59) S1x6.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v0_3) S512x6.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000 : Shape := ⟨1, ![100000]⟩
abbrev S2x1600000 : Shape := ⟨2, ![2, 1600000]⟩
abbrev S1600000x7 : Shape := ⟨2, ![1600000, 7]⟩
abbrev S100000x32 : Shape := ⟨2, ![100000, 32]⟩
abbrev S7x1 : Shape := ⟨2, ![7, 1]⟩
abbrev S1 : Shape := ⟨1, ![1]⟩
abbrev S1x64 : Shape := ⟨2, ![1, 64]⟩
abbrev S64 : Shape := ⟨1, ![64]⟩
abbrev S64x64 : Shape := ⟨2, ![64, 64]⟩
abbrev S7x64 : Shape := ⟨2, ![7, 64]⟩
abbrev S64x32 : Shape := ⟨2, ![64, 32]⟩
abbrev S32 : Shape := ⟨1, ![32]⟩
abbrev S32x6 : Shape := ⟨2, ![32, 6]⟩
abbrev S6 : Shape := ⟨1, ![6]⟩
abbrev S100000x1 : Shape := ⟨2, ![100000, 1]⟩
abbrev S1x1600000 : Shape := ⟨2, ![1, 1600000]⟩
abbrev S1600000 : Shape := ⟨1, ![1600000]⟩
abbrev S1600000x1 : Shape := ⟨2, ![1600000, 1]⟩
abbrev S1x1 : Shape := ⟨2, ![1, 1]⟩
abbrev S_ : Shape := ⟨0, ![]⟩
abbrev S100000x64 : Shape := ⟨2, ![100000, 64]⟩
abbrev S1600000x64 : Shape := ⟨2, ![1600000, 64]⟩
abbrev S1x32 : Shape := ⟨2, ![1, 32]⟩
abbrev S512x32 : Shape := ⟨2, ![512, 32]⟩
abbrev S512 : Shape := ⟨1, ![512]⟩
abbrev S512x1 : Shape := ⟨2, ![512, 1]⟩
abbrev S512x6 : Shape := ⟨2, ![512, 6]⟩
abbrev S1x6 : Shape := ⟨2, ![1, 6]⟩

abbrev nBuf : Space → Nat
  | .hbm => 144
  | .vmem => 0
  | .smem => 0
  | _ => 0

abbrev hbmTy0_0 (i : Nat) : BufTy := match i % 128 with
  | 0 => ⟨S100000, .f32⟩
  | 1 => ⟨S2x1600000, .i32⟩
  | 2 => ⟨S1600000x7, .f32⟩
  | 3 => ⟨S100000, .i32⟩
  | 4 => ⟨S100000x32, .f32⟩
  | 5 => ⟨S7x1, .f32⟩
  | 6 => ⟨S1, .f32⟩
  | 7 => ⟨S1x64, .f32⟩
  | 8 => ⟨S64, .f32⟩
  | 9 => ⟨S64x64, .f32⟩
  | 10 => ⟨S64, .f32⟩
  | 11 => ⟨S7x64, .f32⟩
  | 12 => ⟨S64, .f32⟩
  | 13 => ⟨S64x64, .f32⟩
  | 14 => ⟨S64, .f32⟩
  | 15 => ⟨S64x64, .f32⟩
  | 16 => ⟨S64, .f32⟩
  | 17 => ⟨S64x32, .f32⟩
  | 18 => ⟨S32, .f32⟩
  | 19 => ⟨S64x32, .f32⟩
  | 20 => ⟨S32, .f32⟩
  | 21 => ⟨S32x6, .f32⟩
  | 22 => ⟨S6, .f32⟩
  | 23 => ⟨S100000x1, .f32⟩
  | 24 => ⟨S1x1600000, .i32⟩
  | 25 => ⟨S1600000, .i32⟩
  | 26 => ⟨S1x1600000, .i32⟩
  | 27 => ⟨S1600000, .i32⟩
  | 28 => ⟨S1600000x1, .f32⟩
  | 29 => ⟨S1x1, .f32⟩
  | 30 => ⟨S1600000x1, .f32⟩
  | 31 => ⟨S1600000x1, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x1, .f32⟩
  | 41 => ⟨S1600000x1, .f32⟩
  | 42 => ⟨S_, .f32⟩
  | 43 => ⟨S1600000x1, .f32⟩
  | 44 => ⟨S1600000x1, .f32⟩
  | 45 => ⟨S_, .f32⟩
  | 46 => ⟨S100000x1, .f32⟩
  | 47 => ⟨S1600000x1, .i32⟩
  | 48 => ⟨S100000x1, .f32⟩
  | 49 => ⟨S100000x1, .f32⟩
  | 50 => ⟨S100000x64, .f32⟩
  | 51 => ⟨S1x64, .f32⟩
  | 52 => ⟨S100000x64, .f32⟩
  | 53 => ⟨S100000x64, .f32⟩
  | 54 => ⟨S_, .f32⟩
  | 55 => ⟨S100000x64, .f32⟩
  | 56 => ⟨S100000x64, .f32⟩
  | 57 => ⟨S100000x64, .f32⟩
  | 58 => ⟨S1x64, .f32⟩
  | 59 => ⟨S100000x64, .f32⟩
  | 60 => ⟨S100000x64, .f32⟩
  | 61 => ⟨S_, .f32⟩
  | 62 => ⟨S_, .f32⟩
  | 63 => ⟨S100000x64, .f32⟩
  | 64 => ⟨S100000x64, .i1⟩
  | 65 => ⟨S_, .f32⟩
  | 66 => ⟨S100000x64, .f32⟩
  | 67 => ⟨S100000x64, .f32⟩
  | 68 => ⟨S100000x64, .f32⟩
  | 69 => ⟨S1600000x64, .f32⟩
  | 70 => ⟨S1x64, .f32⟩
  | 71 => ⟨S1600000x64, .f32⟩
  | 72 => ⟨S1600000x64, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x64, .f32⟩
  | 82 => ⟨S1600000x64, .f32⟩
  | 83 => ⟨S_, .f32⟩
  | 84 => ⟨S1600000x64, .f32⟩
  | 85 => ⟨S1600000x64, .f32⟩
  | 86 => ⟨S_, .f32⟩
  | 87 => ⟨S100000x64, .f32⟩
  | 88 => ⟨S1600000x1, .i32⟩
  | 89 => ⟨S100000x64, .f32⟩
  | 90 => ⟨S100000x64, .f32⟩
  | 91 => ⟨S100000x64, .f32⟩
  | 92 => ⟨S1x64, .f32⟩
  | 93 => ⟨S100000x64, .f32⟩
  | 94 => ⟨S100000x64, .f32⟩
  | 95 => ⟨S_, .f32⟩
  | 96 => ⟨S100000x64, .f32⟩
  | 97 => ⟨S100000x64, .f32⟩
  | 98 => ⟨S100000x64, .f32⟩
  | 99 => ⟨S1x64, .f32⟩
  | 100 => ⟨S100000x64, .f32⟩
  | 101 => ⟨S100000x64, .f32⟩
  | 102 => ⟨S_, .f32⟩
  | 103 => ⟨S_, .f32⟩
  | 104 => ⟨S100000x64, .f32⟩
  | 105 => ⟨S100000x64, .i1⟩
  | 106 => ⟨S_, .f32⟩
  | 107 => ⟨S100000x64, .f32⟩
  | 108 => ⟨S100000x64, .f32⟩
  | 109 => ⟨S100000x64, .f32⟩
  | 110 => ⟨S100000x32, .f32⟩
  | 111 => ⟨S1x32, .f32⟩
  | 112 => ⟨S100000x32, .f32⟩
  | 113 => ⟨S100000x32, .f32⟩
  | 114 => ⟨S100000x32, .f32⟩
  | 115 => ⟨S1x32, .f32⟩
  | 116 => ⟨S100000x32, .f32⟩
  | 117 => ⟨S100000x32, .f32⟩
  | 118 => ⟨S_, .f32⟩
  | 119 => ⟨S100000x32, .f32⟩
  | 120 => ⟨S100000x32, .f32⟩
  | 121 => ⟨S100000x32, .f32⟩
  | 122 => ⟨S100000x32, .f32⟩
  | 123 => ⟨S100000x32, .f32⟩
  | 124 => ⟨S_, .f32⟩
  | 125 => ⟨S512x32, .f32⟩
  | 126 => ⟨S100000x1, .i32⟩
  | 127 => ⟨S512x32, .f32⟩
  | _ => ⟨S100000, .f32⟩

abbrev hbmTy0_1 (i : Nat) : BufTy := match i % 128 with
  | 0 => ⟨S_, .f32⟩
  | 1 => ⟨S100000, .f32⟩
  | 2 => ⟨S_, .f32⟩
  | 3 => ⟨S512, .f32⟩
  | 4 => ⟨S100000x1, .i32⟩
  | 5 => ⟨S512, .f32⟩
  | 6 => ⟨S_, .f32⟩
  | 7 => ⟨S512, .f32⟩
  | 8 => ⟨S512, .f32⟩
  | 9 => ⟨S512x1, .f32⟩
  | 10 => ⟨S512x32, .f32⟩
  | 11 => ⟨S512x32, .f32⟩
  | 12 => ⟨S512x6, .f32⟩
  | 13 => ⟨S1x6, .f32⟩
  | 14 => ⟨S512x6, .f32⟩
  | 15 => ⟨S512x6, .f32⟩
  | _ => ⟨S100000, .f32⟩

abbrev hbmTy (i : Nat) : BufTy := match i / 128 with
  | 0 => hbmTy0_0 i
  | 1 => hbmTy0_1 i
  | _ => ⟨S100000, .f32⟩

abbrev bufTy : (tb : Table) → Fin (tcTables nBuf tb) → BufTy
  | .hbm, ⟨i, _⟩ => hbmTy i
  | _, _ => ⟨S100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_c : Ref sig .tc := ⟨.hbm, 32, rfl⟩
abbrev main_v9 : Ref sig .tc := ⟨.hbm, 33, rfl⟩
abbrev main_v10 : Ref sig .tc := ⟨.hbm, 34, rfl⟩
abbrev main_c_0 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_call0_cst : Ref sig .tc := ⟨.hbm, 42, rfl⟩
abbrev main_call0_v0 : Ref sig .tc := ⟨.hbm, 43, rfl⟩
abbrev main_v17 : Ref sig .tc := ⟨.hbm, 44, rfl⟩
abbrev main_cst : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_call1_cst : Ref sig .tc := ⟨.hbm, 54, rfl⟩
abbrev main_call1_v0 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_1 : Ref sig .tc := ⟨.hbm, 61, rfl⟩
abbrev main_call2_cst : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_c_2 : Ref sig .tc := ⟨.hbm, 73, rfl⟩
abbrev main_v36 : Ref sig .tc := ⟨.hbm, 74, rfl⟩
abbrev main_v37 : Ref sig .tc := ⟨.hbm, 75, rfl⟩
abbrev main_c_3 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_call3_cst : Ref sig .tc := ⟨.hbm, 83, rfl⟩
abbrev main_call3_v0 : Ref sig .tc := ⟨.hbm, 84, rfl⟩
abbrev main_v44 : Ref sig .tc := ⟨.hbm, 85, rfl⟩
abbrev main_cst_4 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_call4_cst : Ref sig .tc := ⟨.hbm, 95, rfl⟩
abbrev main_call4_v0 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_5 : Ref sig .tc := ⟨.hbm, 102, rfl⟩
abbrev main_call5_cst : Ref sig .tc := ⟨.hbm, 103, rfl⟩
abbrev main_call5_v0 : Ref sig .tc := ⟨.hbm, 104, rfl⟩
abbrev main_call5_v1 : Ref sig .tc := ⟨.hbm, 105, rfl⟩
abbrev main_call5_v2 : Ref sig .tc := ⟨.hbm, 106, rfl⟩
abbrev main_call5_v3 : Ref sig .tc := ⟨.hbm, 107, rfl⟩
abbrev main_call5_v4 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_cst_6 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_cst_7 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_cst_8 : Ref sig .tc := ⟨.hbm, 128, rfl⟩
abbrev main_v75 : Ref sig .tc := ⟨.hbm, 129, rfl⟩
abbrev main_cst_9 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_cst_10 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩

abbrev nD : Nat := 1
abbrev τ : Topo := Topo.v7x

variable {F : FTy → Type} [FloatOps F]

class Facts₀ : Prop where
  shapeCasts_S100000_S100000x1 : S100000.ShapeCasts S100000x1
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S_S512x32 : S_.BroadcastsInDim S512x32 (![] : Fin 0 → Fin S512x32.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x32_0_1 : S512x1.BroadcastsInDim S512x32 (![0, 1] : Fin 2 → Fin S512x32.rank)
  bcast_S6_S1x6_1 : S6.BroadcastsInDim S1x6 (![1] : Fin 1 → Fin S1x6.rank)
  bcast_S1x6_S512x6_0_1 : S1x6.BroadcastsInDim S512x6 (![0, 1] : Fin 2 → Fin S512x6.rank)
  dot_S1600000x7_S7x1_S1600000x1_1_0_0_1_n_n_wf : DotDims.WF S1600000x7 S7x1 S1600000x1 [1] [0] [0] [1] [] []
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  dot_S100000x1_S1x64_S100000x64_1_0_0_1_n_n_wf : DotDims.WF S100000x1 S1x64 S100000x64 [1] [0] [0] [1] [] []
  dot_S100000x64_S64x64_S100000x64_1_0_0_1_n_n_wf : DotDims.WF S100000x64 S64x64 S100000x64 [1] [0] [0] [1] [] []
  dot_S1600000x7_S7x64_S1600000x64_1_0_0_1_n_n_wf : DotDims.WF S1600000x7 S7x64 S1600000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  scatter_S512x32_S100000x1_S100000x32_1_0_0_1_wf : ScatterDims.WF S512x32 S100000x1 S100000x32 [1] [0] [0] 1
  scatter_S512_S100000x1_S100000_n_0_0_1_wf : ScatterDims.WF S512 S100000x1 S100000 [] [0] [0] 1
  dot_S512x32_S32x6_S512x6_1_0_0_1_n_n_wf : DotDims.WF S512x32 S32x6 S512x6 [1] [0] [0] [1] [] []

variable [Facts₀]

def dot_S1600000x7_S7x1_S1600000x1_1_0_0_1_n_n : DotDims S1600000x7 S7x1 S1600000x1 where
  lhsContracting := [1]
  rhsContracting := [0]
  lhsNonContracting := [0]
  rhsNonContracting := [1]
  lhsBatch := []
  rhsBatch := []
  wf := dot_S1600000x7_S7x1_S1600000x1_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x1_S1x64_S100000x64_1_0_0_1_n_n : DotDims S100000x1 S1x64 S100000x64 where
  lhsContracting := [1]
  rhsContracting := [0]
  lhsNonContracting := [0]
  rhsNonContracting := [1]
  lhsBatch := []
  rhsBatch := []
  wf := dot_S100000x1_S1x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1600000x7_S7x64_S1600000x64_1_0_0_1_n_n : DotDims S1600000x7 S7x64 S1600000x64 where
  lhsContracting := [1]
  rhsContracting := [0]
  lhsNonContracting := [0]
  rhsNonContracting := [1]
  lhsBatch := []
  rhsBatch := []
  wf := dot_S1600000x7_S7x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def scatter_S512x32_S100000x1_S100000x32_1_0_0_1 : ScatterDims S512x32 S100000x1 S100000x32 where
  updateWindowDims := [1]
  insertedWindowDims := [0]
  scatterDimsToOperandDims := [0]
  indexVectorDim := 1
  wf := scatter_S512x32_S100000x1_S100000x32_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x32_S32x6_S512x6_1_0_0_1_n_n : DotDims S512x32 S32x6 S512x6 where
  lhsContracting := [1]
  rhsContracting := [0]
  lhsNonContracting := [0]
  rhsNonContracting := [1]
  lhsBatch := []
  rhsBatch := []
  wf := dot_S512x32_S32x6_S512x6_1_0_0_1_n_n_wf

class Facts : Prop extends Facts₀ where

variable [Facts]
-- ==== Proof.RefTerms.lean ====
/-
  The reference's computation as whole-array terms at the ideal instance (floats are extended reals, every
  operation exact, a change of format the identity), written in the reference program's own operations.

  The network: a two-layer message-passing graph network with edge features, then a variational head and a
  mean pool per graph.  For node features `h`, source and destination node of every edge, and an edge encoding
  `e`:  message `relu (h[src] + e)`, summed into the destination node, added to `h`, then a two-layer
  perceptron with a leaky rectifier.  Layer 1 has one feature per node; layer 2 has 64.  Then
  `mu = h W_mu + b_mu`, `logvar = h W_lv + b_lv`, `z = mu + eps * exp (logvar / 2)`, the per-graph mean of `z`
  (sum over the graph's nodes divided by `max count 1`), and a linear classifier on it.

  The functions are stated over exactly the arrays each stage receives, with a bias given as ONE ROW
  (`[1, d]`), so that a tiled evaluation of a stage can be compared with it directly; the reference's own
  biases are vectors `[d]` laid as a row by `row64` / `row32` / `row6`.
-/
import proofs.«118365_j37108517438028_2_alg».proof.ReferenceIdeal
import proofs.«118365_j37108517438028_2_alg».proof.Proof.Gen.ReferenceIdeal
import Idealize.ShloMosaic.PureOps.Ideal

noncomputable section

namespace Cert.RefTerms

open Idealize.ShloMosaic Cert.ReferenceIdeal Cert.ReferenceIdeal.Facts₀

/-- A float array at the ideal instance. -/
abbrev A (s : Shape) := FVec Ideal s .f32
/-- A 32-bit integer array. -/
abbrev I (s : Shape) := IVec s 32

/-- The scalar zero, one, one half and one tenth (the leaky slope), as the programs spell them. -/
abbrev c0 : A S_ := constant (F := Ideal) S_ .f32 0x00000000#32
abbrev c1 : A S_ := constant (F := Ideal) S_ .f32 0x3F800000#32
abbrev cHalf : A S_ := constant (F := Ideal) S_ .f32 0x3F000000#32
abbrev cTenth : A S_ := constant (F := Ideal) S_ .f32 0x3DCCCCCD#32

/-! ## The edge table -/

/-- Row 0 of the 2 × E edge table (the source nodes), flat. -/
def srcRow (ei : I S2x1600000) : I S1600000 :=
  shapeCast S1600000 (extractStridedSlice S1x1600000 ![0, 0] ei slices_S2x1600000_S1x1600000_0_0) shapeCasts_S1x1600000_S1600000
/-- Row 1 of the edge table (the destination nodes), flat. -/
def dstRow (ei : I S2x1600000) : I S1600000 :=
  shapeCast S1600000 (extractStridedSlice S1x1600000 ![1, 0] ei slices_S2x1600000_S1x1600000_1_0) shapeCasts_S1x1600000_S1600000
/-- The gather's start indices: a negative source index wrapped by the node count, as a column. -/
def srcIdx (ei : I S2x1600000) : I S1600000x1 :=
  broadcastInDim S1600000x1 ![0] bcast_S1600000_S1600000x1_0
    (select (cmpi .slt (srcRow ei) (broadcastInDim S1600000 ![] bcast_S_S1600000 (constantI S_ 32 0#32)))
      (addi (srcRow ei) (broadcastInDim S1600000 ![] bcast_S_S1600000 (constantI S_ 32 100000#32)))
      (srcRow ei))
/-- The scatter's indices: the destination nodes as a column (not wrapped: an index outside the nodes is dropped). -/
def dstIdx (ei : I S2x1600000) : I S1600000x1 :=
  broadcastInDim S1600000x1 ![0] bcast_S1600000_S1600000x1_0 (dstRow ei)

/-! ## Rows, rectifiers -/

/-- A bias vector laid as one row. -/
def row64 (b : A S64) : A S1x64 := broadcastInDim S1x64 ![1] bcast_S64_S1x64_1 b
def row32 (b : A S32) : A S1x32 := broadcastInDim S1x32 ![1] bcast_S32_S1x32_1 b
def row6 (b : A S6) : A S1x6 := broadcastInDim S1x6 ![1] bcast_S6_S1x6_1 b

/-- `max v 0`, per shape. -/
def reluE1 (v : A S1600000x1) : A S1600000x1 := maximumf v (broadcastInDim S1600000x1 ![] bcast_S_S1600000x1 c0)
def reluN (v : A S100000x64) : A S100000x64 := maximumf v (broadcastInDim S100000x64 ![] bcast_S_S100000x64 c0)
def reluE (v : A S1600000x64) : A S1600000x64 := maximumf v (broadcastInDim S1600000x64 ![] bcast_S_S1600000x64 c0)
/-- The leaky rectifier with slope one tenth: `v` where `v ≥ 0`, else `v / 10` (as `0.1 * v`). -/
def leaky (v : A S100000x64) : A S100000x64 :=
  select (cmpf .oge v (broadcastInDim S100000x64 ![] bcast_S_S100000x64 c0)) v
    (mulf (broadcastInDim S100000x64 ![] bcast_S_S100000x64 (id cTenth)) v)

/-! ## The stages, each over the arrays it receives (a bias as one row) -/

/-- The layer-2 edge encoding `edge_attr · W + b`, `[E, 64]`. -/
def encE (ea : A S1600000x7) (W : A S7x64) (b : A S1x64) : A S1600000x64 :=
  addf (Host.dotGeneral dot_S1600000x7_S7x64_S1600000x64_1_0_0_1_n_n none ea W)
    (broadcastInDim S1600000x64 ![0, 1] bcast_S1x64_S1600000x64_0_1 b)

/-- The first perceptron: `leaky (relu (h · Wa + ba) · Wb + bb)` for one feature per node. -/
def mlpA (h : A S100000x1) (Wa : A S1x64) (ba : A S1x64) (Wb : A S64x64) (bb : A S1x64) : A S100000x64 :=
  leaky (addf (Host.dotGeneral dot_S100000x64_S64x64_S100000x64_1_0_0_1_n_n none
      (reluN (addf (Host.dotGeneral dot_S100000x1_S1x64_S100000x64_1_0_0_1_n_n none h Wa)
        (broadcastInDim S100000x64 ![0, 1] bcast_S1x64_S100000x64_0_1 ba))) Wb)
    (broadcastInDim S100000x64 ![0, 1] bcast_S1x64_S100000x64_0_1 bb))

/-- The second perceptron on `h + agg`: `leaky (relu ((h + agg) · Wa + ba) · Wb + bb)`. -/
def mlpB (h agg : A S100000x64) (Wa : A S64x64) (ba : A S1x64) (Wb : A S64x64) (bb : A S1x64) : A S100000x64 :=
  leaky (addf (Host.dotGeneral dot_S100000x64_S64x64_S100000x64_1_0_0_1_n_n none
      (reluN (addf (Host.dotGeneral dot_S100000x64_S64x64_S100000x64_1_0_0_1_n_n none (addf h agg) Wa)
        (broadcastInDim S100000x64 ![0, 1] bcast_S1x64_S100000x64_0_1 ba))) Wb)
    (broadcastInDim S100000x64 ![0, 1] bcast_S1x64_S100000x64_0_1 bb))

/-- A linear head `h · W + b`, `[N, 32]`. -/
def head (h : A S100000x64) (W : A S64x32) (b : A S1x32) : A S100000x32 :=
  addf (Host.dotGeneral dot_S100000x64_S64x32_S100000x32_1_0_0_1_n_n none h W)
    (broadcastInDim S100000x32 ![0, 1] bcast_S1x32_S100000x32_0_1 b)

/-- The reparameterised sample `mu + eps * exp (logvar / 2)` (the half as `0.5 * logvar`). -/
def sample (mu logvar eps : A S100000x32) : A S100000x32 :=
  addf mu (mulf eps (Host.exp (mulf (broadcastInDim S100000x32 ![] bcast_S_S100000x32 cHalf) logvar)))

/-- The classifier `g · W + b`, `[512, 6]`. -/
def classify (g : A S512x32) (W : A S32x6) (b : A S1x6) : A S512x6 :=
  addf (Host.dotGeneral dot_S512x32_S32x6_S512x6_1_0_0_1_n_n none g W)
    (broadcastInDim S512x6 ![0, 1] bcast_S1x6_S512x6_0_1 b)

/-! ## Aggregation over edges and over graphs (the same operations in both programs) -/

/-- Layer-2 aggregation: `relu (h[src] + e)` summed into the destination nodes. -/
def aggB (h : A S100000x64) (ei : I S2x1600000) (e : A S1600000x64) : A S100000x64 :=
  Host.scatterAdd scatter_S100000x64_S1600000x1_S1600000x64_1_0_0_1
    (broadcastInDim S100000x64 ![] bcast_S_S100000x64 c0) (dstIdx ei)
    (reluE (addf (Host.gather gather_S100000x64_S1600000x1_S1600000x64_1_0_n_n_0_1_164 h (srcIdx ei)) e))

/-- The per-graph mean: the sum of `z` over each graph's nodes divided by `max count 1`. -/
def pool (z : A S100000x32) (batch : I S100000) : A S512x32 :=
  Host.divf
    (Host.scatterAdd scatter_S512x32_S100000x1_S100000x32_1_0_0_1
      (broadcastInDim S512x32 ![] bcast_S_S512x32 c0) (broadcastInDim S100000x1 ![0] bcast_S100000_S100000x1_0 batch) z)
    (broadcastInDim S512x32 ![0, 1] bcast_S512x1_S512x32_0_1 (broadcastInDim S512x1 ![0] bcast_S512_S512x1_0
      (maximumf
        (Host.scatterAdd scatter_S512_S100000x1_S100000_n_0_0_1
          (broadcastInDim S512 ![] bcast_S_S512 c0) (broadcastInDim S100000x1 ![0] bcast_S100000_S100000x1_0 batch)
          (broadcastInDim S100000 ![] bcast_S_S100000 c1))
        (broadcastInDim S512 ![] bcast_S_S512 c1))))

/-! ## Layer 1 as the reference computes it: one feature per node, kept as a column -/

/-- The node features as a column `[N, 1]`. -/
def col (x : A S100000) : A S100000x1 := shapeCast S100000x1 x shapeCasts_S100000_S100000x1

/-- The layer-1 edge encoding `edge_attr · W_e1 + b_e1`, a column `[E, 1]`. -/
def encA (ea : A S1600000x7) (W : A S7x1) (b : A S1) : A S1600000x1 :=
  addf (Host.dotGeneral dot_S1600000x7_S7x1_S1600000x1_1_0_0_1_n_n none ea W)
    (broadcastInDim S1600000x1 ![0, 1] bcast_S1x1_S1600000x1_0_1 (broadcastInDim S1x1 ![1] bcast_S1_S1x1_1 b))

/-- Layer 1 before its perceptron: `x + Σ_{edges into the node} relu (x[src] + e)`, a column. -/
def preA (x : A S100000) (ei : I S2x1600000) (ea : A S1600000x7) (W : A S7x1) (b : A S1) : A S100000x1 :=
  addf (col x)
    (Host.scatterAdd scatter_S100000x1_S1600000x1_S1600000x1_1_0_0_1
      (broadcastInDim S100000x1 ![] bcast_S_S100000x1 c0) (dstIdx ei)
      (reluE1 (addf (Host.gather gather_S100000x1_S1600000x1_S1600000x1_1_0_n_n_0_1_11 (col x) (srcIdx ei)) (encA ea W b))))

/-! ## The whole reference -/

/-- The argument arrays, in the programs' order. -/
structure Args where
  x : A S100000
  ei : I S2x1600000
  ea : A S1600000x7
  batch : I S100000
  eps : A S100000x32
  We1 : A S7x1
  be1 : A S1
  W1a : A S1x64
  b1a : A S64
  W1b : A S64x64
  b1b : A S64
  We2 : A S7x64
  be2 : A S64
  W2a : A S64x64
  b2a : A S64
  W2b : A S64x64
  b2b : A S64
  Wmu : A S64x32
  bmu : A S32
  Wlv : A S64x32
  blv : A S32
  Wcls : A S32x6
  bcls : A S6

/-- Node features after layer 1. -/
def h1 (a : Args) : A S100000x64 := mlpA (preA a.x a.ei a.ea a.We1 a.be1) a.W1a (row64 a.b1a) a.W1b (row64 a.b1b)
/-- Node features after layer 2. -/
def h2 (a : Args) : A S100000x64 :=
  mlpB (h1 a) (aggB (h1 a) a.ei (encE a.ea a.We2 (row64 a.be2))) a.W2a (row64 a.b2a) a.W2b (row64 a.b2b)
def mu (a : Args) : A S100000x32 := head (h2 a) a.Wmu (row32 a.bmu)
def logvar (a : Args) : A S100000x32 := head (h2 a) a.Wlv (row32 a.blv)
def z (a : Args) : A S100000x32 := sample (mu a) (logvar a) a.eps
def logits (a : Args) : A S512x6 := classify (pool (z a) a.batch) a.Wcls (row6 a.bcls)

end Cert.RefTerms

end
-- ==== Proof.RRunOps.lean ====
/-
  The reference program's @main as a straight line of host operations, and its run.

  @main calls four outlined functions (three rectifiers `max v 0` at three shapes and a leaky rectifier, which
  itself calls a three-way select).  Each call is replaced by the callee's operations written over that call's
  own buffers, so the whole program is one list: 72 operations for the first part of @main and 49 for the second.
  The run of such a line terminates with every buffer holding the fold of the operations over the launch
  contents; reading particular buffers out of the fold is done in the next module.
-/
import proofs.«118365_j37108517438028_2_alg».proof.ReferenceIdeal
import proofs.«118365_j37108517438028_2_alg».proof.Proof.Gen.ReferenceIdeal
import Idealize.ShloMosaic.Lib.StableHlo.Run

noncomputable section

namespace Cert.ReferenceIdeal.RRun

open Cert.ReferenceIdeal Cert.ReferenceIdeal.Facts₀ Idealize.ShloMosaic Idealize.ShloMosaic.TcCoe Idealize.SL.Sem Idealize.ShloMosaic.StableHlo

variable {F : FTy → Type} [FloatOps F]

/-- The first part of @main: layer 1 (edge table, edge encoding, gather, rectifier, scatter-add, perceptron,
    leaky rectifier) and layer 2 up to the first affine map of its perceptron. -/
abbrev ops0 : List (HloOp τ sig (Elt F)) :=
  [ StableHlo.reshape main_arg0 main_v0 rfl shapeCasts_S100000_S100000x1,
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.unary main_arg1 main_v3 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v3 main_v4 rfl shapeCasts_S1x1600000_S1600000,
    StableHlo.binary main_arg2 main_arg5 main_v5 ((fun l r => Host.dotGeneral dot_S1600000x7_S7x1_S1600000x1_1_0_0_1_n_n none l r) : (⟨S1600000x7, .f32⟩ : BufTy).Contents (Elt F) → (⟨S7x1, .f32⟩ : BufTy).Contents (Elt F) → (⟨S1600000x1, .f32⟩ : BufTy).Contents (Elt F)),
    StableHlo.unary main_arg6 main_v6 (broadcastInDim S1x1 ![1] bcast_S1_S1x1_1 : (⟨S1, .f32⟩ : BufTy).Contents (Elt F) → (⟨S1x1, .f32⟩ : BufTy).Contents (Elt F)),
    StableHlo.unary main_v6 main_v7 (broadcastInDim S1600000x1 ![0, 1] bcast_S1x1_S1600000x1_0_1 : (⟨S1x1, .f32⟩ : BufTy).Contents (Elt F) → (⟨S1600000x1, .f32⟩ : BufTy).Contents (Elt F)),
    StableHlo.binary main_v5 main_v7 main_v8 (addf : (⟨S1600000x1, .f32⟩ : BufTy).Contents (Elt F) → (⟨S1600000x1, .f32⟩ : BufTy).Contents (Elt F) → (⟨S1600000x1, .f32⟩ : BufTy).Contents (Elt F)),
    StableHlo.nullary main_c (constantI S_ 32 0#32),
    StableHlo.unary main_c main_v9 (broadcastInDim S1600000 ![] bcast_S_S1600000 : (⟨S_, .i32⟩ : BufTy).Contents (Elt F) → (⟨S1600000, .i32⟩ : BufTy).Contents (Elt F)),
    StableHlo.binary main_v2 main_v9 main_v10 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v11 (broadcastInDim S1600000 ![] bcast_S_S1600000 : (⟨S_, .i32⟩ : BufTy).Contents (Elt F) → (⟨S1600000, .i32⟩ : BufTy).Contents (Elt F)),
    StableHlo.binary main_v2 main_v11 main_v12 (addi : (⟨S1600000, .i32⟩ : BufTy).Contents (Elt F) → (⟨S1600000, .i32⟩ : BufTy).Contents (Elt F) → (⟨S1600000, .i32⟩ : BufTy).Contents (Elt F)),
    StableHlo.ternary main_v10 main_v12 main_v2 main_v13 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v13 main_v14 (broadcastInDim S1600000x1 ![0] bcast_S1600000_S1600000x1_0 : (⟨S1600000, .i32⟩ : BufTy).Contents (Elt F) → (⟨S1600000x1, .i32⟩ : BufTy).Contents (Elt F)),
    StableHlo.binary main_v0 main_v14 main_v15 ((fun x i => Host.gather gather_S100000x1_S1600000x1_S1600000x1_1_0_n_n_0_1_11 x i) : (⟨S100000x1, .f32⟩ : BufTy).Contents (Elt F) → (⟨S1600000x1, .i32⟩ : BufTy).Contents (Elt F) → (⟨S1600000x1, .f32⟩ : BufTy).Contents (Elt F)),
    StableHlo.binary main_v15 main_v8 main_v16 (addf : (⟨S1600000x1, .f32⟩ : BufTy).Contents (Elt F) → (⟨S1600000x1, .f32⟩ : BufTy).Contents (Elt F) → (⟨S1600000x1, .f32⟩ : BufTy).Contents (Elt F)),
    StableHlo.TRef.nullary main_call0.cst (constant S_ .f32 0x00000000#32),
    StableHlo.TRef.unary main_call0.cst main_call0.v0 (broadcastInDim S1600000x1 ![] bcast_S_S1600000x1),
    StableHlo.TRef.binary (.of main_v16) main_call0.v0 main_call0.v1 maximumf,
    StableHlo.nullary main_cst (constant S_ .f32 0x00000000#32),
    StableHlo.unary main_cst main_v18 (broadcastInDim S100000x1 ![] bcast_S_S100000x1 : (⟨S_, .f32⟩ : BufTy).Contents (Elt F) → (⟨S100000x1, .f32⟩ : BufTy).Contents (Elt F)),
    StableHlo.unary main_v4 main_v19 (broadcastInDim S1600000x1 ![0] bcast_S1600000_S1600000x1_0 : (⟨S1600000, .i32⟩ : BufTy).Contents (Elt F) → (⟨S1600000x1, .i32⟩ : BufTy).Contents (Elt F)),
    StableHlo.ternary main_v18 main_v19 main_v17 main_v20 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    StableHlo.binary main_v0 main_v20 main_v21 (addf : (⟨S100000x1, .f32⟩ : BufTy).Contents (Elt F) → (⟨S100000x1, .f32⟩ : BufTy).Contents (Elt F) → (⟨S100000x1, .f32⟩ : BufTy).Contents (Elt F)),
    StableHlo.binary main_v21 main_arg7 main_v22 ((fun l r => Host.dotGeneral dot_S100000x1_S1x64_S100000x64_1_0_0_1_n_n none l r) : (⟨S100000x1, .f32⟩ : BufTy).Contents (Elt F) → (⟨S1x64, .f32⟩ : BufTy).Contents (Elt F) → (⟨S100000x64, .f32⟩ : BufTy).Contents (Elt F)),
    StableHlo.unary main_arg8 main_v23 (broadcastInDim S1x64 ![1] bcast_S64_S1x64_1 : (⟨S64, .f32⟩ : BufTy).Contents (Elt F) → (⟨S1x64, .f32⟩ : BufTy).Contents (Elt F)),
    StableHlo.unary main_v23 main_v24 (broadcastInDim S100000x64 ![0, 1] bcast_S1x64_S100000x64_0_1 : (⟨S1x64, .f32⟩ : BufTy).Contents (Elt F) → (⟨S100000x64, .f32⟩ : BufTy).Contents (Elt F)),
    StableHlo.binary main_v22 main_v24 main_v25 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v25) main_call1.v0 main_call1.v1 maximumf,
    StableHlo.binary main_v26 main_arg9 main_v27 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg10 main_v28 (broadcastInDim S1x64 ![1] bcast_S64_S1x64_1 : (⟨S64, .f32⟩ : BufTy).Contents (Elt F) → (⟨S1x64, .f32⟩ : BufTy).Contents (Elt F)),
    StableHlo.unary main_v28 main_v29 (broadcastInDim S100000x64 ![0, 1] bcast_S1x64_S100000x64_0_1 : (⟨S1x64, .f32⟩ : BufTy).Contents (Elt F) → (⟨S100000x64, .f32⟩ : BufTy).Contents (Elt F)),
    StableHlo.binary main_v27 main_v29 main_v30 (addf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x3DCCCCCD#32),
    StableHlo.TRef.nullary main_call2.cst (constant S_ .f32 0x00000000#32),
    StableHlo.TRef.unary main_call2.cst main_call2.v0 (broadcastInDim S100000x64 ![] bcast_S_S100000x64),
    StableHlo.TRef.binary (.of main_v30) main_call2.v0 main_call2.v1 (cmpf .oge),
    StableHlo.TRef.unary (.of main_cst_1) main_call2.v2 id,
    StableHlo.TRef.unary main_call2.v2 main_call2.v3 (broadcastInDim S100000x64 ![] bcast_S_S100000x64),
    StableHlo.TRef.binary main_call2.v3 (.of main_v30) main_call2.v4 mulf,
    StableHlo.TRef.ternary main_call2.v1 (.of main_v30) main_call2.v4 main_call2.call0.v0 select,
    StableHlo.binary main_arg2 main_arg11 main_v32 ((fun l r => Host.dotGeneral dot_S1600000x7_S7x64_S1600000x64_1_0_0_1_n_n none l r) : (⟨S1600000x7, .f32⟩ : BufTy).Contents (Elt F) → (⟨S7x64, .f32⟩ : BufTy).Contents (Elt F) → (⟨S1600000x64, .f32⟩ : BufTy).Contents (Elt F)),
    StableHlo.unary main_arg12 main_v33 (broadcastInDim S1x64 ![1] bcast_S64_S1x64_1 : (⟨S64, .f32⟩ : BufTy).Contents (Elt F) → (⟨S1x64, .f32⟩ : BufTy).Contents (Elt F)),
    StableHlo.unary main_v33 main_v34 (broadcastInDim S1600000x64 ![0, 1] bcast_S1x64_S1600000x64_0_1 : (⟨S1x64, .f32⟩ : BufTy).Contents (Elt F) → (⟨S1600000x64, .f32⟩ : BufTy).Contents (Elt F)),
    StableHlo.binary main_v32 main_v34 main_v35 (addf : (⟨S1600000x64, .f32⟩ : BufTy).Contents (Elt F) → (⟨S1600000x64, .f32⟩ : BufTy).Contents (Elt F) → (⟨S1600000x64, .f32⟩ : BufTy).Contents (Elt F)),
    StableHlo.nullary main_c_2 (constantI S_ 32 0#32),
    StableHlo.unary main_c_2 main_v36 (broadcastInDim S1600000 ![] bcast_S_S1600000 : (⟨S_, .i32⟩ : BufTy).Contents (Elt F) → (⟨S1600000, .i32⟩ : BufTy).Contents (Elt F)),
    StableHlo.binary main_v2 main_v36 main_v37 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v38 (broadcastInDim S1600000 ![] bcast_S_S1600000 : (⟨S_, .i32⟩ : BufTy).Contents (Elt F) → (⟨S1600000, .i32⟩ : BufTy).Contents (Elt F)),
    StableHlo.binary main_v2 main_v38 main_v39 (addi : (⟨S1600000, .i32⟩ : BufTy).Contents (Elt F) → (⟨S1600000, .i32⟩ : BufTy).Contents (Elt F) → (⟨S1600000, .i32⟩ : BufTy).Contents (Elt F)),
    StableHlo.ternary main_v37 main_v39 main_v2 main_v40 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v40 main_v41 (broadcastInDim S1600000x1 ![0] bcast_S1600000_S1600000x1_0 : (⟨S1600000, .i32⟩ : BufTy).Contents (Elt F) → (⟨S1600000x1, .i32⟩ : BufTy).Contents (Elt F)),
    StableHlo.binary main_v31 main_v41 main_v42 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.binary main_v42 main_v35 main_v43 (addf : (⟨S1600000x64, .f32⟩ : BufTy).Contents (Elt F) → (⟨S1600000x64, .f32⟩ : BufTy).Contents (Elt F) → (⟨S1600000x64, .f32⟩ : BufTy).Contents (Elt F)),
    StableHlo.TRef.nullary main_call3.cst (constant S_ .f32 0x00000000#32),
    StableHlo.TRef.unary main_call3.cst main_call3.v0 (broadcastInDim S1600000x64 ![] bcast_S_S1600000x64),
    StableHlo.TRef.binary (.of main_v43) main_call3.v0 main_call3.v1 maximumf,
    StableHlo.nullary main_cst_4 (constant S_ .f32 0x00000000#32),
    StableHlo.unary main_cst_4 main_v45 (broadcastInDim S100000x64 ![] bcast_S_S100000x64 : (⟨S_, .f32⟩ : BufTy).Contents (Elt F) → (⟨S100000x64, .f32⟩ : BufTy).Contents (Elt F)),
    StableHlo.unary main_v4 main_v46 (broadcastInDim S1600000x1 ![0] bcast_S1600000_S1600000x1_0 : (⟨S1600000, .i32⟩ : BufTy).Contents (Elt F) → (⟨S1600000x1, .i32⟩ : BufTy).Contents (Elt F)),
    StableHlo.ternary main_v45 main_v46 main_v44 main_v47 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v31 main_v47 main_v48 (addf : (⟨S100000x64, .f32⟩ : BufTy).Contents (Elt F) → (⟨S100000x64, .f32⟩ : BufTy).Contents (Elt F) → (⟨S100000x64, .f32⟩ : BufTy).Contents (Elt F)),
    StableHlo.binary main_v48 main_arg13 main_v49 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg14 main_v50 (broadcastInDim S1x64 ![1] bcast_S64_S1x64_1 : (⟨S64, .f32⟩ : BufTy).Contents (Elt F) → (⟨S1x64, .f32⟩ : BufTy).Contents (Elt F)),
    StableHlo.unary main_v50 main_v51 (broadcastInDim S100000x64 ![0, 1] bcast_S1x64_S100000x64_0_1 : (⟨S1x64, .f32⟩ : BufTy).Contents (Elt F) → (⟨S100000x64, .f32⟩ : BufTy).Contents (Elt F)),
    StableHlo.binary main_v49 main_v51 main_v52 (addf : (⟨S100000x64, .f32⟩ : BufTy).Contents (Elt F) → (⟨S100000x64, .f32⟩ : BufTy).Contents (Elt F) → (⟨S100000x64, .f32⟩ : BufTy).Contents (Elt F)) ]

/-- The second part of @main: the rest of layer 2's perceptron, the two linear heads, the sample, the per-graph
    mean and the classifier. -/
abbrev ops1 : List (HloOp τ sig (Elt F)) :=
  [ StableHlo.TRef.nullary main_call4.cst (constant S_ .f32 0x00000000#32),
    StableHlo.TRef.unary main_call4.cst main_call4.v0 (broadcastInDim S100000x64 ![] bcast_S_S100000x64),
    StableHlo.TRef.binary (.of main_v52) main_call4.v0 main_call4.v1 maximumf,
    StableHlo.binary main_v53 main_arg15 main_v54 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg16 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S100000x64 ![0, 1] bcast_S1x64_S100000x64_0_1 : (⟨S1x64, .f32⟩ : BufTy).Contents (Elt F) → (⟨S100000x64, .f32⟩ : BufTy).Contents (Elt F)),
    StableHlo.binary main_v54 main_v56 main_v57 (addf : (⟨S100000x64, .f32⟩ : BufTy).Contents (Elt F) → (⟨S100000x64, .f32⟩ : BufTy).Contents (Elt F) → (⟨S100000x64, .f32⟩ : BufTy).Contents (Elt F)),
    StableHlo.nullary main_cst_5 (constant S_ .f32 0x3DCCCCCD#32),
    StableHlo.TRef.nullary main_call5.cst (constant S_ .f32 0x00000000#32),
    StableHlo.TRef.unary main_call5.cst main_call5.v0 (broadcastInDim S100000x64 ![] bcast_S_S100000x64),
    StableHlo.TRef.binary (.of main_v57) main_call5.v0 main_call5.v1 (cmpf .oge),
    StableHlo.TRef.unary (.of main_cst_5) main_call5.v2 id,
    StableHlo.TRef.unary main_call5.v2 main_call5.v3 (broadcastInDim S100000x64 ![] bcast_S_S100000x64),
    StableHlo.TRef.binary main_call5.v3 (.of main_v57) main_call5.v4 mulf,
    StableHlo.TRef.ternary main_call5.v1 (.of main_v57) main_call5.v4 main_call5.call0.v0 select,
    StableHlo.binary main_v58 main_arg17 main_v59 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg18 main_v60 (broadcastInDim S1x32 ![1] bcast_S32_S1x32_1 : (⟨S32, .f32⟩ : BufTy).Contents (Elt F) → (⟨S1x32, .f32⟩ : BufTy).Contents (Elt F)),
    StableHlo.unary main_v60 main_v61 (broadcastInDim S100000x32 ![0, 1] bcast_S1x32_S100000x32_0_1 : (⟨S1x32, .f32⟩ : BufTy).Contents (Elt F) → (⟨S100000x32, .f32⟩ : BufTy).Contents (Elt F)),
    StableHlo.binary main_v59 main_v61 main_v62 (addf : (⟨S100000x32, .f32⟩ : BufTy).Contents (Elt F) → (⟨S100000x32, .f32⟩ : BufTy).Contents (Elt F) → (⟨S100000x32, .f32⟩ : BufTy).Contents (Elt F)),
    StableHlo.binary main_v58 main_arg19 main_v63 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg20 main_v64 (broadcastInDim S1x32 ![1] bcast_S32_S1x32_1 : (⟨S32, .f32⟩ : BufTy).Contents (Elt F) → (⟨S1x32, .f32⟩ : BufTy).Contents (Elt F)),
    StableHlo.unary main_v64 main_v65 (broadcastInDim S100000x32 ![0, 1] bcast_S1x32_S100000x32_0_1 : (⟨S1x32, .f32⟩ : BufTy).Contents (Elt F) → (⟨S100000x32, .f32⟩ : BufTy).Contents (Elt F)),
    StableHlo.binary main_v63 main_v65 main_v66 (addf : (⟨S100000x32, .f32⟩ : BufTy).Contents (Elt F) → (⟨S100000x32, .f32⟩ : BufTy).Contents (Elt F) → (⟨S100000x32, .f32⟩ : BufTy).Contents (Elt F)),
    StableHlo.nullary main_cst_6 (constant S_ .f32 0x3F000000#32),
    StableHlo.unary main_cst_6 main_v67 (broadcastInDim S100000x32 ![] bcast_S_S100000x32 : (⟨S_, .f32⟩ : BufTy).Contents (Elt F) → (⟨S100000x32, .f32⟩ : BufTy).Contents (Elt F)),
    StableHlo.binary main_v67 main_v66 main_v68 (mulf : (⟨S100000x32, .f32⟩ : BufTy).Contents (Elt F) → (⟨S100000x32, .f32⟩ : BufTy).Contents (Elt F) → (⟨S100000x32, .f32⟩ : BufTy).Contents (Elt F)),
    StableHlo.unary main_v68 main_v69 (Host.exp : (⟨S100000x32, .f32⟩ : BufTy).Contents (Elt F) → (⟨S100000x32, .f32⟩ : BufTy).Contents (Elt F)),
    StableHlo.binary main_arg4 main_v69 main_v70 (mulf : (⟨S100000x32, .f32⟩ : BufTy).Contents (Elt F) → (⟨S100000x32, .f32⟩ : BufTy).Contents (Elt F) → (⟨S100000x32, .f32⟩ : BufTy).Contents (Elt F)),
    StableHlo.binary main_v62 main_v70 main_v71 (addf : (⟨S100000x32, .f32⟩ : BufTy).Contents (Elt F) → (⟨S100000x32, .f32⟩ : BufTy).Contents (Elt F) → (⟨S100000x32, .f32⟩ : BufTy).Contents (Elt F)),
    StableHlo.nullary main_cst_7 (constant S_ .f32 0x00000000#32),
    StableHlo.unary main_cst_7 main_v72 (broadcastInDim S512x32 ![] bcast_S_S512x32 : (⟨S_, .f32⟩ : BufTy).Contents (Elt F) → (⟨S512x32, .f32⟩ : BufTy).Contents (Elt F)),
    StableHlo.unary main_arg3 main_v73 (broadcastInDim S100000x1 ![0] bcast_S100000_S100000x1_0 : (⟨S100000, .i32⟩ : BufTy).Contents (Elt F) → (⟨S100000x1, .i32⟩ : BufTy).Contents (Elt F)),
    StableHlo.ternary main_v72 main_v73 main_v71 main_v74 ((fun x i u => Host.scatterAdd scatter_S512x32_S100000x1_S100000x32_1_0_0_1 x i u) : (⟨S512x32, .f32⟩ : BufTy).Contents (Elt F) → (⟨S100000x1, .i32⟩ : BufTy).Contents (Elt F) → (⟨S100000x32, .f32⟩ : BufTy).Contents (Elt F) → (⟨S512x32, .f32⟩ : BufTy).Contents (Elt F)),
    StableHlo.nullary main_cst_8 (constant S_ .f32 0x3F800000#32),
    StableHlo.unary main_cst_8 main_v75 (broadcastInDim S100000 ![] bcast_S_S100000 : (⟨S_, .f32⟩ : BufTy).Contents (Elt F) → (⟨S100000, .f32⟩ : BufTy).Contents (Elt F)),
    StableHlo.nullary main_cst_9 (constant S_ .f32 0x00000000#32),
    StableHlo.unary main_cst_9 main_v76 (broadcastInDim S512 ![] bcast_S_S512 : (⟨S_, .f32⟩ : BufTy).Contents (Elt F) → (⟨S512, .f32⟩ : BufTy).Contents (Elt F)),
    StableHlo.unary main_arg3 main_v77 (broadcastInDim S100000x1 ![0] bcast_S100000_S100000x1_0 : (⟨S100000, .i32⟩ : BufTy).Contents (Elt F) → (⟨S100000x1, .i32⟩ : BufTy).Contents (Elt F)),
    StableHlo.ternary main_v76 main_v77 main_v75 main_v78 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    StableHlo.nullary main_cst_10 (constant S_ .f32 0x3F800000#32),
    StableHlo.unary main_cst_10 main_v79 (broadcastInDim S512 ![] bcast_S_S512 : (⟨S_, .f32⟩ : BufTy).Contents (Elt F) → (⟨S512, .f32⟩ : BufTy).Contents (Elt F)),
    StableHlo.binary main_v78 main_v79 main_v80 (maximumf : (⟨S512, .f32⟩ : BufTy).Contents (Elt F) → (⟨S512, .f32⟩ : BufTy).Contents (Elt F) → (⟨S512, .f32⟩ : BufTy).Contents (Elt F)),
    StableHlo.unary main_v80 main_v81 (broadcastInDim S512x1 ![0] bcast_S512_S512x1_0 : (⟨S512, .f32⟩ : BufTy).Contents (Elt F) → (⟨S512x1, .f32⟩ : BufTy).Contents (Elt F)),
    StableHlo.unary main_v81 main_v82 (broadcastInDim S512x32 ![0, 1] bcast_S512x1_S512x32_0_1 : (⟨S512x1, .f32⟩ : BufTy).Contents (Elt F) → (⟨S512x32, .f32⟩ : BufTy).Contents (Elt F)),
    StableHlo.binary main_v74 main_v82 main_v83 (Host.divf : (⟨S512x32, .f32⟩ : BufTy).Contents (Elt F) → (⟨S512x32, .f32⟩ : BufTy).Contents (Elt F) → (⟨S512x32, .f32⟩ : BufTy).Contents (Elt F)),
    StableHlo.binary main_v83 main_arg21 main_v84 ((fun l r => Host.dotGeneral dot_S512x32_S32x6_S512x6_1_0_0_1_n_n none l r) : (⟨S512x32, .f32⟩ : BufTy).Contents (Elt F) → (⟨S32x6, .f32⟩ : BufTy).Contents (Elt F) → (⟨S512x6, .f32⟩ : BufTy).Contents (Elt F)),
    StableHlo.unary main_arg22 main_v85 (broadcastInDim S1x6 ![1] bcast_S6_S1x6_1 : (⟨S6, .f32⟩ : BufTy).Contents (Elt F) → (⟨S1x6, .f32⟩ : BufTy).Contents (Elt F)),
    StableHlo.unary main_v85 main_v86 (broadcastInDim S512x6 ![0, 1] bcast_S1x6_S512x6_0_1 : (⟨S1x6, .f32⟩ : BufTy).Contents (Elt F) → (⟨S512x6, .f32⟩ : BufTy).Contents (Elt F)),
    StableHlo.binary main_v84 main_v86 main_v87 (addf : (⟨S512x6, .f32⟩ : BufTy).Contents (Elt F) → (⟨S512x6, .f32⟩ : BufTy).Contents (Elt F) → (⟨S512x6, .f32⟩ : BufTy).Contents (Elt F)) ]

/-- The whole line. -/
abbrev ops : List (HloOp τ sig (Elt F)) := ops0 ++ ops1

set_option maxRecDepth 8192 in
set_option maxHeartbeats 4000000 in
/-- The first part is its line: the callees unfolded at their calls, sequencing reassociated. -/
theorem part0_eq (c : Dev nD) : main_part0 (F := F) c = seq ops0 := by
  simp only [main_part0, fn_relu.body, fn_relu_0.body, fn_where.body, fn_leaky_relu.body, fn_relu_1.body, seq,
    bind_assoc, pure_bind]
  rfl

set_option maxRecDepth 8192 in
set_option maxHeartbeats 4000000 in
theorem part1_eq (c : Dev nD) : main_part1 (F := F) c = seq ops1 := by
  simp only [main_part1, fn_relu_0.body, fn_where.body, fn_leaky_relu.body, seq, bind_assoc, pure_bind]

/-- @main runs its two parts in order, which is the concatenated line. -/
theorem main_eq (c : Dev nD) : main (F := F) c = seq ops := by
  rw [seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub ..⟩

set_option maxRecDepth 8192 in
theorem ops1_sub : (ops1 : List (HloOp τ sig (Elt F))).Forall fun op => op.bufs ⊆ tcRefs τ sig :=
  ⟨nullary_bufs_sub .., unary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    rcases List.mem_append.mp h with h | h
    exacts [List.forall_iff_forall_mem.mp ops0_sub op h, List.forall_iff_forall_mem.mp ops1_sub op h]

set_option maxRecDepth 8192 in
/-- Every operation determines its results. -/
theorem ops0_fresh : ∀ op ∈ (ops0 : List (HloOp τ sig (Elt F))), op.fresh = ∅ := by
  intro _ h
  repeat (cases h with | head => rfl | tail _ h => ?_)
  exact nomatch h

set_option maxRecDepth 8192 in
theorem ops1_fresh : ∀ op ∈ (ops1 : List (HloOp τ sig (Elt F))), op.fresh = ∅ := by
  intro _ h
  repeat (cases h with | head => rfl | tail _ h => ?_)
  exact nomatch h

/-- From any memory with zero counters every weakly fair execution of @main terminates, and every buffer ends at
    the fold of the line over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ
    (fun _ op h => by
      rcases List.mem_append.mp h with h | h
      exacts [ops0_fresh op h, ops1_fresh op h])

end Cert.ReferenceIdeal.RRun

end
-- ==== Proof.RRun.lean ====
/-
  The reference's four results as the network's terms of its argument arrays.

  The reference is one straight line of host operations (the previous module).  It is cut into six stages, each ending
  where a named part of the network ends:

    1. the edge table's two rows, the layer-1 edge encoding, and `x + Σ relu (x[src] + e)` as a column;
    2. the first perceptron with its leaky rectifier (node features after layer 1);
    3. the layer-2 edge encoding and the aggregation `Σ relu (h[src] + e)` into the destination nodes;
    4. the second perceptron on `h + agg` (node features after layer 2);
    5. the two linear heads and the sample `mu + eps * exp (logvar / 2)`;
    6. the per-graph mean of the sample and the classifier.

  For each stage, from ANY contents of the buffers, the stage's result buffer holds the stage's function of the buffers it
  reads; a buffer a stage does not write keeps its contents.  Chaining the six gives each result after the whole line
  as a term of the argument arrays alone, and the arguments themselves unchanged.
-/
import proofs.«118365_j37108517438028_2_alg».proof.Proof.RRunOps
import proofs.«118365_j37108517438028_2_alg».proof.Proof.RefTerms
import Idealize.ShloMosaic.Lib.Pipeline.Frame

noncomputable section

namespace Cert.ReferenceIdeal.RRun

open Cert.ReferenceIdeal Cert.ReferenceIdeal.Facts₀ Idealize.ShloMosaic Idealize.ShloMosaic.TcCoe Idealize.SL.Sem Idealize.ShloMosaic.StableHlo
open Cert.RefTerms (A I)

/-! ## The edge table's columns from its two rows

The gather's and the scatter's index columns are recomputed in the second layer from the same two rows of the edge
table the first layer sliced out, so they are stated here over the rows. -/

/-- The gather's start indices from the source row: a negative index wrapped by the node count, as a column. -/
def srcIdxOf (r : I S1600000) : I S1600000x1 :=
  broadcastInDim S1600000x1 ![0] bcast_S1600000_S1600000x1_0
    (select (cmpi .slt r (broadcastInDim S1600000 ![] bcast_S_S1600000 (constantI S_ 32 0#32)))
      (addi r (broadcastInDim S1600000 ![] bcast_S_S1600000 (constantI S_ 32 100000#32)))
      r)

/-- The scatter's indices from the destination row, as a column. -/
def dstIdxOf (r : I S1600000) : I S1600000x1 :=
  broadcastInDim S1600000x1 ![0] bcast_S1600000_S1600000x1_0 r

/-- The layer-2 aggregation over the two rows: `relu (h[src] + e)` summed into the destination nodes. -/
def aggOf (h : A S100000x64) (src dst : I S1600000) (e : A S1600000x64) : A S100000x64 :=
  Host.scatterAdd scatter_S100000x64_S1600000x1_S1600000x64_1_0_0_1
    (broadcastInDim S100000x64 ![] bcast_S_S100000x64 Cert.RefTerms.c0) (dstIdxOf dst)
    (Cert.RefTerms.reluE (addf (Host.gather gather_S100000x64_S1600000x1_S1600000x64_1_0_n_n_0_1_164 h (srcIdxOf src)) e))

theorem aggB_eq (h : A S100000x64) (ei : I S2x1600000) (e : A S1600000x64) :
    Cert.RefTerms.aggB h ei e = aggOf h (Cert.RefTerms.srcRow ei) (Cert.RefTerms.dstRow ei) e := rfl

/-! ## The line cut into six stages -/

section Stages
variable {F : FTy → Type} [FloatOps F]

abbrev s1 : List (HloOp τ sig (Elt F)) :=
  [ StableHlo.reshape main_arg0 main_v0 rfl shapeCasts_S100000_S100000x1,
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.unary main_arg1 main_v3 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v3 main_v4 rfl shapeCasts_S1x1600000_S1600000,
    StableHlo.binary main_arg2 main_arg5 main_v5 ((fun l r => Host.dotGeneral dot_S1600000x7_S7x1_S1600000x1_1_0_0_1_n_n none l r) : (⟨S1600000x7, .f32⟩ : BufTy).Contents (Elt F) → (⟨S7x1, .f32⟩ : BufTy).Contents (Elt F) → (⟨S1600000x1, .f32⟩ : BufTy).Contents (Elt F)),
    StableHlo.unary main_arg6 main_v6 (broadcastInDim S1x1 ![1] bcast_S1_S1x1_1 : (⟨S1, .f32⟩ : BufTy).Contents (Elt F) → (⟨S1x1, .f32⟩ : BufTy).Contents (Elt F)),
    StableHlo.unary main_v6 main_v7 (broadcastInDim S1600000x1 ![0, 1] bcast_S1x1_S1600000x1_0_1 : (⟨S1x1, .f32⟩ : BufTy).Contents (Elt F) → (⟨S1600000x1, .f32⟩ : BufTy).Contents (Elt F)),
    StableHlo.binary main_v5 main_v7 main_v8 (addf : (⟨S1600000x1, .f32⟩ : BufTy).Contents (Elt F) → (⟨S1600000x1, .f32⟩ : BufTy).Contents (Elt F) → (⟨S1600000x1, .f32⟩ : BufTy).Contents (Elt F)),
    StableHlo.nullary main_c (constantI S_ 32 0#32),
    StableHlo.unary main_c main_v9 (broadcastInDim S1600000 ![] bcast_S_S1600000 : (⟨S_, .i32⟩ : BufTy).Contents (Elt F) → (⟨S1600000, .i32⟩ : BufTy).Contents (Elt F)),
    StableHlo.binary main_v2 main_v9 main_v10 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v11 (broadcastInDim S1600000 ![] bcast_S_S1600000 : (⟨S_, .i32⟩ : BufTy).Contents (Elt F) → (⟨S1600000, .i32⟩ : BufTy).Contents (Elt F)),
    StableHlo.binary main_v2 main_v11 main_v12 (addi : (⟨S1600000, .i32⟩ : BufTy).Contents (Elt F) → (⟨S1600000, .i32⟩ : BufTy).Contents (Elt F) → (⟨S1600000, .i32⟩ : BufTy).Contents (Elt F)),
    StableHlo.ternary main_v10 main_v12 main_v2 main_v13 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v13 main_v14 (broadcastInDim S1600000x1 ![0] bcast_S1600000_S1600000x1_0 : (⟨S1600000, .i32⟩ : BufTy).Contents (Elt F) → (⟨S1600000x1, .i32⟩ : BufTy).Contents (Elt F)),
    StableHlo.binary main_v0 main_v14 main_v15 ((fun x i => Host.gather gather_S100000x1_S1600000x1_S1600000x1_1_0_n_n_0_1_11 x i) : (⟨S100000x1, .f32⟩ : BufTy).Contents (Elt F) → (⟨S1600000x1, .i32⟩ : BufTy).Contents (Elt F) → (⟨S1600000x1, .f32⟩ : BufTy).Contents (Elt F)),
    StableHlo.binary main_v15 main_v8 main_v16 (addf : (⟨S1600000x1, .f32⟩ : BufTy).Contents (Elt F) → (⟨S1600000x1, .f32⟩ : BufTy).Contents (Elt F) → (⟨S1600000x1, .f32⟩ : BufTy).Contents (Elt F)),
    StableHlo.TRef.nullary main_call0.cst (constant S_ .f32 0x00000000#32),
    StableHlo.TRef.unary main_call0.cst main_call0.v0 (broadcastInDim S1600000x1 ![] bcast_S_S1600000x1),
    StableHlo.TRef.binary (.of main_v16) main_call0.v0 main_call0.v1 maximumf,
    StableHlo.nullary main_cst (constant S_ .f32 0x00000000#32),
    StableHlo.unary main_cst main_v18 (broadcastInDim S100000x1 ![] bcast_S_S100000x1 : (⟨S_, .f32⟩ : BufTy).Contents (Elt F) → (⟨S100000x1, .f32⟩ : BufTy).Contents (Elt F)),
    StableHlo.unary main_v4 main_v19 (broadcastInDim S1600000x1 ![0] bcast_S1600000_S1600000x1_0 : (⟨S1600000, .i32⟩ : BufTy).Contents (Elt F) → (⟨S1600000x1, .i32⟩ : BufTy).Contents (Elt F)),
    StableHlo.ternary main_v18 main_v19 main_v17 main_v20 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    StableHlo.binary main_v0 main_v20 main_v21 (addf : (⟨S100000x1, .f32⟩ : BufTy).Contents (Elt F) → (⟨S100000x1, .f32⟩ : BufTy).Contents (Elt F) → (⟨S100000x1, .f32⟩ : BufTy).Contents (Elt F)) ]

/-- The buffers stage 1 writes. -/
abbrev W1 : List (Ref sig .tc) := [main_v0, main_v1, main_v2, main_v3, main_v4, main_v5, main_v6, main_v7, main_v8, main_c, main_v9, main_v10, main_c_0, main_v11, main_v12, main_v13, main_v14, main_v15, main_v16, main_call0_cst, main_call0_v0, main_v17, main_cst, main_v18, main_v19, main_v20, main_v21]

set_option maxRecDepth 8192 in
theorem s1_writes : (s1 : List (HloOp τ sig (Elt F))).Forall fun op => op.writes ⊆ (W1.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer stage 1 does not write keeps its contents through it. -/
theorem s1_keep (V : Valuation τ sig (Elt F)) (r : Ref sig .tc) (h : r ∉ W1) :
    after s1 V (Proc.devRef .tc r) = V (Proc.devRef .tc r) :=
  after_of_writes_sub s1 V s1_writes h

abbrev s2 : List (HloOp τ sig (Elt F)) :=
  [ StableHlo.binary main_v21 main_arg7 main_v22 ((fun l r => Host.dotGeneral dot_S100000x1_S1x64_S100000x64_1_0_0_1_n_n none l r) : (⟨S100000x1, .f32⟩ : BufTy).Contents (Elt F) → (⟨S1x64, .f32⟩ : BufTy).Contents (Elt F) → (⟨S100000x64, .f32⟩ : BufTy).Contents (Elt F)),
    StableHlo.unary main_arg8 main_v23 (broadcastInDim S1x64 ![1] bcast_S64_S1x64_1 : (⟨S64, .f32⟩ : BufTy).Contents (Elt F) → (⟨S1x64, .f32⟩ : BufTy).Contents (Elt F)),
    StableHlo.unary main_v23 main_v24 (broadcastInDim S100000x64 ![0, 1] bcast_S1x64_S100000x64_0_1 : (⟨S1x64, .f32⟩ : BufTy).Contents (Elt F) → (⟨S100000x64, .f32⟩ : BufTy).Contents (Elt F)),
    StableHlo.binary main_v22 main_v24 main_v25 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v25) main_call1.v0 main_call1.v1 maximumf,
    StableHlo.binary main_v26 main_arg9 main_v27 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg10 main_v28 (broadcastInDim S1x64 ![1] bcast_S64_S1x64_1 : (⟨S64, .f32⟩ : BufTy).Contents (Elt F) → (⟨S1x64, .f32⟩ : BufTy).Contents (Elt F)),
    StableHlo.unary main_v28 main_v29 (broadcastInDim S100000x64 ![0, 1] bcast_S1x64_S100000x64_0_1 : (⟨S1x64, .f32⟩ : BufTy).Contents (Elt F) → (⟨S100000x64, .f32⟩ : BufTy).Contents (Elt F)),
    StableHlo.binary main_v27 main_v29 main_v30 (addf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x3DCCCCCD#32),
    StableHlo.TRef.nullary main_call2.cst (constant S_ .f32 0x00000000#32),
    StableHlo.TRef.unary main_call2.cst main_call2.v0 (broadcastInDim S100000x64 ![] bcast_S_S100000x64),
    StableHlo.TRef.binary (.of main_v30) main_call2.v0 main_call2.v1 (cmpf .oge),
    StableHlo.TRef.unary (.of main_cst_1) main_call2.v2 id,
    StableHlo.TRef.unary main_call2.v2 main_call2.v3 (broadcastInDim S100000x64 ![] bcast_S_S100000x64),
    StableHlo.TRef.binary main_call2.v3 (.of main_v30) main_call2.v4 mulf,
    StableHlo.TRef.ternary main_call2.v1 (.of main_v30) main_call2.v4 main_call2.call0.v0 select ]

/-- The buffers stage 2 writes. -/
abbrev W2 : List (Ref sig .tc) := [main_v22, main_v23, main_v24, main_v25, main_call1_cst, main_call1_v0, main_v26, main_v27, main_v28, main_v29, main_v30, main_cst_1, main_call2_cst, main_call2_v0, main_call2_v1, main_call2_v2, main_call2_v3, main_call2_v4, main_v31]

set_option maxRecDepth 8192 in
theorem s2_writes : (s2 : List (HloOp τ sig (Elt F))).Forall fun op => op.writes ⊆ (W2.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer stage 2 does not write keeps its contents through it. -/
theorem s2_keep (V : Valuation τ sig (Elt F)) (r : Ref sig .tc) (h : r ∉ W2) :
    after s2 V (Proc.devRef .tc r) = V (Proc.devRef .tc r) :=
  after_of_writes_sub s2 V s2_writes h

abbrev s3 : List (HloOp τ sig (Elt F)) :=
  [ StableHlo.binary main_arg2 main_arg11 main_v32 ((fun l r => Host.dotGeneral dot_S1600000x7_S7x64_S1600000x64_1_0_0_1_n_n none l r) : (⟨S1600000x7, .f32⟩ : BufTy).Contents (Elt F) → (⟨S7x64, .f32⟩ : BufTy).Contents (Elt F) → (⟨S1600000x64, .f32⟩ : BufTy).Contents (Elt F)),
    StableHlo.unary main_arg12 main_v33 (broadcastInDim S1x64 ![1] bcast_S64_S1x64_1 : (⟨S64, .f32⟩ : BufTy).Contents (Elt F) → (⟨S1x64, .f32⟩ : BufTy).Contents (Elt F)),
    StableHlo.unary main_v33 main_v34 (broadcastInDim S1600000x64 ![0, 1] bcast_S1x64_S1600000x64_0_1 : (⟨S1x64, .f32⟩ : BufTy).Contents (Elt F) → (⟨S1600000x64, .f32⟩ : BufTy).Contents (Elt F)),
    StableHlo.binary main_v32 main_v34 main_v35 (addf : (⟨S1600000x64, .f32⟩ : BufTy).Contents (Elt F) → (⟨S1600000x64, .f32⟩ : BufTy).Contents (Elt F) → (⟨S1600000x64, .f32⟩ : BufTy).Contents (Elt F)),
    StableHlo.nullary main_c_2 (constantI S_ 32 0#32),
    StableHlo.unary main_c_2 main_v36 (broadcastInDim S1600000 ![] bcast_S_S1600000 : (⟨S_, .i32⟩ : BufTy).Contents (Elt F) → (⟨S1600000, .i32⟩ : BufTy).Contents (Elt F)),
    StableHlo.binary main_v2 main_v36 main_v37 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v38 (broadcastInDim S1600000 ![] bcast_S_S1600000 : (⟨S_, .i32⟩ : BufTy).Contents (Elt F) → (⟨S1600000, .i32⟩ : BufTy).Contents (Elt F)),
    StableHlo.binary main_v2 main_v38 main_v39 (addi : (⟨S1600000, .i32⟩ : BufTy).Contents (Elt F) → (⟨S1600000, .i32⟩ : BufTy).Contents (Elt F) → (⟨S1600000, .i32⟩ : BufTy).Contents (Elt F)),
    StableHlo.ternary main_v37 main_v39 main_v2 main_v40 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v40 main_v41 (broadcastInDim S1600000x1 ![0] bcast_S1600000_S1600000x1_0 : (⟨S1600000, .i32⟩ : BufTy).Contents (Elt F) → (⟨S1600000x1, .i32⟩ : BufTy).Contents (Elt F)),
    StableHlo.binary main_v31 main_v41 main_v42 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.binary main_v42 main_v35 main_v43 (addf : (⟨S1600000x64, .f32⟩ : BufTy).Contents (Elt F) → (⟨S1600000x64, .f32⟩ : BufTy).Contents (Elt F) → (⟨S1600000x64, .f32⟩ : BufTy).Contents (Elt F)),
    StableHlo.TRef.nullary main_call3.cst (constant S_ .f32 0x00000000#32),
    StableHlo.TRef.unary main_call3.cst main_call3.v0 (broadcastInDim S1600000x64 ![] bcast_S_S1600000x64),
    StableHlo.TRef.binary (.of main_v43) main_call3.v0 main_call3.v1 maximumf,
    StableHlo.nullary main_cst_4 (constant S_ .f32 0x00000000#32),
    StableHlo.unary main_cst_4 main_v45 (broadcastInDim S100000x64 ![] bcast_S_S100000x64 : (⟨S_, .f32⟩ : BufTy).Contents (Elt F) → (⟨S100000x64, .f32⟩ : BufTy).Contents (Elt F)),
    StableHlo.unary main_v4 main_v46 (broadcastInDim S1600000x1 ![0] bcast_S1600000_S1600000x1_0 : (⟨S1600000, .i32⟩ : BufTy).Contents (Elt F) → (⟨S1600000x1, .i32⟩ : BufTy).Contents (Elt F)),
    StableHlo.ternary main_v45 main_v46 main_v44 main_v47 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The buffers stage 3 writes. -/
abbrev W3 : List (Ref sig .tc) := [main_v32, main_v33, main_v34, main_v35, main_c_2, main_v36, main_v37, main_c_3, main_v38, main_v39, main_v40, main_v41, main_v42, main_v43, main_call3_cst, main_call3_v0, main_v44, main_cst_4, main_v45, main_v46, main_v47]

set_option maxRecDepth 8192 in
theorem s3_writes : (s3 : List (HloOp τ sig (Elt F))).Forall fun op => op.writes ⊆ (W3.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer stage 3 does not write keeps its contents through it. -/
theorem s3_keep (V : Valuation τ sig (Elt F)) (r : Ref sig .tc) (h : r ∉ W3) :
    after s3 V (Proc.devRef .tc r) = V (Proc.devRef .tc r) :=
  after_of_writes_sub s3 V s3_writes h

abbrev s4 : List (HloOp τ sig (Elt F)) :=
  [ StableHlo.binary main_v31 main_v47 main_v48 (addf : (⟨S100000x64, .f32⟩ : BufTy).Contents (Elt F) → (⟨S100000x64, .f32⟩ : BufTy).Contents (Elt F) → (⟨S100000x64, .f32⟩ : BufTy).Contents (Elt F)),
    StableHlo.binary main_v48 main_arg13 main_v49 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg14 main_v50 (broadcastInDim S1x64 ![1] bcast_S64_S1x64_1 : (⟨S64, .f32⟩ : BufTy).Contents (Elt F) → (⟨S1x64, .f32⟩ : BufTy).Contents (Elt F)),
    StableHlo.unary main_v50 main_v51 (broadcastInDim S100000x64 ![0, 1] bcast_S1x64_S100000x64_0_1 : (⟨S1x64, .f32⟩ : BufTy).Contents (Elt F) → (⟨S100000x64, .f32⟩ : BufTy).Contents (Elt F)),
    StableHlo.binary main_v49 main_v51 main_v52 (addf : (⟨S100000x64, .f32⟩ : BufTy).Contents (Elt F) → (⟨S100000x64, .f32⟩ : BufTy).Contents (Elt F) → (⟨S100000x64, .f32⟩ : BufTy).Contents (Elt F)),
    StableHlo.TRef.nullary main_call4.cst (constant S_ .f32 0x00000000#32),
    StableHlo.TRef.unary main_call4.cst main_call4.v0 (broadcastInDim S100000x64 ![] bcast_S_S100000x64),
    StableHlo.TRef.binary (.of main_v52) main_call4.v0 main_call4.v1 maximumf,
    StableHlo.binary main_v53 main_arg15 main_v54 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg16 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S100000x64 ![0, 1] bcast_S1x64_S100000x64_0_1 : (⟨S1x64, .f32⟩ : BufTy).Contents (Elt F) → (⟨S100000x64, .f32⟩ : BufTy).Contents (Elt F)),
    StableHlo.binary main_v54 main_v56 main_v57 (addf : (⟨S100000x64, .f32⟩ : BufTy).Contents (Elt F) → (⟨S100000x64, .f32⟩ : BufTy).Contents (Elt F) → (⟨S100000x64, .f32⟩ : BufTy).Contents (Elt F)),
    StableHlo.nullary main_cst_5 (constant S_ .f32 0x3DCCCCCD#32),
    StableHlo.TRef.nullary main_call5.cst (constant S_ .f32 0x00000000#32),
    StableHlo.TRef.unary main_call5.cst main_call5.v0 (broadcastInDim S100000x64 ![] bcast_S_S100000x64),
    StableHlo.TRef.binary (.of main_v57) main_call5.v0 main_call5.v1 (cmpf .oge),
    StableHlo.TRef.unary (.of main_cst_5) main_call5.v2 id,
    StableHlo.TRef.unary main_call5.v2 main_call5.v3 (broadcastInDim S100000x64 ![] bcast_S_S100000x64),
    StableHlo.TRef.binary main_call5.v3 (.of main_v57) main_call5.v4 mulf,
    StableHlo.TRef.ternary main_call5.v1 (.of main_v57) main_call5.v4 main_call5.call0.v0 select ]

/-- The buffers stage 4 writes. -/
abbrev W4 : List (Ref sig .tc) := [main_v48, main_v49, main_v50, main_v51, main_v52, main_call4_cst, main_call4_v0, main_v53, main_v54, main_v55, main_v56, main_v57, main_cst_5, main_call5_cst, main_call5_v0, main_call5_v1, main_call5_v2, main_call5_v3, main_call5_v4, main_v58]

set_option maxRecDepth 8192 in
theorem s4_writes : (s4 : List (HloOp τ sig (Elt F))).Forall fun op => op.writes ⊆ (W4.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer stage 4 does not write keeps its contents through it. -/
theorem s4_keep (V : Valuation τ sig (Elt F)) (r : Ref sig .tc) (h : r ∉ W4) :
    after s4 V (Proc.devRef .tc r) = V (Proc.devRef .tc r) :=
  after_of_writes_sub s4 V s4_writes h

abbrev s5 : List (HloOp τ sig (Elt F)) :=
  [ StableHlo.binary main_v58 main_arg17 main_v59 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg18 main_v60 (broadcastInDim S1x32 ![1] bcast_S32_S1x32_1 : (⟨S32, .f32⟩ : BufTy).Contents (Elt F) → (⟨S1x32, .f32⟩ : BufTy).Contents (Elt F)),
    StableHlo.unary main_v60 main_v61 (broadcastInDim S100000x32 ![0, 1] bcast_S1x32_S100000x32_0_1 : (⟨S1x32, .f32⟩ : BufTy).Contents (Elt F) → (⟨S100000x32, .f32⟩ : BufTy).Contents (Elt F)),
    StableHlo.binary main_v59 main_v61 main_v62 (addf : (⟨S100000x32, .f32⟩ : BufTy).Contents (Elt F) → (⟨S100000x32, .f32⟩ : BufTy).Contents (Elt F) → (⟨S100000x32, .f32⟩ : BufTy).Contents (Elt F)),
    StableHlo.binary main_v58 main_arg19 main_v63 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg20 main_v64 (broadcastInDim S1x32 ![1] bcast_S32_S1x32_1 : (⟨S32, .f32⟩ : BufTy).Contents (Elt F) → (⟨S1x32, .f32⟩ : BufTy).Contents (Elt F)),
    StableHlo.unary main_v64 main_v65 (broadcastInDim S100000x32 ![0, 1] bcast_S1x32_S100000x32_0_1 : (⟨S1x32, .f32⟩ : BufTy).Contents (Elt F) → (⟨S100000x32, .f32⟩ : BufTy).Contents (Elt F)),
    StableHlo.binary main_v63 main_v65 main_v66 (addf : (⟨S100000x32, .f32⟩ : BufTy).Contents (Elt F) → (⟨S100000x32, .f32⟩ : BufTy).Contents (Elt F) → (⟨S100000x32, .f32⟩ : BufTy).Contents (Elt F)),
    StableHlo.nullary main_cst_6 (constant S_ .f32 0x3F000000#32),
    StableHlo.unary main_cst_6 main_v67 (broadcastInDim S100000x32 ![] bcast_S_S100000x32 : (⟨S_, .f32⟩ : BufTy).Contents (Elt F) → (⟨S100000x32, .f32⟩ : BufTy).Contents (Elt F)),
    StableHlo.binary main_v67 main_v66 main_v68 (mulf : (⟨S100000x32, .f32⟩ : BufTy).Contents (Elt F) → (⟨S100000x32, .f32⟩ : BufTy).Contents (Elt F) → (⟨S100000x32, .f32⟩ : BufTy).Contents (Elt F)),
    StableHlo.unary main_v68 main_v69 (Host.exp : (⟨S100000x32, .f32⟩ : BufTy).Contents (Elt F) → (⟨S100000x32, .f32⟩ : BufTy).Contents (Elt F)),
    StableHlo.binary main_arg4 main_v69 main_v70 (mulf : (⟨S100000x32, .f32⟩ : BufTy).Contents (Elt F) → (⟨S100000x32, .f32⟩ : BufTy).Contents (Elt F) → (⟨S100000x32, .f32⟩ : BufTy).Contents (Elt F)),
    StableHlo.binary main_v62 main_v70 main_v71 (addf : (⟨S100000x32, .f32⟩ : BufTy).Contents (Elt F) → (⟨S100000x32, .f32⟩ : BufTy).Contents (Elt F) → (⟨S100000x32, .f32⟩ : BufTy).Contents (Elt F)) ]

/-- The buffers stage 5 writes. -/
abbrev W5 : List (Ref sig .tc) := [main_v59, main_v60, main_v61, main_v62, main_v63, main_v64, main_v65, main_v66, main_cst_6, main_v67, main_v68, main_v69, main_v70, main_v71]

set_option maxRecDepth 8192 in
theorem s5_writes : (s5 : List (HloOp τ sig (Elt F))).Forall fun op => op.writes ⊆ (W5.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer stage 5 does not write keeps its contents through it. -/
theorem s5_keep (V : Valuation τ sig (Elt F)) (r : Ref sig .tc) (h : r ∉ W5) :
    after s5 V (Proc.devRef .tc r) = V (Proc.devRef .tc r) :=
  after_of_writes_sub s5 V s5_writes h

abbrev s6 : List (HloOp τ sig (Elt F)) :=
  [ StableHlo.nullary main_cst_7 (constant S_ .f32 0x00000000#32),
    StableHlo.unary main_cst_7 main_v72 (broadcastInDim S512x32 ![] bcast_S_S512x32 : (⟨S_, .f32⟩ : BufTy).Contents (Elt F) → (⟨S512x32, .f32⟩ : BufTy).Contents (Elt F)),
    StableHlo.unary main_arg3 main_v73 (broadcastInDim S100000x1 ![0] bcast_S100000_S100000x1_0 : (⟨S100000, .i32⟩ : BufTy).Contents (Elt F) → (⟨S100000x1, .i32⟩ : BufTy).Contents (Elt F)),
    StableHlo.ternary main_v72 main_v73 main_v71 main_v74 ((fun x i u => Host.scatterAdd scatter_S512x32_S100000x1_S100000x32_1_0_0_1 x i u) : (⟨S512x32, .f32⟩ : BufTy).Contents (Elt F) → (⟨S100000x1, .i32⟩ : BufTy).Contents (Elt F) → (⟨S100000x32, .f32⟩ : BufTy).Contents (Elt F) → (⟨S512x32, .f32⟩ : BufTy).Contents (Elt F)),
    StableHlo.nullary main_cst_8 (constant S_ .f32 0x3F800000#32),
    StableHlo.unary main_cst_8 main_v75 (broadcastInDim S100000 ![] bcast_S_S100000 : (⟨S_, .f32⟩ : BufTy).Contents (Elt F) → (⟨S100000, .f32⟩ : BufTy).Contents (Elt F)),
    StableHlo.nullary main_cst_9 (constant S_ .f32 0x00000000#32),
    StableHlo.unary main_cst_9 main_v76 (broadcastInDim S512 ![] bcast_S_S512 : (⟨S_, .f32⟩ : BufTy).Contents (Elt F) → (⟨S512, .f32⟩ : BufTy).Contents (Elt F)),
    StableHlo.unary main_arg3 main_v77 (broadcastInDim S100000x1 ![0] bcast_S100000_S100000x1_0 : (⟨S100000, .i32⟩ : BufTy).Contents (Elt F) → (⟨S100000x1, .i32⟩ : BufTy).Contents (Elt F)),
    StableHlo.ternary main_v76 main_v77 main_v75 main_v78 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    StableHlo.nullary main_cst_10 (constant S_ .f32 0x3F800000#32),
    StableHlo.unary main_cst_10 main_v79 (broadcastInDim S512 ![] bcast_S_S512 : (⟨S_, .f32⟩ : BufTy).Contents (Elt F) → (⟨S512, .f32⟩ : BufTy).Contents (Elt F)),
    StableHlo.binary main_v78 main_v79 main_v80 (maximumf : (⟨S512, .f32⟩ : BufTy).Contents (Elt F) → (⟨S512, .f32⟩ : BufTy).Contents (Elt F) → (⟨S512, .f32⟩ : BufTy).Contents (Elt F)),
    StableHlo.unary main_v80 main_v81 (broadcastInDim S512x1 ![0] bcast_S512_S512x1_0 : (⟨S512, .f32⟩ : BufTy).Contents (Elt F) → (⟨S512x1, .f32⟩ : BufTy).Contents (Elt F)),
    StableHlo.unary main_v81 main_v82 (broadcastInDim S512x32 ![0, 1] bcast_S512x1_S512x32_0_1 : (⟨S512x1, .f32⟩ : BufTy).Contents (Elt F) → (⟨S512x32, .f32⟩ : BufTy).Contents (Elt F)),
    StableHlo.binary main_v74 main_v82 main_v83 (Host.divf : (⟨S512x32, .f32⟩ : BufTy).Contents (Elt F) → (⟨S512x32, .f32⟩ : BufTy).Contents (Elt F) → (⟨S512x32, .f32⟩ : BufTy).Contents (Elt F)),
    StableHlo.binary main_v83 main_arg21 main_v84 ((fun l r => Host.dotGeneral dot_S512x32_S32x6_S512x6_1_0_0_1_n_n none l r) : (⟨S512x32, .f32⟩ : BufTy).Contents (Elt F) → (⟨S32x6, .f32⟩ : BufTy).Contents (Elt F) → (⟨S512x6, .f32⟩ : BufTy).Contents (Elt F)),
    StableHlo.unary main_arg22 main_v85 (broadcastInDim S1x6 ![1] bcast_S6_S1x6_1 : (⟨S6, .f32⟩ : BufTy).Contents (Elt F) → (⟨S1x6, .f32⟩ : BufTy).Contents (Elt F)),
    StableHlo.unary main_v85 main_v86 (broadcastInDim S512x6 ![0, 1] bcast_S1x6_S512x6_0_1 : (⟨S1x6, .f32⟩ : BufTy).Contents (Elt F) → (⟨S512x6, .f32⟩ : BufTy).Contents (Elt F)),
    StableHlo.binary main_v84 main_v86 main_v87 (addf : (⟨S512x6, .f32⟩ : BufTy).Contents (Elt F) → (⟨S512x6, .f32⟩ : BufTy).Contents (Elt F) → (⟨S512x6, .f32⟩ : BufTy).Contents (Elt F)) ]

/-- The buffers stage 6 writes. -/
abbrev W6 : List (Ref sig .tc) := [main_cst_7, main_v72, main_v73, main_v74, main_cst_8, main_v75, main_cst_9, main_v76, main_v77, main_v78, main_cst_10, main_v79, main_v80, main_v81, main_v82, main_v83, main_v84, main_v85, main_v86, main_v87]

set_option maxRecDepth 8192 in
theorem s6_writes : (s6 : List (HloOp τ sig (Elt F))).Forall fun op => op.writes ⊆ (W6.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer stage 6 does not write keeps its contents through it. -/
theorem s6_keep (V : Valuation τ sig (Elt F)) (r : Ref sig .tc) (h : r ∉ W6) :
    after s6 V (Proc.devRef .tc r) = V (Proc.devRef .tc r) :=
  after_of_writes_sub s6 V s6_writes h

end Stages

/-! ## What each stage leaves, from any contents -/

set_option maxRecDepth 8192 in
set_option maxHeartbeats 2000000 in
/-- Stage 1 leaves the source row of the edge table in its buffer. -/
theorem s1_v2 (V : Valuation τ sig (Elt Ideal)) :
    after (s1 (F := Ideal)) V (main_v2 : DevRef τ sig) = Cert.RefTerms.srcRow (V (main_arg1 : DevRef τ sig)) := by
  after_results_simp
  rfl

set_option maxRecDepth 8192 in
set_option maxHeartbeats 2000000 in
/-- Stage 1 leaves the destination row of the edge table in its buffer. -/
theorem s1_v4 (V : Valuation τ sig (Elt Ideal)) :
    after (s1 (F := Ideal)) V (main_v4 : DevRef τ sig) = Cert.RefTerms.dstRow (V (main_arg1 : DevRef τ sig)) := by
  after_results_simp
  rfl

set_option maxRecDepth 8192 in
set_option maxHeartbeats 2000000 in
/-- Stage 1: the node column plus the sum over incoming edges of the rectified messages. -/
theorem s1_v21 (V : Valuation τ sig (Elt Ideal)) :
    after (s1 (F := Ideal)) V (main_v21 : DevRef τ sig) = Cert.RefTerms.preA (V (main_arg0 : DevRef τ sig)) (V (main_arg1 : DevRef τ sig)) (V (main_arg2 : DevRef τ sig)) (V (main_arg5 : DevRef τ sig)) (V (main_arg6 : DevRef τ sig)) := by
  after_results_simp
  rfl

set_option maxRecDepth 8192 in
set_option maxHeartbeats 2000000 in
/-- Stage 2: the first perceptron on stage 1's column. -/
theorem s2_v31 (V : Valuation τ sig (Elt Ideal)) :
    after (s2 (F := Ideal)) V (main_v31 : DevRef τ sig) = Cert.RefTerms.mlpA (V (main_v21 : DevRef τ sig)) (V (main_arg7 : DevRef τ sig)) (Cert.RefTerms.row64 (V (main_arg8 : DevRef τ sig))) (V (main_arg9 : DevRef τ sig)) (Cert.RefTerms.row64 (V (main_arg10 : DevRef τ sig))) := by
  after_results_simp
  rfl

set_option maxRecDepth 8192 in
set_option maxHeartbeats 2000000 in
/-- Stage 3: the layer-2 aggregation of the node features over the edge rows and the layer-2 edge encoding. -/
theorem s3_v47 (V : Valuation τ sig (Elt Ideal)) :
    after (s3 (F := Ideal)) V (main_v47 : DevRef τ sig) = aggOf (V (main_v31 : DevRef τ sig)) (V (main_v2 : DevRef τ sig)) (V (main_v4 : DevRef τ sig)) (Cert.RefTerms.encE (V (main_arg2 : DevRef τ sig)) (V (main_arg11 : DevRef τ sig)) (Cert.RefTerms.row64 (V (main_arg12 : DevRef τ sig)))) := by
  after_results_simp
  rfl

set_option maxRecDepth 8192 in
set_option maxHeartbeats 2000000 in
/-- Stage 4: the second perceptron on the node features plus their aggregation. -/
theorem s4_v58 (V : Valuation τ sig (Elt Ideal)) :
    after (s4 (F := Ideal)) V (main_v58 : DevRef τ sig) = Cert.RefTerms.mlpB (V (main_v31 : DevRef τ sig)) (V (main_v47 : DevRef τ sig)) (V (main_arg13 : DevRef τ sig)) (Cert.RefTerms.row64 (V (main_arg14 : DevRef τ sig))) (V (main_arg15 : DevRef τ sig)) (Cert.RefTerms.row64 (V (main_arg16 : DevRef τ sig))) := by
  after_results_simp
  rfl

set_option maxRecDepth 8192 in
set_option maxHeartbeats 2000000 in
/-- Stage 5: the mean head. -/
theorem s5_v62 (V : Valuation τ sig (Elt Ideal)) :
    after (s5 (F := Ideal)) V (main_v62 : DevRef τ sig) = Cert.RefTerms.head (V (main_v58 : DevRef τ sig)) (V (main_arg17 : DevRef τ sig)) (Cert.RefTerms.row32 (V (main_arg18 : DevRef τ sig))) := by
  after_results_simp
  rfl

set_option maxRecDepth 8192 in
set_option maxHeartbeats 2000000 in
/-- Stage 5: the log-variance head. -/
theorem s5_v66 (V : Valuation τ sig (Elt Ideal)) :
    after (s5 (F := Ideal)) V (main_v66 : DevRef τ sig) = Cert.RefTerms.head (V (main_v58 : DevRef τ sig)) (V (main_arg19 : DevRef τ sig)) (Cert.RefTerms.row32 (V (main_arg20 : DevRef τ sig))) := by
  after_results_simp
  rfl

set_option maxRecDepth 8192 in
set_option maxHeartbeats 2000000 in
/-- Stage 5: the sample from the two heads and the noise. -/
theorem s5_v71 (V : Valuation τ sig (Elt Ideal)) :
    after (s5 (F := Ideal)) V (main_v71 : DevRef τ sig) = Cert.RefTerms.sample (Cert.RefTerms.head (V (main_v58 : DevRef τ sig)) (V (main_arg17 : DevRef τ sig)) (Cert.RefTerms.row32 (V (main_arg18 : DevRef τ sig)))) (Cert.RefTerms.head (V (main_v58 : DevRef τ sig)) (V (main_arg19 : DevRef τ sig)) (Cert.RefTerms.row32 (V (main_arg20 : DevRef τ sig)))) (V (main_arg4 : DevRef τ sig)) := by
  after_results_simp
  rfl

set_option maxRecDepth 8192 in
set_option maxHeartbeats 2000000 in
/-- Stage 6: the classifier on the per-graph mean of the sample. -/
theorem s6_v87 (V : Valuation τ sig (Elt Ideal)) :
    after (s6 (F := Ideal)) V (main_v87 : DevRef τ sig) = Cert.RefTerms.classify (Cert.RefTerms.pool (V (main_v71 : DevRef τ sig)) (V (main_arg3 : DevRef τ sig))) (V (main_arg21 : DevRef τ sig)) (Cert.RefTerms.row6 (V (main_arg22 : DevRef τ sig))) := by
  after_results_simp
  rfl

/-! ## The whole line from the stages -/

/-- The line is its six stages in order. -/
theorem ops_split : (ops : List (HloOp τ sig (Elt Ideal))) = s1 ++ (s2 ++ (s3 ++ (s4 ++ (s5 ++ s6)))) := rfl

theorem after_ops (V : Valuation τ sig (Elt Ideal)) :
    after ops V = after (s6 (F := Ideal)) (after (s5 (F := Ideal)) (after (s4 (F := Ideal)) (after (s3 (F := Ideal)) (after (s2 (F := Ideal)) (after (s1 (F := Ideal)) V))))) := by
  rw [ops_split]
  simp only [after_append]

/-- A buffer no stage writes keeps its contents through the first stages. -/
theorem keep1 (V : Valuation τ sig (Elt Ideal)) (r : Ref sig .tc) (h1 : r ∉ W1) :
    after (s1 (F := Ideal)) V (Proc.devRef .tc r) = V (Proc.devRef .tc r) := by
  rw [s1_keep _ r h1]

theorem keep2 (V : Valuation τ sig (Elt Ideal)) (r : Ref sig .tc) (h1 : r ∉ W1) (h2 : r ∉ W2) :
    after (s2 (F := Ideal)) (after (s1 (F := Ideal)) V) (Proc.devRef .tc r) = V (Proc.devRef .tc r) := by
  rw [s2_keep _ r h2, s1_keep _ r h1]

theorem keep3 (V : Valuation τ sig (Elt Ideal)) (r : Ref sig .tc) (h1 : r ∉ W1) (h2 : r ∉ W2) (h3 : r ∉ W3) :
    after (s3 (F := Ideal)) (after (s2 (F := Ideal)) (after (s1 (F := Ideal)) V)) (Proc.devRef .tc r) = V (Proc.devRef .tc r) := by
  rw [s3_keep _ r h3, s2_keep _ r h2, s1_keep _ r h1]

theorem keep4 (V : Valuation τ sig (Elt Ideal)) (r : Ref sig .tc) (h1 : r ∉ W1) (h2 : r ∉ W2) (h3 : r ∉ W3) (h4 : r ∉ W4) :
    after (s4 (F := Ideal)) (after (s3 (F := Ideal)) (after (s2 (F := Ideal)) (after (s1 (F := Ideal)) V))) (Proc.devRef .tc r) = V (Proc.devRef .tc r) := by
  rw [s4_keep _ r h4, s3_keep _ r h3, s2_keep _ r h2, s1_keep _ r h1]

theorem keep5 (V : Valuation τ sig (Elt Ideal)) (r : Ref sig .tc) (h1 : r ∉ W1) (h2 : r ∉ W2) (h3 : r ∉ W3) (h4 : r ∉ W4) (h5 : r ∉ W5) :
    after (s5 (F := Ideal)) (after (s4 (F := Ideal)) (after (s3 (F := Ideal)) (after (s2 (F := Ideal)) (after (s1 (F := Ideal)) V)))) (Proc.devRef .tc r) = V (Proc.devRef .tc r) := by
  rw [s5_keep _ r h5, s4_keep _ r h4, s3_keep _ r h3, s2_keep _ r h2, s1_keep _ r h1]

theorem keep6 (V : Valuation τ sig (Elt Ideal)) (r : Ref sig .tc) (h1 : r ∉ W1) (h2 : r ∉ W2) (h3 : r ∉ W3) (h4 : r ∉ W4) (h5 : r ∉ W5) (h6 : r ∉ W6) :
    after (s6 (F := Ideal)) (after (s5 (F := Ideal)) (after (s4 (F := Ideal)) (after (s3 (F := Ideal)) (after (s2 (F := Ideal)) (after (s1 (F := Ideal)) V))))) (Proc.devRef .tc r) = V (Proc.devRef .tc r) := by
  rw [s6_keep _ r h6, s5_keep _ r h5, s4_keep _ r h4, s3_keep _ r h3, s2_keep _ r h2, s1_keep _ r h1]

/-- The argument arrays as a valuation holds them, in the programs' order. -/
def argsV (V : Valuation τ sig (Elt Ideal)) : Cert.RefTerms.Args where
  x := V (main_arg0 : DevRef τ sig)
  ei := V (main_arg1 : DevRef τ sig)
  ea := V (main_arg2 : DevRef τ sig)
  batch := V (main_arg3 : DevRef τ sig)
  eps := V (main_arg4 : DevRef τ sig)
  We1 := V (main_arg5 : DevRef τ sig)
  be1 := V (main_arg6 : DevRef τ sig)
  W1a := V (main_arg7 : DevRef τ sig)
  b1a := V (main_arg8 : DevRef τ sig)
  W1b := V (main_arg9 : DevRef τ sig)
  b1b := V (main_arg10 : DevRef τ sig)
  We2 := V (main_arg11 : DevRef τ sig)
  be2 := V (main_arg12 : DevRef τ sig)
  W2a := V (main_arg13 : DevRef τ sig)
  b2a := V (main_arg14 : DevRef τ sig)
  W2b := V (main_arg15 : DevRef τ sig)
  b2b := V (main_arg16 : DevRef τ sig)
  Wmu := V (main_arg17 : DevRef τ sig)
  bmu := V (main_arg18 : DevRef τ sig)
  Wlv := V (main_arg19 : DevRef τ sig)
  blv := V (main_arg20 : DevRef τ sig)
  Wcls := V (main_arg21 : DevRef τ sig)
  bcls := V (main_arg22 : DevRef τ sig)

/-- After two stages: the node features after layer 1. -/
theorem h1_at (V : Valuation τ sig (Elt Ideal)) :
    after (s2 (F := Ideal)) (after (s1 (F := Ideal)) V) (main_v31 : DevRef τ sig) = Cert.RefTerms.h1 (argsV V) := by
  rw [s2_v31, s1_v21, keep1 V main_arg7 (by decide), keep1 V main_arg8 (by decide), keep1 V main_arg9 (by decide), keep1 V main_arg10 (by decide)]
  rfl

/-- The two rows of the edge table are still in their buffers after two stages. -/
theorem src_at (V : Valuation τ sig (Elt Ideal)) :
    after (s2 (F := Ideal)) (after (s1 (F := Ideal)) V) (main_v2 : DevRef τ sig) = Cert.RefTerms.srcRow (V (main_arg1 : DevRef τ sig)) := by
  rw [s2_keep _ main_v2 (by decide), s1_v2]

theorem dst_at (V : Valuation τ sig (Elt Ideal)) :
    after (s2 (F := Ideal)) (after (s1 (F := Ideal)) V) (main_v4 : DevRef τ sig) = Cert.RefTerms.dstRow (V (main_arg1 : DevRef τ sig)) := by
  rw [s2_keep _ main_v4 (by decide), s1_v4]

/-- After three stages: the layer-2 aggregation of layer 1's node features. -/
theorem agg_at (V : Valuation τ sig (Elt Ideal)) :
    after (s3 (F := Ideal)) (after (s2 (F := Ideal)) (after (s1 (F := Ideal)) V)) (main_v47 : DevRef τ sig)
      = Cert.RefTerms.aggB (Cert.RefTerms.h1 (argsV V)) (argsV V).ei (Cert.RefTerms.encE (argsV V).ea (argsV V).We2 (Cert.RefTerms.row64 (argsV V).be2)) := by
  rw [aggB_eq, s3_v47, h1_at, src_at, dst_at, keep2 V main_arg2 (by decide) (by decide), keep2 V main_arg11 (by decide) (by decide), keep2 V main_arg12 (by decide) (by decide)]
  rfl

theorem h1_at3 (V : Valuation τ sig (Elt Ideal)) :
    after (s3 (F := Ideal)) (after (s2 (F := Ideal)) (after (s1 (F := Ideal)) V)) (main_v31 : DevRef τ sig) = Cert.RefTerms.h1 (argsV V) := by
  rw [s3_keep _ main_v31 (by decide), h1_at]

/-- After four stages: the node features after layer 2. -/
theorem h2_at (V : Valuation τ sig (Elt Ideal)) :
    after (s4 (F := Ideal)) (after (s3 (F := Ideal)) (after (s2 (F := Ideal)) (after (s1 (F := Ideal)) V))) (main_v58 : DevRef τ sig) = Cert.RefTerms.h2 (argsV V) := by
  rw [s4_v58, h1_at3, agg_at, keep3 V main_arg13 (by decide) (by decide) (by decide), keep3 V main_arg14 (by decide) (by decide) (by decide), keep3 V main_arg15 (by decide) (by decide) (by decide), keep3 V main_arg16 (by decide) (by decide) (by decide)]
  rfl

/-- After five stages: the two heads and the sample. -/
theorem mu_at (V : Valuation τ sig (Elt Ideal)) :
    after (s5 (F := Ideal)) (after (s4 (F := Ideal)) (after (s3 (F := Ideal)) (after (s2 (F := Ideal)) (after (s1 (F := Ideal)) V)))) (main_v62 : DevRef τ sig) = Cert.RefTerms.mu (argsV V) := by
  rw [s5_v62, h2_at, keep4 V main_arg17 (by decide) (by decide) (by decide) (by decide), keep4 V main_arg18 (by decide) (by decide) (by decide) (by decide)]
  rfl

theorem logvar_at (V : Valuation τ sig (Elt Ideal)) :
    after (s5 (F := Ideal)) (after (s4 (F := Ideal)) (after (s3 (F := Ideal)) (after (s2 (F := Ideal)) (after (s1 (F := Ideal)) V)))) (main_v66 : DevRef τ sig) = Cert.RefTerms.logvar (argsV V) := by
  rw [s5_v66, h2_at, keep4 V main_arg19 (by decide) (by decide) (by decide) (by decide), keep4 V main_arg20 (by decide) (by decide) (by decide) (by decide)]
  rfl

theorem z_at (V : Valuation τ sig (Elt Ideal)) :
    after (s5 (F := Ideal)) (after (s4 (F := Ideal)) (after (s3 (F := Ideal)) (after (s2 (F := Ideal)) (after (s1 (F := Ideal)) V)))) (main_v71 : DevRef τ sig) = Cert.RefTerms.z (argsV V) := by
  rw [s5_v71, h2_at, keep4 V main_arg17 (by decide) (by decide) (by decide) (by decide), keep4 V main_arg18 (by decide) (by decide) (by decide) (by decide), keep4 V main_arg19 (by decide) (by decide) (by decide) (by decide), keep4 V main_arg20 (by decide) (by decide) (by decide) (by decide), keep4 V main_arg4 (by decide) (by decide) (by decide) (by decide)]
  rfl

/-! ## The four results and the arguments after the whole line -/

theorem z_ops (V : Valuation τ sig (Elt Ideal)) : after ops V (main_v71 : DevRef τ sig) = Cert.RefTerms.z (argsV V) := by
  rw [after_ops, s6_keep _ main_v71 (by decide), z_at]

theorem mu_ops (V : Valuation τ sig (Elt Ideal)) : after ops V (main_v62 : DevRef τ sig) = Cert.RefTerms.mu (argsV V) := by
  rw [after_ops, s6_keep _ main_v62 (by decide), mu_at]

theorem logvar_ops (V : Valuation τ sig (Elt Ideal)) : after ops V (main_v66 : DevRef τ sig) = Cert.RefTerms.logvar (argsV V) := by
  rw [after_ops, s6_keep _ main_v66 (by decide), logvar_at]

theorem logits_ops (V : Valuation τ sig (Elt Ideal)) : after ops V (main_v87 : DevRef τ sig) = Cert.RefTerms.logits (argsV V) := by
  rw [after_ops, s6_v87, z_at, keep5 V main_arg3 (by decide) (by decide) (by decide) (by decide) (by decide), keep5 V main_arg21 (by decide) (by decide) (by decide) (by decide) (by decide), keep5 V main_arg22 (by decide) (by decide) (by decide) (by decide) (by decide)]
  rfl

/-- No operation of the line writes an argument's buffer. -/
theorem arg_ops (V : Valuation τ sig (Elt Ideal)) (r : Ref sig .tc) (h1 : r ∉ W1) (h2 : r ∉ W2) (h3 : r ∉ W3) (h4 : r ∉ W4)
    (h5 : r ∉ W5) (h6 : r ∉ W6) : after ops V (Proc.devRef .tc r) = V (Proc.devRef .tc r) := by
  rw [after_ops, keep6 V r h1 h2 h3 h4 h5 h6]

/-! ## The run -/

/-- The argument arrays of device `c` in the launch memory, in the programs' order. -/
def argsOf (m : (ℓ : Loc nD τ sig) → Buf (Elt Ideal) ℓ) (c : Dev nD) : Cert.RefTerms.Args where
  x := m ((c.tc : Thread nD τ).loc main_arg0)
  ei := m ((c.tc : Thread nD τ).loc main_arg1)
  ea := m ((c.tc : Thread nD τ).loc main_arg2)
  batch := m ((c.tc : Thread nD τ).loc main_arg3)
  eps := m ((c.tc : Thread nD τ).loc main_arg4)
  We1 := m ((c.tc : Thread nD τ).loc main_arg5)
  be1 := m ((c.tc : Thread nD τ).loc main_arg6)
  W1a := m ((c.tc : Thread nD τ).loc main_arg7)
  b1a := m ((c.tc : Thread nD τ).loc main_arg8)
  W1b := m ((c.tc : Thread nD τ).loc main_arg9)
  b1b := m ((c.tc : Thread nD τ).loc main_arg10)
  We2 := m ((c.tc : Thread nD τ).loc main_arg11)
  be2 := m ((c.tc : Thread nD τ).loc main_arg12)
  W2a := m ((c.tc : Thread nD τ).loc main_arg13)
  b2a := m ((c.tc : Thread nD τ).loc main_arg14)
  W2b := m ((c.tc : Thread nD τ).loc main_arg15)
  b2b := m ((c.tc : Thread nD τ).loc main_arg16)
  Wmu := m ((c.tc : Thread nD τ).loc main_arg17)
  bmu := m ((c.tc : Thread nD τ).loc main_arg18)
  Wlv := m ((c.tc : Thread nD τ).loc main_arg19)
  blv := m ((c.tc : Thread nD τ).loc main_arg20)
  Wcls := m ((c.tc : Thread nD τ).loc main_arg21)
  bcls := m ((c.tc : Thread nD τ).loc main_arg22)

theorem argsV_launch (m : (ℓ : Loc nD τ sig) → Buf (Elt Ideal) ℓ) (c : Dev nD) : argsV (launchContents m c) = argsOf m c := rfl

set_option maxRecDepth 8192 in
/-- From any memory with zero counters every weakly fair execution of the reference's @main terminates with the sample,
    the two heads and the class scores at the network's terms of the argument arrays, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
        r.2.mem ((c.tc : Thread nD τ).loc main_v71) = Cert.RefTerms.z (argsOf m c)
      ∧ r.2.mem ((c.tc : Thread nD τ).loc main_v62) = Cert.RefTerms.mu (argsOf m c)
      ∧ r.2.mem ((c.tc : Thread nD τ).loc main_v66) = Cert.RefTerms.logvar (argsOf m c)
      ∧ r.2.mem ((c.tc : Thread nD τ).loc main_v87) = Cert.RefTerms.logits (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨
      (h c main_v71).trans ((z_ops (launchContents m c)).trans (congrArg Cert.RefTerms.z (argsV_launch m c))),
      (h c main_v62).trans ((mu_ops (launchContents m c)).trans (congrArg Cert.RefTerms.mu (argsV_launch m c))),
      (h c main_v66).trans ((logvar_ops (launchContents m c)).trans (congrArg Cert.RefTerms.logvar (argsV_launch m c))),
      (h c main_v87).trans ((logits_ops (launchContents m c)).trans (congrArg Cert.RefTerms.logits (argsV_launch m c))),
      (h c main_arg0).trans (arg_ops (launchContents m c) main_arg0 (by decide) (by decide) (by decide) (by decide) (by decide) (by decide)),
      (h c main_arg1).trans (arg_ops (launchContents m c) main_arg1 (by decide) (by decide) (by decide) (by decide) (by decide) (by decide)),
      (h c main_arg2).trans (arg_ops (launchContents m c) main_arg2 (by decide) (by decide) (by decide) (by decide) (by decide) (by decide)),
      (h c main_arg3).trans (arg_ops (launchContents m c) main_arg3 (by decide) (by decide) (by decide) (by decide) (by decide) (by decide)),
      (h c main_arg4).trans (arg_ops (launchContents m c) main_arg4 (by decide) (by decide) (by decide) (by decide) (by decide) (by decide)),
      (h c main_arg5).trans (arg_ops (launchContents m c) main_arg5 (by decide) (by decide) (by decide) (by decide) (by decide) (by decide)),
      (h c main_arg6).trans (arg_ops (launchContents m c) main_arg6 (by decide) (by decide) (by decide) (by decide) (by decide) (by decide)),
      (h c main_arg7).trans (arg_ops (launchContents m c) main_arg7 (by decide) (by decide) (by decide) (by decide) (by decide) (by decide)),
      (h c main_arg8).trans (arg_ops (launchContents m c) main_arg8 (by decide) (by decide) (by decide) (by decide) (by decide) (by decide)),
      (h c main_arg9).trans (arg_ops (launchContents m c) main_arg9 (by decide) (by decide) (by decide) (by decide) (by decide) (by decide)),
      (h c main_arg10).trans (arg_ops (launchContents m c) main_arg10 (by decide) (by decide) (by decide) (by decide) (by decide) (by decide)),
      (h c main_arg11).trans (arg_ops (launchContents m c) main_arg11 (by decide) (by decide) (by decide) (by decide) (by decide) (by decide)),
      (h c main_arg12).trans (arg_ops (launchContents m c) main_arg12 (by decide) (by decide) (by decide) (by decide) (by decide) (by decide)),
      (h c main_arg13).trans (arg_ops (launchContents m c) main_arg13 (by decide) (by decide) (by decide) (by decide) (by decide) (by decide)),
      (h c main_arg14).trans (arg_ops (launchContents m c) main_arg14 (by decide) (by decide) (by decide) (by decide) (by decide) (by decide)),
      (h c main_arg15).trans (arg_ops (launchContents m c) main_arg15 (by decide) (by decide) (by decide) (by decide) (by decide) (by decide)),
      (h c main_arg16).trans (arg_ops (launchContents m c) main_arg16 (by decide) (by decide) (by decide) (by decide) (by decide) (by decide)),
      (h c main_arg17).trans (arg_ops (launchContents m c) main_arg17 (by decide) (by decide) (by decide) (by decide) (by decide) (by decide)),
      (h c main_arg18).trans (arg_ops (launchContents m c) main_arg18 (by decide) (by decide) (by decide) (by decide) (by decide) (by decide)),
      (h c main_arg19).trans (arg_ops (launchContents m c) main_arg19 (by decide) (by decide) (by decide) (by decide) (by decide) (by decide)),
      (h c main_arg20).trans (arg_ops (launchContents m c) main_arg20 (by decide) (by decide) (by decide) (by decide) (by decide) (by decide)),
      (h c main_arg21).trans (arg_ops (launchContents m c) main_arg21 (by decide) (by decide) (by decide) (by decide) (by decide) (by decide)),
      (h c main_arg22).trans (arg_ops (launchContents m c) main_arg22 (by decide) (by decide) (by decide) (by decide) (by decide) (by decide))⟩)
    (run_after (F := Ideal) m ρ)

end Cert.ReferenceIdeal.RRun

end
-- ==== Proof.KRun.lean ====
import proofs.«118365_j37108517438028_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run with its results named

Every weakly fair execution of the program from the memory `m` terminates, and in every final state each of the
four result arrays holds what the last boundary valuation `W8` assigns to it, while each of the 23 argument arrays
holds what it held at launch.  The final state is read through the ownership of every unscoped buffer at `W8`;
a result array is one of those buffers, so its contents are `W8`'s by that reading alone, and an argument array's
`W8` contents walk back to the launch memory because nothing in the program writes an argument. -/

set_option backward.isDefEq.respectTransparency.types false in
theorem run_named : θ_run defs (onTc (τ := τ) (main (F := F))) ⟨m, fun _ => 0, ρ⟩ (fun r => ∀ c : Dev nD,
      r.2.mem ((c.tc : Thread nD τ).loc main_v0_0) = Gen.W8 m ρ c (Proc.devRef .tc main_v0_0)
      ∧ r.2.mem ((c.tc : Thread nD τ).loc main_v0_1) = Gen.W8 m ρ c (Proc.devRef .tc main_v0_1)
      ∧ r.2.mem ((c.tc : Thread nD τ).loc main_v0_2) = Gen.W8 m ρ c (Proc.devRef .tc main_v0_2)
      ∧ r.2.mem ((c.tc : Thread nD τ).loc main_v0_3) = Gen.W8 m ρ c (Proc.devRef .tc main_v0_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨(h c _ (Gen.mem_uc main_v0_0 (by decide))),
       (h c _ (Gen.mem_uc main_v0_1 (by decide))),
       (h c _ (Gen.mem_uc main_v0_2 (by decide))),
       (h c _ (Gen.mem_uc main_v0_3 (by decide))),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c),
       (h c _ (mem_uc main_arg20 (by decide))).trans (W8_main_arg20 m ρ c),
       (h c _ (mem_uc main_arg21 (by decide))).trans (W8_main_arg21 m ρ c),
       (h c _ (mem_uc main_arg22 (by decide))).trans (W8_main_arg22 m ρ c)⟩)

/-! # What a stretch of host operations leaves alone

Each host operation writes exactly one array, its result.  Listing the results of a stretch once gives, for any
array outside the list, that the stretch leaves it as it found it. -/

/-- The arrays written by host stretch 0, one per operation, in order. -/
abbrev wr0 : List (Ref sig .tc) :=
  [main_call0_v0, main_call0_v1, main_call0_v2, main_call0_v3, main_call0_v4, main_call0_v5, main_call0_v6, main_call0_v7, main_call0_v8, main_call0_v9]
/-- Every operation of host stretch 0 writes only an array of `wr0`. -/
theorem hostOps0_writes : (hostOps0 : List (HloOp τ sig (Elt F))).Forall fun op =>
    op.writes ⊆ (wr0.map (Proc.devRef (τ := τ) .tc)).toFinset := by
  simp only [hostOps0, List.Forall, StableHlo.nullary_writes, StableHlo.unary_writes, StableHlo.binary_writes,
    StableHlo.ternary_writes, StableHlo.quaternary_writes, StableHlo.reshape_writes, StableHlo.binaryIndexed_writes,
    Finset.singleton_subset_iff]
  repeat' apply And.intro
  all_goals exact List.mem_toFinset.mpr (List.mem_map.mpr ⟨_, by decide, rfl⟩)
/-- An array outside `wr0` is the same after host stretch 0 as before it, from any contents. -/
theorem keep0 (V : Valuation τ sig (Elt F)) (r : Ref sig .tc) (hr : r ∉ wr0) :
    StableHlo.after (hostOps0 (F := F)) V (Proc.devRef .tc r) = V (Proc.devRef .tc r) :=
  StableHlo.after_of_writes_sub hostOps0 V hostOps0_writes hr

/-- The arrays written by host stretch 1, one per operation, in order. -/
abbrev wr1 : List (Ref sig .tc) :=
  [main_call0_c, main_call0_v11, main_call0_v12, main_call0_c_0, main_call0_v13, main_call0_v14, main_call0_v15, main_call0_v16, main_call0_v17, main_call0_v18, main_call0_call0_cst, main_call0_call0_v0, main_call0_v19, main_call0_cst, main_call0_v20, main_call0_v21, main_call0_v22, main_call0_v23, main_call0_v24, main_call0_v25, main_call0_v26]
/-- Every operation of host stretch 1 writes only an array of `wr1`. -/
theorem hostOps1_writes : (hostOps1 : List (HloOp τ sig (Elt F))).Forall fun op =>
    op.writes ⊆ (wr1.map (Proc.devRef (τ := τ) .tc)).toFinset := by
  simp only [hostOps1, List.Forall, StableHlo.nullary_writes, StableHlo.unary_writes, StableHlo.binary_writes,
    StableHlo.ternary_writes, StableHlo.quaternary_writes, StableHlo.reshape_writes, StableHlo.binaryIndexed_writes,
    Finset.singleton_subset_iff]
  repeat' apply And.intro
  all_goals exact List.mem_toFinset.mpr (List.mem_map.mpr ⟨_, by decide, rfl⟩)
/-- An array outside `wr1` is the same after host stretch 1 as before it, from any contents. -/
theorem keep1 (V : Valuation τ sig (Elt F)) (r : Ref sig .tc) (hr : r ∉ wr1) :
    StableHlo.after (hostOps1 (F := F)) V (Proc.devRef .tc r) = V (Proc.devRef .tc r) :=
  StableHlo.after_of_writes_sub hostOps1 V hostOps1_writes hr

/-- The arrays written by host stretch 2, one per operation, in order. -/
abbrev wr2 : List (Ref sig .tc) :=
  [main_call0_c_1, main_call0_v28, main_call0_v29, main_call0_c_2, main_call0_v30, main_call0_v31, main_call0_v32, main_call0_v33, main_call0_v34, main_call0_v35, main_call0_v36, main_call0_v37, main_call0_call1_cst, main_call0_call1_v0, main_call0_v38, main_call0_cst_3, main_call0_v39, main_call0_v40, main_call0_v41, main_call0_v42, main_call0_v43, main_call0_v44, main_call0_v45]
/-- Every operation of host stretch 2 writes only an array of `wr2`. -/
theorem hostOps2_writes : (hostOps2 : List (HloOp τ sig (Elt F))).Forall fun op =>
    op.writes ⊆ (wr2.map (Proc.devRef (τ := τ) .tc)).toFinset := by
  simp only [hostOps2, List.Forall, StableHlo.nullary_writes, StableHlo.unary_writes, StableHlo.binary_writes,
    StableHlo.ternary_writes, StableHlo.quaternary_writes, StableHlo.reshape_writes, StableHlo.binaryIndexed_writes,
    Finset.singleton_subset_iff]
  repeat' apply And.intro
  all_goals exact List.mem_toFinset.mpr (List.mem_map.mpr ⟨_, by decide, rfl⟩)
/-- An array outside `wr2` is the same after host stretch 2 as before it, from any contents. -/
theorem keep2 (V : Valuation τ sig (Elt F)) (r : Ref sig .tc) (hr : r ∉ wr2) :
    StableHlo.after (hostOps2 (F := F)) V (Proc.devRef .tc r) = V (Proc.devRef .tc r) :=
  StableHlo.after_of_writes_sub hostOps2 V hostOps2_writes hr

/-- The arrays written by host stretch 3, one per operation, in order. -/
abbrev wr3 : List (Ref sig .tc) :=
  [main_call0_cst_4, main_call0_v47, main_call0_v48, main_call0_v49, main_call0_cst_5, main_call0_v50, main_call0_cst_6, main_call0_v51, main_call0_v52, main_call0_v53, main_call0_cst_7, main_call0_v54, main_call0_v55, main_call0_v56, main_call0_v57, main_call0_v58, main_call0_v59]
/-- Every operation of host stretch 3 writes only an array of `wr3`. -/
theorem hostOps3_writes : (hostOps3 : List (HloOp τ sig (Elt F))).Forall fun op =>
    op.writes ⊆ (wr3.map (Proc.devRef (τ := τ) .tc)).toFinset := by
  simp only [hostOps3, List.Forall, StableHlo.nullary_writes, StableHlo.unary_writes, StableHlo.binary_writes,
    StableHlo.ternary_writes, StableHlo.quaternary_writes, StableHlo.reshape_writes, StableHlo.binaryIndexed_writes,
    Finset.singleton_subset_iff]
  repeat' apply And.intro
  all_goals exact List.mem_toFinset.mpr (List.mem_map.mpr ⟨_, by decide, rfl⟩)
/-- An array outside `wr3` is the same after host stretch 3 as before it, from any contents. -/
theorem keep3 (V : Valuation τ sig (Elt F)) (r : Ref sig .tc) (hr : r ∉ wr3) :
    StableHlo.after (hostOps3 (F := F)) V (Proc.devRef .tc r) = V (Proc.devRef .tc r) :=
  StableHlo.after_of_writes_sub hostOps3 V hostOps3_writes hr

/-! # The result arrays, walked back to the region that produced them

The boundary valuations form a fold: a region replaces its own arrays by what its write-backs leave and keeps every
other array; a host stretch replaces the arrays it writes and keeps every other.  A result array is therefore read
back through the later segments, none of which touches it, to the output window of the region that wrote it. -/

/-- The class scores are output window 3 of region 3. -/
theorem out_logits (c : Dev nD) :
    Gen.W8 m ρ c (Proc.devRef .tc main_v0_3) = (Gen.dat3 (Gen.V7 m ρ) c).arrAt 3 cfg3.N :=
  W8_arr m ρ c 3

/-- The sample `z` is output window 13 of region 2: region 3 has no window on it and host stretch 3 only reads it. -/
theorem out_z (c : Dev nD) :
    Gen.W8 m ρ c (Proc.devRef .tc main_v0_0) = (Gen.dat2 (Gen.V5 m ρ) c).arrAt 13 cfg2.N :=
  calc W8 m ρ c (Proc.devRef .tc main_v0_0)
    _ = W7 m ρ c (Proc.devRef .tc main_v0_0) := W8_of_ne m ρ c main_v0_0 (by decide)
    _ = W6 m ρ c (Proc.devRef .tc main_v0_0) := keep3 _ main_v0_0 (by decide)
    _ = (dat2 (V5 m ρ) c).arrAt 13 cfg2.N := W6_arr m ρ c 13

/-- The mean is output window 11 of region 2. -/
theorem out_mu (c : Dev nD) :
    Gen.W8 m ρ c (Proc.devRef .tc main_v0_1) = (Gen.dat2 (Gen.V5 m ρ) c).arrAt 11 cfg2.N :=
  calc W8 m ρ c (Proc.devRef .tc main_v0_1)
    _ = W7 m ρ c (Proc.devRef .tc main_v0_1) := W8_of_ne m ρ c main_v0_1 (by decide)
    _ = W6 m ρ c (Proc.devRef .tc main_v0_1) := keep3 _ main_v0_1 (by decide)
    _ = (dat2 (V5 m ρ) c).arrAt 11 cfg2.N := W6_arr m ρ c 11

/-- The log-variance is output window 12 of region 2. -/
theorem out_logvar (c : Dev nD) :
    Gen.W8 m ρ c (Proc.devRef .tc main_v0_2) = (Gen.dat2 (Gen.V5 m ρ) c).arrAt 12 cfg2.N :=
  calc W8 m ρ c (Proc.devRef .tc main_v0_2)
    _ = W7 m ρ c (Proc.devRef .tc main_v0_2) := W8_of_ne m ρ c main_v0_2 (by decide)
    _ = W6 m ρ c (Proc.devRef .tc main_v0_2) := keep3 _ main_v0_2 (by decide)
    _ = (dat2 (V5 m ρ) c).arrAt 12 cfg2.N := W6_arr m ρ c 12

/-! # What a later segment finds of an earlier region's output -/

/-- Region 2 finds, as its first input, output window 5 of region 1 (the first layer's features, full precision):
    host stretch 2 does not write it. -/
theorem in5_h1 (c : Dev nD) :
    Gen.V5 m ρ c main_call0_v27_0 = (Gen.dat1 (Gen.V3 m ρ) c).arrAt 5 cfg1.N :=
  calc V5 m ρ c main_call0_v27_0
    _ = W4 m ρ c (Proc.devRef .tc main_call0_v27_0) := keep2 _ main_call0_v27_0 (by decide)
    _ = (dat1 (V3 m ρ) c).arrAt 5 cfg1.N := W4_arr m ρ c 5

/-- Host stretch 2 finds output window 6 of region 1 (the first layer's features, reduced precision). -/
theorem w4_h1b (c : Dev nD) :
    Gen.W4 m ρ c (Proc.devRef .tc main_call0_v27_1) = (Gen.dat1 (Gen.V3 m ρ) c).arrAt 6 cfg1.N :=
  W4_arr m ρ c 6

/-- Host stretch 2 finds output window 3 of region 0 (the encoded edge features): region 1 has no window on it and
    host stretch 1 does not write it. -/
theorem w4_e2 (c : Dev nD) :
    Gen.W4 m ρ c (Proc.devRef .tc main_call0_v10) = (Gen.dat0 (Gen.V1 m ρ) c).arrAt 3 cfg0.N :=
  calc W4 m ρ c (Proc.devRef .tc main_call0_v10)
    _ = W3 m ρ c (Proc.devRef .tc main_call0_v10) := W4_of_ne m ρ c main_call0_v10 (by decide)
    _ = W2 m ρ c (Proc.devRef .tc main_call0_v10) := keep1 _ main_call0_v10 (by decide)
    _ = (dat0 (V1 m ρ) c).arrAt 3 cfg0.N := W2_arr m ρ c 3

/-- Host stretch 3 finds `z` as region 2 left it. -/
theorem w6_z (c : Dev nD) :
    Gen.W6 m ρ c (Proc.devRef .tc main_v0_0) = (Gen.dat2 (Gen.V5 m ρ) c).arrAt 13 cfg2.N :=
  W6_arr m ρ c 13

/-! # The argument arrays at every boundary where they are read

No host operation writes an argument, and a region reads an argument through an input window (whose array it leaves
as entered) or has no window on it.  So at each boundary an argument array still holds its launch contents; the
statements below go one segment at a time from the launch, each resting on the one before. -/

/-- Argument 0 at launch. -/
theorem W0_arg0 (c : Dev nD) : Gen.W0 m ρ c (Proc.devRef .tc main_arg0) = m ((c.tc : Thread nD τ).loc main_arg0) := rfl
/-- Argument 0 after host stretch 0. -/
theorem W1_arg0 (c : Dev nD) : Gen.W1 m ρ c (Proc.devRef .tc main_arg0) = m ((c.tc : Thread nD τ).loc main_arg0) :=
  (keep0 _ main_arg0 (by decide)).trans (W0_arg0 m ρ c)
/-- Argument 0 after region 0. -/
theorem W2_arg0 (c : Dev nD) : Gen.W2 m ρ c (Proc.devRef .tc main_arg0) = m ((c.tc : Thread nD τ).loc main_arg0) :=
  (W2_of_ne m ρ c main_arg0 (by decide)).trans (W1_arg0 m ρ c)

/-- Argument 1 at launch. -/
theorem W0_arg1 (c : Dev nD) : Gen.W0 m ρ c (Proc.devRef .tc main_arg1) = m ((c.tc : Thread nD τ).loc main_arg1) := rfl

/-- Argument 2 at launch. -/
theorem W0_arg2 (c : Dev nD) : Gen.W0 m ρ c (Proc.devRef .tc main_arg2) = m ((c.tc : Thread nD τ).loc main_arg2) := rfl
/-- Argument 2 after host stretch 0. -/
theorem W1_arg2 (c : Dev nD) : Gen.W1 m ρ c (Proc.devRef .tc main_arg2) = m ((c.tc : Thread nD τ).loc main_arg2) :=
  (keep0 _ main_arg2 (by decide)).trans (W0_arg2 m ρ c)

/-- Argument 3 at launch. -/
theorem W0_arg3 (c : Dev nD) : Gen.W0 m ρ c (Proc.devRef .tc main_arg3) = m ((c.tc : Thread nD τ).loc main_arg3) := rfl
/-- Argument 3 after host stretch 0. -/
theorem W1_arg3 (c : Dev nD) : Gen.W1 m ρ c (Proc.devRef .tc main_arg3) = m ((c.tc : Thread nD τ).loc main_arg3) :=
  (keep0 _ main_arg3 (by decide)).trans (W0_arg3 m ρ c)
/-- Argument 3 after region 0. -/
theorem W2_arg3 (c : Dev nD) : Gen.W2 m ρ c (Proc.devRef .tc main_arg3) = m ((c.tc : Thread nD τ).loc main_arg3) :=
  (W2_of_ne m ρ c main_arg3 (by decide)).trans (W1_arg3 m ρ c)
/-- Argument 3 after host stretch 1. -/
theorem W3_arg3 (c : Dev nD) : Gen.W3 m ρ c (Proc.devRef .tc main_arg3) = m ((c.tc : Thread nD τ).loc main_arg3) :=
  (keep1 _ main_arg3 (by decide)).trans (W2_arg3 m ρ c)
/-- Argument 3 after region 1. -/
theorem W4_arg3 (c : Dev nD) : Gen.W4 m ρ c (Proc.devRef .tc main_arg3) = m ((c.tc : Thread nD τ).loc main_arg3) :=
  (W4_of_ne m ρ c main_arg3 (by decide)).trans (W3_arg3 m ρ c)
/-- Argument 3 after host stretch 2. -/
theorem W5_arg3 (c : Dev nD) : Gen.W5 m ρ c (Proc.devRef .tc main_arg3) = m ((c.tc : Thread nD τ).loc main_arg3) :=
  (keep2 _ main_arg3 (by decide)).trans (W4_arg3 m ρ c)
/-- Argument 3 after region 2. -/
theorem W6_arg3 (c : Dev nD) : Gen.W6 m ρ c (Proc.devRef .tc main_arg3) = m ((c.tc : Thread nD τ).loc main_arg3) :=
  (W6_of_ne m ρ c main_arg3 (by decide)).trans (W5_arg3 m ρ c)

/-- Argument 4 at launch. -/
theorem W0_arg4 (c : Dev nD) : Gen.W0 m ρ c (Proc.devRef .tc main_arg4) = m ((c.tc : Thread nD τ).loc main_arg4) := rfl
/-- Argument 4 after host stretch 0. -/
theorem W1_arg4 (c : Dev nD) : Gen.W1 m ρ c (Proc.devRef .tc main_arg4) = m ((c.tc : Thread nD τ).loc main_arg4) :=
  (keep0 _ main_arg4 (by decide)).trans (W0_arg4 m ρ c)
/-- Argument 4 after region 0. -/
theorem W2_arg4 (c : Dev nD) : Gen.W2 m ρ c (Proc.devRef .tc main_arg4) = m ((c.tc : Thread nD τ).loc main_arg4) :=
  (W2_of_ne m ρ c main_arg4 (by decide)).trans (W1_arg4 m ρ c)
/-- Argument 4 after host stretch 1. -/
theorem W3_arg4 (c : Dev nD) : Gen.W3 m ρ c (Proc.devRef .tc main_arg4) = m ((c.tc : Thread nD τ).loc main_arg4) :=
  (keep1 _ main_arg4 (by decide)).trans (W2_arg4 m ρ c)
/-- Argument 4 after region 1. -/
theorem W4_arg4 (c : Dev nD) : Gen.W4 m ρ c (Proc.devRef .tc main_arg4) = m ((c.tc : Thread nD τ).loc main_arg4) :=
  (W4_of_ne m ρ c main_arg4 (by decide)).trans (W3_arg4 m ρ c)
/-- Argument 4 after host stretch 2. -/
theorem W5_arg4 (c : Dev nD) : Gen.W5 m ρ c (Proc.devRef .tc main_arg4) = m ((c.tc : Thread nD τ).loc main_arg4) :=
  (keep2 _ main_arg4 (by decide)).trans (W4_arg4 m ρ c)

/-- Argument 5 at launch. -/
theorem W0_arg5 (c : Dev nD) : Gen.W0 m ρ c (Proc.devRef .tc main_arg5) = m ((c.tc : Thread nD τ).loc main_arg5) := rfl

/-- Argument 6 at launch. -/
theorem W0_arg6 (c : Dev nD) : Gen.W0 m ρ c (Proc.devRef .tc main_arg6) = m ((c.tc : Thread nD τ).loc main_arg6) := rfl

/-- Argument 7 at launch. -/
theorem W0_arg7 (c : Dev nD) : Gen.W0 m ρ c (Proc.devRef .tc main_arg7) = m ((c.tc : Thread nD τ).loc main_arg7) := rfl
/-- Argument 7 after host stretch 0. -/
theorem W1_arg7 (c : Dev nD) : Gen.W1 m ρ c (Proc.devRef .tc main_arg7) = m ((c.tc : Thread nD τ).loc main_arg7) :=
  (keep0 _ main_arg7 (by decide)).trans (W0_arg7 m ρ c)
/-- Argument 7 after region 0. -/
theorem W2_arg7 (c : Dev nD) : Gen.W2 m ρ c (Proc.devRef .tc main_arg7) = m ((c.tc : Thread nD τ).loc main_arg7) :=
  (W2_of_ne m ρ c main_arg7 (by decide)).trans (W1_arg7 m ρ c)
/-- Argument 7 after host stretch 1. -/
theorem W3_arg7 (c : Dev nD) : Gen.W3 m ρ c (Proc.devRef .tc main_arg7) = m ((c.tc : Thread nD τ).loc main_arg7) :=
  (keep1 _ main_arg7 (by decide)).trans (W2_arg7 m ρ c)

/-- Argument 8 at launch. -/
theorem W0_arg8 (c : Dev nD) : Gen.W0 m ρ c (Proc.devRef .tc main_arg8) = m ((c.tc : Thread nD τ).loc main_arg8) := rfl
/-- Argument 8 after host stretch 0. -/
theorem W1_arg8 (c : Dev nD) : Gen.W1 m ρ c (Proc.devRef .tc main_arg8) = m ((c.tc : Thread nD τ).loc main_arg8) :=
  (keep0 _ main_arg8 (by decide)).trans (W0_arg8 m ρ c)
/-- Argument 8 after region 0. -/
theorem W2_arg8 (c : Dev nD) : Gen.W2 m ρ c (Proc.devRef .tc main_arg8) = m ((c.tc : Thread nD τ).loc main_arg8) :=
  (W2_of_ne m ρ c main_arg8 (by decide)).trans (W1_arg8 m ρ c)

/-- Argument 9 at launch. -/
theorem W0_arg9 (c : Dev nD) : Gen.W0 m ρ c (Proc.devRef .tc main_arg9) = m ((c.tc : Thread nD τ).loc main_arg9) := rfl
/-- Argument 9 after host stretch 0. -/
theorem W1_arg9 (c : Dev nD) : Gen.W1 m ρ c (Proc.devRef .tc main_arg9) = m ((c.tc : Thread nD τ).loc main_arg9) :=
  (keep0 _ main_arg9 (by decide)).trans (W0_arg9 m ρ c)
/-- Argument 9 after region 0. -/
theorem W2_arg9 (c : Dev nD) : Gen.W2 m ρ c (Proc.devRef .tc main_arg9) = m ((c.tc : Thread nD τ).loc main_arg9) :=
  (W2_of_ne m ρ c main_arg9 (by decide)).trans (W1_arg9 m ρ c)
/-- Argument 9 after host stretch 1. -/
theorem W3_arg9 (c : Dev nD) : Gen.W3 m ρ c (Proc.devRef .tc main_arg9) = m ((c.tc : Thread nD τ).loc main_arg9) :=
  (keep1 _ main_arg9 (by decide)).trans (W2_arg9 m ρ c)

/-- Argument 10 at launch. -/
theorem W0_arg10 (c : Dev nD) : Gen.W0 m ρ c (Proc.devRef .tc main_arg10) = m ((c.tc : Thread nD τ).loc main_arg10) := rfl
/-- Argument 10 after host stretch 0. -/
theorem W1_arg10 (c : Dev nD) : Gen.W1 m ρ c (Proc.devRef .tc main_arg10) = m ((c.tc : Thread nD τ).loc main_arg10) :=
  (keep0 _ main_arg10 (by decide)).trans (W0_arg10 m ρ c)
/-- Argument 10 after region 0. -/
theorem W2_arg10 (c : Dev nD) : Gen.W2 m ρ c (Proc.devRef .tc main_arg10) = m ((c.tc : Thread nD τ).loc main_arg10) :=
  (W2_of_ne m ρ c main_arg10 (by decide)).trans (W1_arg10 m ρ c)

/-- Argument 11 at launch. -/
theorem W0_arg11 (c : Dev nD) : Gen.W0 m ρ c (Proc.devRef .tc main_arg11) = m ((c.tc : Thread nD τ).loc main_arg11) := rfl
/-- Argument 11 after host stretch 0. -/
theorem W1_arg11 (c : Dev nD) : Gen.W1 m ρ c (Proc.devRef .tc main_arg11) = m ((c.tc : Thread nD τ).loc main_arg11) :=
  (keep0 _ main_arg11 (by decide)).trans (W0_arg11 m ρ c)

/-- Argument 12 at launch. -/
theorem W0_arg12 (c : Dev nD) : Gen.W0 m ρ c (Proc.devRef .tc main_arg12) = m ((c.tc : Thread nD τ).loc main_arg12) := rfl

/-- Argument 13 at launch. -/
theorem W0_arg13 (c : Dev nD) : Gen.W0 m ρ c (Proc.devRef .tc main_arg13) = m ((c.tc : Thread nD τ).loc main_arg13) := rfl
/-- Argument 13 after host stretch 0. -/
theorem W1_arg13 (c : Dev nD) : Gen.W1 m ρ c (Proc.devRef .tc main_arg13) = m ((c.tc : Thread nD τ).loc main_arg13) :=
  (keep0 _ main_arg13 (by decide)).trans (W0_arg13 m ρ c)
/-- Argument 13 after region 0. -/
theorem W2_arg13 (c : Dev nD) : Gen.W2 m ρ c (Proc.devRef .tc main_arg13) = m ((c.tc : Thread nD τ).loc main_arg13) :=
  (W2_of_ne m ρ c main_arg13 (by decide)).trans (W1_arg13 m ρ c)
/-- Argument 13 after host stretch 1. -/
theorem W3_arg13 (c : Dev nD) : Gen.W3 m ρ c (Proc.devRef .tc main_arg13) = m ((c.tc : Thread nD τ).loc main_arg13) :=
  (keep1 _ main_arg13 (by decide)).trans (W2_arg13 m ρ c)
/-- Argument 13 after region 1. -/
theorem W4_arg13 (c : Dev nD) : Gen.W4 m ρ c (Proc.devRef .tc main_arg13) = m ((c.tc : Thread nD τ).loc main_arg13) :=
  (W4_of_ne m ρ c main_arg13 (by decide)).trans (W3_arg13 m ρ c)
/-- Argument 13 after host stretch 2. -/
theorem W5_arg13 (c : Dev nD) : Gen.W5 m ρ c (Proc.devRef .tc main_arg13) = m ((c.tc : Thread nD τ).loc main_arg13) :=
  (keep2 _ main_arg13 (by decide)).trans (W4_arg13 m ρ c)

/-- Argument 14 at launch. -/
theorem W0_arg14 (c : Dev nD) : Gen.W0 m ρ c (Proc.devRef .tc main_arg14) = m ((c.tc : Thread nD τ).loc main_arg14) := rfl
/-- Argument 14 after host stretch 0. -/
theorem W1_arg14 (c : Dev nD) : Gen.W1 m ρ c (Proc.devRef .tc main_arg14) = m ((c.tc : Thread nD τ).loc main_arg14) :=
  (keep0 _ main_arg14 (by decide)).trans (W0_arg14 m ρ c)
/-- Argument 14 after region 0. -/
theorem W2_arg14 (c : Dev nD) : Gen.W2 m ρ c (Proc.devRef .tc main_arg14) = m ((c.tc : Thread nD τ).loc main_arg14) :=
  (W2_of_ne m ρ c main_arg14 (by decide)).trans (W1_arg14 m ρ c)
/-- Argument 14 after host stretch 1. -/
theorem W3_arg14 (c : Dev nD) : Gen.W3 m ρ c (Proc.devRef .tc main_arg14) = m ((c.tc : Thread nD τ).loc main_arg14) :=
  (keep1 _ main_arg14 (by decide)).trans (W2_arg14 m ρ c)
/-- Argument 14 after region 1. -/
theorem W4_arg14 (c : Dev nD) : Gen.W4 m ρ c (Proc.devRef .tc main_arg14) = m ((c.tc : Thread nD τ).loc main_arg14) :=
  (W4_of_ne m ρ c main_arg14 (by decide)).trans (W3_arg14 m ρ c)

/-- Argument 15 at launch. -/
theorem W0_arg15 (c : Dev nD) : Gen.W0 m ρ c (Proc.devRef .tc main_arg15) = m ((c.tc : Thread nD τ).loc main_arg15) := rfl
/-- Argument 15 after host stretch 0. -/
theorem W1_arg15 (c : Dev nD) : Gen.W1 m ρ c (Proc.devRef .tc main_arg15) = m ((c.tc : Thread nD τ).loc main_arg15) :=
  (keep0 _ main_arg15 (by decide)).trans (W0_arg15 m ρ c)
/-- Argument 15 after region 0. -/
theorem W2_arg15 (c : Dev nD) : Gen.W2 m ρ c (Proc.devRef .tc main_arg15) = m ((c.tc : Thread nD τ).loc main_arg15) :=
  (W2_of_ne m ρ c main_arg15 (by decide)).trans (W1_arg15 m ρ c)
/-- Argument 15 after host stretch 1. -/
theorem W3_arg15 (c : Dev nD) : Gen.W3 m ρ c (Proc.devRef .tc main_arg15) = m ((c.tc : Thread nD τ).loc main_arg15) :=
  (keep1 _ main_arg15 (by decide)).trans (W2_arg15 m ρ c)
/-- Argument 15 after region 1. -/
theorem W4_arg15 (c : Dev nD) : Gen.W4 m ρ c (Proc.devRef .tc main_arg15) = m ((c.tc : Thread nD τ).loc main_arg15) :=
  (W4_of_ne m ρ c main_arg15 (by decide)).trans (W3_arg15 m ρ c)
/-- Argument 15 after host stretch 2. -/
theorem W5_arg15 (c : Dev nD) : Gen.W5 m ρ c (Proc.devRef .tc main_arg15) = m ((c.tc : Thread nD τ).loc main_arg15) :=
  (keep2 _ main_arg15 (by decide)).trans (W4_arg15 m ρ c)

/-- Argument 16 at launch. -/
theorem W0_arg16 (c : Dev nD) : Gen.W0 m ρ c (Proc.devRef .tc main_arg16) = m ((c.tc : Thread nD τ).loc main_arg16) := rfl
/-- Argument 16 after host stretch 0. -/
theorem W1_arg16 (c : Dev nD) : Gen.W1 m ρ c (Proc.devRef .tc main_arg16) = m ((c.tc : Thread nD τ).loc main_arg16) :=
  (keep0 _ main_arg16 (by decide)).trans (W0_arg16 m ρ c)
/-- Argument 16 after region 0. -/
theorem W2_arg16 (c : Dev nD) : Gen.W2 m ρ c (Proc.devRef .tc main_arg16) = m ((c.tc : Thread nD τ).loc main_arg16) :=
  (W2_of_ne m ρ c main_arg16 (by decide)).trans (W1_arg16 m ρ c)
/-- Argument 16 after host stretch 1. -/
theorem W3_arg16 (c : Dev nD) : Gen.W3 m ρ c (Proc.devRef .tc main_arg16) = m ((c.tc : Thread nD τ).loc main_arg16) :=
  (keep1 _ main_arg16 (by decide)).trans (W2_arg16 m ρ c)
/-- Argument 16 after region 1. -/
theorem W4_arg16 (c : Dev nD) : Gen.W4 m ρ c (Proc.devRef .tc main_arg16) = m ((c.tc : Thread nD τ).loc main_arg16) :=
  (W4_of_ne m ρ c main_arg16 (by decide)).trans (W3_arg16 m ρ c)

/-- Argument 17 at launch. -/
theorem W0_arg17 (c : Dev nD) : Gen.W0 m ρ c (Proc.devRef .tc main_arg17) = m ((c.tc : Thread nD τ).loc main_arg17) := rfl
/-- Argument 17 after host stretch 0. -/
theorem W1_arg17 (c : Dev nD) : Gen.W1 m ρ c (Proc.devRef .tc main_arg17) = m ((c.tc : Thread nD τ).loc main_arg17) :=
  (keep0 _ main_arg17 (by decide)).trans (W0_arg17 m ρ c)
/-- Argument 17 after region 0. -/
theorem W2_arg17 (c : Dev nD) : Gen.W2 m ρ c (Proc.devRef .tc main_arg17) = m ((c.tc : Thread nD τ).loc main_arg17) :=
  (W2_of_ne m ρ c main_arg17 (by decide)).trans (W1_arg17 m ρ c)
/-- Argument 17 after host stretch 1. -/
theorem W3_arg17 (c : Dev nD) : Gen.W3 m ρ c (Proc.devRef .tc main_arg17) = m ((c.tc : Thread nD τ).loc main_arg17) :=
  (keep1 _ main_arg17 (by decide)).trans (W2_arg17 m ρ c)
/-- Argument 17 after region 1. -/
theorem W4_arg17 (c : Dev nD) : Gen.W4 m ρ c (Proc.devRef .tc main_arg17) = m ((c.tc : Thread nD τ).loc main_arg17) :=
  (W4_of_ne m ρ c main_arg17 (by decide)).trans (W3_arg17 m ρ c)
/-- Argument 17 after host stretch 2. -/
theorem W5_arg17 (c : Dev nD) : Gen.W5 m ρ c (Proc.devRef .tc main_arg17) = m ((c.tc : Thread nD τ).loc main_arg17) :=
  (keep2 _ main_arg17 (by decide)).trans (W4_arg17 m ρ c)

/-- Argument 18 at launch. -/
theorem W0_arg18 (c : Dev nD) : Gen.W0 m ρ c (Proc.devRef .tc main_arg18) = m ((c.tc : Thread nD τ).loc main_arg18) := rfl
/-- Argument 18 after host stretch 0. -/
theorem W1_arg18 (c : Dev nD) : Gen.W1 m ρ c (Proc.devRef .tc main_arg18) = m ((c.tc : Thread nD τ).loc main_arg18) :=
  (keep0 _ main_arg18 (by decide)).trans (W0_arg18 m ρ c)
/-- Argument 18 after region 0. -/
theorem W2_arg18 (c : Dev nD) : Gen.W2 m ρ c (Proc.devRef .tc main_arg18) = m ((c.tc : Thread nD τ).loc main_arg18) :=
  (W2_of_ne m ρ c main_arg18 (by decide)).trans (W1_arg18 m ρ c)
/-- Argument 18 after host stretch 1. -/
theorem W3_arg18 (c : Dev nD) : Gen.W3 m ρ c (Proc.devRef .tc main_arg18) = m ((c.tc : Thread nD τ).loc main_arg18) :=
  (keep1 _ main_arg18 (by decide)).trans (W2_arg18 m ρ c)
/-- Argument 18 after region 1. -/
theorem W4_arg18 (c : Dev nD) : Gen.W4 m ρ c (Proc.devRef .tc main_arg18) = m ((c.tc : Thread nD τ).loc main_arg18) :=
  (W4_of_ne m ρ c main_arg18 (by decide)).trans (W3_arg18 m ρ c)

/-- Argument 19 at launch. -/
theorem W0_arg19 (c : Dev nD) : Gen.W0 m ρ c (Proc.devRef .tc main_arg19) = m ((c.tc : Thread nD τ).loc main_arg19) := rfl
/-- Argument 19 after host stretch 0. -/
theorem W1_arg19 (c : Dev nD) : Gen.W1 m ρ c (Proc.devRef .tc main_arg19) = m ((c.tc : Thread nD τ).loc main_arg19) :=
  (keep0 _ main_arg19 (by decide)).trans (W0_arg19 m ρ c)
/-- Argument 19 after region 0. -/
theorem W2_arg19 (c : Dev nD) : Gen.W2 m ρ c (Proc.devRef .tc main_arg19) = m ((c.tc : Thread nD τ).loc main_arg19) :=
  (W2_of_ne m ρ c main_arg19 (by decide)).trans (W1_arg19 m ρ c)
/-- Argument 19 after host stretch 1. -/
theorem W3_arg19 (c : Dev nD) : Gen.W3 m ρ c (Proc.devRef .tc main_arg19) = m ((c.tc : Thread nD τ).loc main_arg19) :=
  (keep1 _ main_arg19 (by decide)).trans (W2_arg19 m ρ c)
/-- Argument 19 after region 1. -/
theorem W4_arg19 (c : Dev nD) : Gen.W4 m ρ c (Proc.devRef .tc main_arg19) = m ((c.tc : Thread nD τ).loc main_arg19) :=
  (W4_of_ne m ρ c main_arg19 (by decide)).trans (W3_arg19 m ρ c)
/-- Argument 19 after host stretch 2. -/
theorem W5_arg19 (c : Dev nD) : Gen.W5 m ρ c (Proc.devRef .tc main_arg19) = m ((c.tc : Thread nD τ).loc main_arg19) :=
  (keep2 _ main_arg19 (by decide)).trans (W4_arg19 m ρ c)

/-- Argument 20 at launch. -/
theorem W0_arg20 (c : Dev nD) : Gen.W0 m ρ c (Proc.devRef .tc main_arg20) = m ((c.tc : Thread nD τ).loc main_arg20) := rfl
/-- Argument 20 after host stretch 0. -/
theorem W1_arg20 (c : Dev nD) : Gen.W1 m ρ c (Proc.devRef .tc main_arg20) = m ((c.tc : Thread nD τ).loc main_arg20) :=
  (keep0 _ main_arg20 (by decide)).trans (W0_arg20 m ρ c)
/-- Argument 20 after region 0. -/
theorem W2_arg20 (c : Dev nD) : Gen.W2 m ρ c (Proc.devRef .tc main_arg20) = m ((c.tc : Thread nD τ).loc main_arg20) :=
  (W2_of_ne m ρ c main_arg20 (by decide)).trans (W1_arg20 m ρ c)
/-- Argument 20 after host stretch 1. -/
theorem W3_arg20 (c : Dev nD) : Gen.W3 m ρ c (Proc.devRef .tc main_arg20) = m ((c.tc : Thread nD τ).loc main_arg20) :=
  (keep1 _ main_arg20 (by decide)).trans (W2_arg20 m ρ c)
/-- Argument 20 after region 1. -/
theorem W4_arg20 (c : Dev nD) : Gen.W4 m ρ c (Proc.devRef .tc main_arg20) = m ((c.tc : Thread nD τ).loc main_arg20) :=
  (W4_of_ne m ρ c main_arg20 (by decide)).trans (W3_arg20 m ρ c)

/-- Argument 21 at launch. -/
theorem W0_arg21 (c : Dev nD) : Gen.W0 m ρ c (Proc.devRef .tc main_arg21) = m ((c.tc : Thread nD τ).loc main_arg21) := rfl
/-- Argument 21 after host stretch 0. -/
theorem W1_arg21 (c : Dev nD) : Gen.W1 m ρ c (Proc.devRef .tc main_arg21) = m ((c.tc : Thread nD τ).loc main_arg21) :=
  (keep0 _ main_arg21 (by decide)).trans (W0_arg21 m ρ c)
/-- Argument 21 after region 0. -/
theorem W2_arg21 (c : Dev nD) : Gen.W2 m ρ c (Proc.devRef .tc main_arg21) = m ((c.tc : Thread nD τ).loc main_arg21) :=
  (W2_of_ne m ρ c main_arg21 (by decide)).trans (W1_arg21 m ρ c)
/-- Argument 21 after host stretch 1. -/
theorem W3_arg21 (c : Dev nD) : Gen.W3 m ρ c (Proc.devRef .tc main_arg21) = m ((c.tc : Thread nD τ).loc main_arg21) :=
  (keep1 _ main_arg21 (by decide)).trans (W2_arg21 m ρ c)
/-- Argument 21 after region 1. -/
theorem W4_arg21 (c : Dev nD) : Gen.W4 m ρ c (Proc.devRef .tc main_arg21) = m ((c.tc : Thread nD τ).loc main_arg21) :=
  (W4_of_ne m ρ c main_arg21 (by decide)).trans (W3_arg21 m ρ c)
/-- Argument 21 after host stretch 2. -/
theorem W5_arg21 (c : Dev nD) : Gen.W5 m ρ c (Proc.devRef .tc main_arg21) = m ((c.tc : Thread nD τ).loc main_arg21) :=
  (keep2 _ main_arg21 (by decide)).trans (W4_arg21 m ρ c)
/-- Argument 21 after region 2. -/
theorem W6_arg21 (c : Dev nD) : Gen.W6 m ρ c (Proc.devRef .tc main_arg21) = m ((c.tc : Thread nD τ).loc main_arg21) :=
  (W6_of_ne m ρ c main_arg21 (by decide)).trans (W5_arg21 m ρ c)
/-- Argument 21 after host stretch 3. -/
theorem W7_arg21 (c : Dev nD) : Gen.W7 m ρ c (Proc.devRef .tc main_arg21) = m ((c.tc : Thread nD τ).loc main_arg21) :=
  (keep3 _ main_arg21 (by decide)).trans (W6_arg21 m ρ c)

/-- Argument 22 at launch. -/
theorem W0_arg22 (c : Dev nD) : Gen.W0 m ρ c (Proc.devRef .tc main_arg22) = m ((c.tc : Thread nD τ).loc main_arg22) := rfl
/-- Argument 22 after host stretch 0. -/
theorem W1_arg22 (c : Dev nD) : Gen.W1 m ρ c (Proc.devRef .tc main_arg22) = m ((c.tc : Thread nD τ).loc main_arg22) :=
  (keep0 _ main_arg22 (by decide)).trans (W0_arg22 m ρ c)
/-- Argument 22 after region 0. -/
theorem W2_arg22 (c : Dev nD) : Gen.W2 m ρ c (Proc.devRef .tc main_arg22) = m ((c.tc : Thread nD τ).loc main_arg22) :=
  (W2_of_ne m ρ c main_arg22 (by decide)).trans (W1_arg22 m ρ c)
/-- Argument 22 after host stretch 1. -/
theorem W3_arg22 (c : Dev nD) : Gen.W3 m ρ c (Proc.devRef .tc main_arg22) = m ((c.tc : Thread nD τ).loc main_arg22) :=
  (keep1 _ main_arg22 (by decide)).trans (W2_arg22 m ρ c)
/-- Argument 22 after region 1. -/
theorem W4_arg22 (c : Dev nD) : Gen.W4 m ρ c (Proc.devRef .tc main_arg22) = m ((c.tc : Thread nD τ).loc main_arg22) :=
  (W4_of_ne m ρ c main_arg22 (by decide)).trans (W3_arg22 m ρ c)
/-- Argument 22 after host stretch 2. -/
theorem W5_arg22 (c : Dev nD) : Gen.W5 m ρ c (Proc.devRef .tc main_arg22) = m ((c.tc : Thread nD τ).loc main_arg22) :=
  (keep2 _ main_arg22 (by decide)).trans (W4_arg22 m ρ c)
/-- Argument 22 after region 2. -/
theorem W6_arg22 (c : Dev nD) : Gen.W6 m ρ c (Proc.devRef .tc main_arg22) = m ((c.tc : Thread nD τ).loc main_arg22) :=
  (W6_of_ne m ρ c main_arg22 (by decide)).trans (W5_arg22 m ρ c)

/-! ## The same, as each region's entry contents are read (at the region's own references) -/
theorem V1_arg2 (c : Dev nD) : Gen.V1 m ρ c main_arg2 = m ((c.tc : Thread nD τ).loc main_arg2) := W1_arg2 m ρ c
theorem V1_arg11 (c : Dev nD) : Gen.V1 m ρ c main_arg11 = m ((c.tc : Thread nD τ).loc main_arg11) := W1_arg11 m ρ c
theorem V3_arg7 (c : Dev nD) : Gen.V3 m ρ c main_arg7 = m ((c.tc : Thread nD τ).loc main_arg7) := W3_arg7 m ρ c
theorem V3_arg9 (c : Dev nD) : Gen.V3 m ρ c main_arg9 = m ((c.tc : Thread nD τ).loc main_arg9) := W3_arg9 m ρ c
theorem V5_arg4 (c : Dev nD) : Gen.V5 m ρ c main_arg4 = m ((c.tc : Thread nD τ).loc main_arg4) := W5_arg4 m ρ c
theorem V5_arg13 (c : Dev nD) : Gen.V5 m ρ c main_arg13 = m ((c.tc : Thread nD τ).loc main_arg13) := W5_arg13 m ρ c
theorem V5_arg15 (c : Dev nD) : Gen.V5 m ρ c main_arg15 = m ((c.tc : Thread nD τ).loc main_arg15) := W5_arg15 m ρ c
theorem V5_arg17 (c : Dev nD) : Gen.V5 m ρ c main_arg17 = m ((c.tc : Thread nD τ).loc main_arg17) := W5_arg17 m ρ c
theorem V5_arg19 (c : Dev nD) : Gen.V5 m ρ c main_arg19 = m ((c.tc : Thread nD τ).loc main_arg19) := W5_arg19 m ρ c
theorem V7_arg21 (c : Dev nD) : Gen.V7 m ρ c main_arg21 = m ((c.tc : Thread nD τ).loc main_arg21) := W7_arg21 m ρ c

end Cert.KernelIdeal.KRun

end
-- ==== Proof.KHost.lean ====
/-
  The kernel program's host code between its four tiled stages, read at the ideal instance: what each stretch of
  host operations leaves in the buffers the next stage (or a later stretch) reads, as a whole-array term of the
  buffers the stretch finds.  Each statement is over an ARBITRARY entry valuation `W`, so that it can be used at
  whatever the buffers hold when the stretch starts.

  Stretch 0 splits the edge table into its source and destination rows, computes the layer-1 edge encoding
  (flattened to a vector) and lays the layer-2 edge bias as a row.  Stretch 1 is layer-1 message passing on flat
  vectors: gather the node value at each edge's source, add the edge encoding, rectify, sum into the destination
  node, add the node value, and recast as a column; and it lays two biases as rows.  Stretch 2 is layer-2 message
  passing on 64 features from the first stage's two outputs (a change of float format is the identity here), and
  four bias rows.  Stretch 3 is the per-graph mean of the samples and the classifier's bias row.
-/
import proofs.«118365_j37108517438028_2_alg».proof.Proof.Gen.KernelIdeal.Frame
import proofs.«118365_j37108517438028_2_alg».proof.Proof.RefTerms
import Idealize.ShloMosaic.Lib.StableHlo.Run

noncomputable section

namespace Cert.KernelIdeal.KHost

open Idealize.ShloMosaic Idealize.ShloMosaic.TcCoe Idealize.SL.Sem
open Cert.KernelIdeal Cert.KernelIdeal.Gen
open Cert.RefTerms (A I c0 c1 srcRow dstRow srcIdx dstIdx encA)

section Parts
variable {F : FTy → Type} [FloatOps F]

/-- Stretch 1's operations that wrap the source row into gather indices. -/
abbrev ops1a : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v11 : StableHlo.TRef sig ⟨S1600000, .i32⟩) (broadcastInDim S1600000 ![] bcast_S_S1600000),
    StableHlo.TRef.binary (.of main_call0_v1 : StableHlo.TRef sig ⟨S1600000, .i32⟩) (.of main_call0_v11 : StableHlo.TRef sig ⟨S1600000, .i32⟩) (.of main_call0_v12 : StableHlo.TRef sig ⟨S1600000, .i1⟩) (cmpi .slt),
    StableHlo.TRef.nullary (.of main_call0_c_0 : StableHlo.TRef sig ⟨S_, .i32⟩) (constantI S_ 32 100000#32),
    StableHlo.TRef.unary (.of main_call0_c_0 : StableHlo.TRef sig ⟨S_, .i32⟩) (.of main_call0_v13 : StableHlo.TRef sig ⟨S1600000, .i32⟩) (broadcastInDim S1600000 ![] bcast_S_S1600000),
    StableHlo.TRef.binary (.of main_call0_v1 : StableHlo.TRef sig ⟨S1600000, .i32⟩) (.of main_call0_v13 : StableHlo.TRef sig ⟨S1600000, .i32⟩) (.of main_call0_v14 : StableHlo.TRef sig ⟨S1600000, .i32⟩) addi,
    StableHlo.TRef.ternary (.of main_call0_v12 : StableHlo.TRef sig ⟨S1600000, .i1⟩) (.of main_call0_v14 : StableHlo.TRef sig ⟨S1600000, .i32⟩) (.of main_call0_v1 : StableHlo.TRef sig ⟨S1600000, .i32⟩) (.of main_call0_v15 : StableHlo.TRef sig ⟨S1600000, .i32⟩) select,
    StableHlo.TRef.unary (.of main_call0_v15 : StableHlo.TRef sig ⟨S1600000, .i32⟩) (.of main_call0_v16 : StableHlo.TRef sig ⟨S1600000x1, .i32⟩) (broadcastInDim S1600000x1 ![0] bcast_S1600000_S1600000x1_0) ]

/-- Stretch 1's gather of the node values, the sum with the edge encoding, the rectifier. -/
abbrev ops1b : List (HloOp τ sig (Elt F)) :=
  [ StableHlo.TRef.binary (.of main_arg0 : StableHlo.TRef sig ⟨S100000, .f32⟩) (.of main_call0_v16 : StableHlo.TRef sig ⟨S1600000x1, .i32⟩) (.of main_call0_v17 : StableHlo.TRef sig ⟨S1600000, .f32⟩) (fun x i => Host.gather gather_S100000_S1600000x1_S1600000_n_0_n_n_0_1_1 x i),
    StableHlo.TRef.binary (.of main_call0_v17 : StableHlo.TRef sig ⟨S1600000, .f32⟩) (.of main_call0_v8 : StableHlo.TRef sig ⟨S1600000, .f32⟩) (.of main_call0_v18 : StableHlo.TRef sig ⟨S1600000, .f32⟩) addf,
    StableHlo.TRef.nullary (.of main_call0_call0_cst : StableHlo.TRef sig ⟨S_, .f32⟩) (constant S_ .f32 0x00000000#32),
    StableHlo.TRef.unary (.of main_call0_call0_cst : StableHlo.TRef sig ⟨S_, .f32⟩) (.of main_call0_call0_v0 : StableHlo.TRef sig ⟨S1600000, .f32⟩) (broadcastInDim S1600000 ![] bcast_S_S1600000),
    StableHlo.TRef.binary (.of main_call0_v18 : StableHlo.TRef sig ⟨S1600000, .f32⟩) (.of main_call0_call0_v0 : StableHlo.TRef sig ⟨S1600000, .f32⟩) (.of main_call0_v19 : StableHlo.TRef sig ⟨S1600000, .f32⟩) maximumf ]

/-- Stretch 1's zero vector and destination column. -/
abbrev ops1c : List (HloOp τ sig (Elt F)) :=
  [ StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v20 : StableHlo.TRef sig ⟨S100000, .f32⟩) (broadcastInDim S100000 ![] bcast_S_S100000),
    StableHlo.TRef.unary (.of main_call0_v3 : StableHlo.TRef sig ⟨S1600000, .i32⟩) (.of main_call0_v21 : StableHlo.TRef sig ⟨S1600000x1, .i32⟩) (broadcastInDim S1600000x1 ![0] bcast_S1600000_S1600000x1_0) ]

/-- Stretch 1's scatter-add of the messages into the nodes. -/
abbrev ops1d : List (HloOp τ sig (Elt F)) :=
  [ StableHlo.TRef.ternary (.of main_call0_v20 : StableHlo.TRef sig ⟨S100000, .f32⟩) (.of main_call0_v21 : StableHlo.TRef sig ⟨S1600000x1, .i32⟩) main_call0_call0.v1 (.of main_call0_v22 : StableHlo.TRef sig ⟨S100000, .f32⟩) (fun x i u => Host.scatterAdd scatter_S100000_S1600000x1_S1600000_n_0_0_1 x i u) ]

/-- Stretch 1's residual sum, the column, and the two bias rows. -/
abbrev ops1e : List (HloOp τ sig (Elt F)) :=
  [ StableHlo.TRef.binary (.of main_arg0 : StableHlo.TRef sig ⟨S100000, .f32⟩) (.of main_call0_v22 : StableHlo.TRef sig ⟨S100000, .f32⟩) (.of main_call0_v23 : StableHlo.TRef sig ⟨S100000, .f32⟩) addf,
    StableHlo.TRef.reshape (.of main_call0_v23 : StableHlo.TRef sig ⟨S100000, .f32⟩) (.of main_call0_v24 : StableHlo.TRef sig ⟨S100000x1, .f32⟩) rfl shapeCasts_S100000_S100000x1,
    StableHlo.TRef.reshape (.of main_arg8 : StableHlo.TRef sig ⟨S64, .f32⟩) (.of main_call0_v25 : StableHlo.TRef sig ⟨S1x64, .f32⟩) rfl shapeCasts_S64_S1x64,
    StableHlo.TRef.reshape (.of main_arg10 : StableHlo.TRef sig ⟨S64, .f32⟩) (.of main_call0_v26 : StableHlo.TRef sig ⟨S1x64, .f32⟩) rfl shapeCasts_S64_S1x64 ]

theorem hostOps1_eq : (hostOps1 : List (HloOp τ sig (Elt F))) = ops1a ++ (ops1b ++ (ops1c ++ (ops1d ++ ops1e))) := rfl

end Parts

set_option maxHeartbeats 1600000
set_option Elab.async false

variable (W : Valuation τ sig (Elt Ideal))

/-- A buffer of a valuation, at a TensorCore reference. -/
abbrev rd (W : Valuation τ sig (Elt Ideal)) (b : Ref sig .tc) := W (Proc.devRef .tc b)

/-! ## Index columns from a row of the edge table -/

/-- The start indices of a gather from a row of the edge table: a negative index wrapped by the node count, as a column. -/
def idxOf (s : I S1600000) : I S1600000x1 :=
  broadcastInDim S1600000x1 ![0] Facts₀.bcast_S1600000_S1600000x1_0
    (select (cmpi .slt s (broadcastInDim S1600000 ![] Facts₀.bcast_S_S1600000 (constantI S_ 32 0#32)))
      (addi s (broadcastInDim S1600000 ![] Facts₀.bcast_S_S1600000 (constantI S_ 32 100000#32))) s)
/-- A row of the edge table as a column of scatter indices. -/
def colOf (d : I S1600000) : I S1600000x1 := broadcastInDim S1600000x1 ![0] Facts₀.bcast_S1600000_S1600000x1_0 d

/-! ## Stretch 0 -/

theorem ops0_src : StableHlo.after hostOps0 W (Proc.devRef .tc main_call0_v1) = srcRow (rd W main_arg1) := by
  after_results; rfl
theorem ops0_dst : StableHlo.after hostOps0 W (Proc.devRef .tc main_call0_v3) = dstRow (rd W main_arg1) := by
  after_results; rfl
/-- The layer-1 edge encoding, flattened from a column to a vector. -/
theorem ops0_e1 : StableHlo.after hostOps0 W (Proc.devRef .tc main_call0_v8)
    = shapeCast S1600000 (encA (rd W main_arg2) (rd W main_arg5) (rd W main_arg6)) Facts₀.shapeCasts_S1600000x1_S1600000 := by
  after_results; rfl
/-- The layer-2 edge bias as a row. -/
theorem ops0_be2 : StableHlo.after hostOps0 W (Proc.devRef .tc main_call0_v9)
    = shapeCast S1x64 (rd W main_arg12) Facts₀.shapeCasts_S64_S1x64 := by
  after_results; rfl

/-! ## Stretch 1, read part by part -/

/-- A run of host operations is run part after part. -/
theorem after_app (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => simp only [List.cons_append, StableHlo.after_cons, ih]

/-- One edge's message on flat vectors: `max (x[src] + e) 0`. -/
def msgK (x : A S100000) (ix : I S1600000x1) (e : A S1600000) : A S1600000 :=
  maximumf (addf (Host.gather gather_S100000_S1600000x1_S1600000_n_0_n_n_0_1_1 x ix) e)
    (broadcastInDim S1600000 ![] Facts₀.bcast_S_S1600000 c0)
/-- Updates summed into the entries of a vector that a column of indices names. -/
def scatInto (z : A S100000) (dc : I S1600000x1) (u : A S1600000) : A S100000 :=
  Host.scatterAdd scatter_S100000_S1600000x1_S1600000_n_0_0_1 z dc u
/-- The messages summed into their destination nodes, from the zero vector. -/
def scatK (dc : I S1600000x1) (u : A S1600000) : A S100000 :=
  scatInto (broadcastInDim S100000 ![] Facts₀.bcast_S_S100000 c0) dc u
/-- The node value plus the summed messages, as a column. -/
def colK (x v : A S100000) : A S100000x1 := shapeCast S100000x1 (addf x v) Facts₀.shapeCasts_S100000_S100000x1

/-- Layer-1 message passing on flat vectors, recast as a column, as the kernel's host code spells it: from the
    node values `x`, the source and destination rows `s`, `d` of the edge table and the flat edge encoding `e`. -/
def preK (x : A S100000) (s d : I S1600000) (e : A S1600000) : A S100000x1 :=
  colK x (scatK (colOf d) (msgK x (idxOf s) e))

theorem ops1a_idx : StableHlo.after (ops1a (F := Ideal)) W (Proc.devRef .tc main_call0_v16) = idxOf (rd W main_call0_v1) := by
  after_results; rfl
theorem ops1a_x : StableHlo.after (ops1a (F := Ideal)) W (Proc.devRef .tc main_arg0) = rd W main_arg0 := by after_results
theorem ops1a_e : StableHlo.after (ops1a (F := Ideal)) W (Proc.devRef .tc main_call0_v8) = rd W main_call0_v8 := by after_results
theorem ops1a_d : StableHlo.after (ops1a (F := Ideal)) W (Proc.devRef .tc main_call0_v3) = rd W main_call0_v3 := by after_results
theorem ops1a_b8 : StableHlo.after (ops1a (F := Ideal)) W (Proc.devRef .tc main_arg8) = rd W main_arg8 := by after_results
theorem ops1a_b10 : StableHlo.after (ops1a (F := Ideal)) W (Proc.devRef .tc main_arg10) = rd W main_arg10 := by after_results

theorem ops1b_msg : StableHlo.after (ops1b (F := Ideal)) W (Proc.devRef .tc main_call0_v19)
    = msgK (rd W main_arg0) (rd W main_call0_v16) (rd W main_call0_v8) := by
  after_results; rfl
theorem ops1b_x : StableHlo.after (ops1b (F := Ideal)) W (Proc.devRef .tc main_arg0) = rd W main_arg0 := by after_results
theorem ops1b_d : StableHlo.after (ops1b (F := Ideal)) W (Proc.devRef .tc main_call0_v3) = rd W main_call0_v3 := by after_results
theorem ops1b_b8 : StableHlo.after (ops1b (F := Ideal)) W (Proc.devRef .tc main_arg8) = rd W main_arg8 := by after_results
theorem ops1b_b10 : StableHlo.after (ops1b (F := Ideal)) W (Proc.devRef .tc main_arg10) = rd W main_arg10 := by after_results

theorem ops1c_zero : StableHlo.after (ops1c (F := Ideal)) W (Proc.devRef .tc main_call0_v20)
    = (broadcastInDim S100000 ![] Facts₀.bcast_S_S100000 c0 : A S100000) := by
  after_results; rfl
theorem ops1c_dcol : StableHlo.after (ops1c (F := Ideal)) W (Proc.devRef .tc main_call0_v21) = colOf (rd W main_call0_v3) := by
  after_results; rfl
theorem ops1c_x : StableHlo.after (ops1c (F := Ideal)) W (Proc.devRef .tc main_arg0) = rd W main_arg0 := by after_results
theorem ops1c_m : StableHlo.after (ops1c (F := Ideal)) W (Proc.devRef .tc main_call0_v19) = rd W main_call0_v19 := by after_results
theorem ops1c_b8 : StableHlo.after (ops1c (F := Ideal)) W (Proc.devRef .tc main_arg8) = rd W main_arg8 := by after_results
theorem ops1c_b10 : StableHlo.after (ops1c (F := Ideal)) W (Proc.devRef .tc main_arg10) = rd W main_arg10 := by after_results

theorem ops1d_scat : StableHlo.after (ops1d (F := Ideal)) W (Proc.devRef .tc main_call0_v22)
    = scatInto (rd W main_call0_v20) (rd W main_call0_v21) (rd W main_call0_v19) := by
  after_results; rfl
theorem ops1d_x : StableHlo.after (ops1d (F := Ideal)) W (Proc.devRef .tc main_arg0) = rd W main_arg0 := by after_results
theorem ops1d_b8 : StableHlo.after (ops1d (F := Ideal)) W (Proc.devRef .tc main_arg8) = rd W main_arg8 := by after_results
theorem ops1d_b10 : StableHlo.after (ops1d (F := Ideal)) W (Proc.devRef .tc main_arg10) = rd W main_arg10 := by after_results

theorem ops1e_col : StableHlo.after (ops1e (F := Ideal)) W (Proc.devRef .tc main_call0_v24) = colK (rd W main_arg0) (rd W main_call0_v22) := by
  after_results; rfl
theorem ops1e_b1a : StableHlo.after (ops1e (F := Ideal)) W (Proc.devRef .tc main_call0_v25)
    = shapeCast S1x64 (rd W main_arg8) Facts₀.shapeCasts_S64_S1x64 := by
  after_results; rfl
theorem ops1e_b1b : StableHlo.after (ops1e (F := Ideal)) W (Proc.devRef .tc main_call0_v26)
    = shapeCast S1x64 (rd W main_arg10) Facts₀.shapeCasts_S64_S1x64 := by
  after_results; rfl

theorem ops1_col : StableHlo.after hostOps1 W (Proc.devRef .tc main_call0_v24)
    = preK (rd W main_arg0) (rd W main_call0_v1) (rd W main_call0_v3) (rd W main_call0_v8) := by
  rw [hostOps1_eq, after_app, after_app, after_app, after_app, ops1e_col]
  simp only [rd]
  rw [ops1d_scat, ops1d_x]
  simp only [rd]
  rw [ops1c_zero, ops1c_dcol, ops1c_m, ops1c_x]
  simp only [rd]
  rw [ops1b_msg, ops1b_d, ops1b_x]
  simp only [rd]
  rw [ops1a_idx, ops1a_x, ops1a_e, ops1a_d]
  rfl
theorem ops1_b1a : StableHlo.after hostOps1 W (Proc.devRef .tc main_call0_v25)
    = shapeCast S1x64 (rd W main_arg8) Facts₀.shapeCasts_S64_S1x64 := by
  rw [hostOps1_eq, after_app, after_app, after_app, after_app, ops1e_b1a]
  simp only [rd]
  rw [ops1d_b8]; simp only [rd]
  rw [ops1c_b8]; simp only [rd]
  rw [ops1b_b8]; simp only [rd]
  rw [ops1a_b8]
theorem ops1_b1b : StableHlo.after hostOps1 W (Proc.devRef .tc main_call0_v26)
    = shapeCast S1x64 (rd W main_arg10) Facts₀.shapeCasts_S64_S1x64 := by
  rw [hostOps1_eq, after_app, after_app, after_app, after_app, ops1e_b1b]
  simp only [rd]
  rw [ops1d_b10]; simp only [rd]
  rw [ops1c_b10]; simp only [rd]
  rw [ops1b_b10]; simp only [rd]
  rw [ops1a_b10]

/-! ## Stretch 2 -/

/-- Layer-2 message passing as the kernel's host code spells it: the node features and the edge encoding arrive in
    the short float format and are widened (the identity here) before the sum. -/
def aggK (hb : FVec Ideal S100000x64 .bf16) (s d : I S1600000) (e : FVec Ideal S1600000x64 .bf16) : A S100000x64 :=
  Host.scatterAdd scatter_S100000x64_S1600000x1_S1600000x64_1_0_0_1
    (broadcastInDim S100000x64 ![] Facts₀.bcast_S_S100000x64 c0) (colOf d)
    (maximumf
      (addf (extf .f32 (Host.gather gather_S100000x64_S1600000x1_S1600000x64_1_0_n_n_0_1_164 hb (idxOf s)) bitsLt_bf16_f32)
        (extf .f32 e bitsLt_bf16_f32))
      (broadcastInDim S1600000x64 ![] Facts₀.bcast_S_S1600000x64 c0))

theorem ops2_agg : StableHlo.after hostOps2 W (Proc.devRef .tc main_call0_v41)
    = aggK (rd W main_call0_v27_1) (rd W main_call0_v1) (rd W main_call0_v3) (rd W main_call0_v10) := by
  after_results_simp; rfl
theorem ops2_b2a : StableHlo.after hostOps2 W (Proc.devRef .tc main_call0_v42)
    = shapeCast S1x64 (rd W main_arg14) Facts₀.shapeCasts_S64_S1x64 := by
  after_results; rfl
theorem ops2_b2b : StableHlo.after hostOps2 W (Proc.devRef .tc main_call0_v43)
    = shapeCast S1x64 (rd W main_arg16) Facts₀.shapeCasts_S64_S1x64 := by
  after_results; rfl
theorem ops2_bmu : StableHlo.after hostOps2 W (Proc.devRef .tc main_call0_v44)
    = shapeCast S1x32 (rd W main_arg18) Facts₀.shapeCasts_S32_S1x32 := by
  after_results; rfl
theorem ops2_blv : StableHlo.after hostOps2 W (Proc.devRef .tc main_call0_v45)
    = shapeCast S1x32 (rd W main_arg20) Facts₀.shapeCasts_S32_S1x32 := by
  after_results; rfl

/-! ## Stretch 3 -/

/-- The per-graph mean of the samples: the same operations as the reference's. -/
theorem ops3_pool : StableHlo.after hostOps3 W (Proc.devRef .tc main_call0_v58)
    = Cert.RefTerms.pool (rd W main_v0_0) (rd W main_arg3) := by
  after_results_simp; rfl
theorem ops3_bcls : StableHlo.after hostOps3 W (Proc.devRef .tc main_call0_v59)
    = shapeCast S1x6 (rd W main_arg22) Facts₀.shapeCasts_S6_S1x6 := by
  after_results; rfl

end Cert.KernelIdeal.KHost

end
-- ==== Proof.LibKeepdims.lean ====
/-
  Layout operations around a KEPT UNIT AXIS, read at an index, and sums over index sets with unit axes.

  A reduction with `keepdims=True` leaves a unit axis where the reduced axis was: a vector of length `a` is recast as an
  `a × 1` column (`shapeCast_a_a1_apply`), and such a column is broadcast along its unit axis to an `a × b` array
  (`broadcastTo_a1_ab_apply`). A sum over the indices of a shape whose axes are all of size one but one is the sum over
  that axis's coordinates (`sum_idx1`, `sum_idx3_11a`, `sum_idx3_1a1`, `sum_idx3_a11`): the indices are in bijection
  with the coordinates.
-/
import Idealize.ShloMosaic.Lib.ValueIdx
import Idealize.ShloMosaic.Lib.ValueLayout
import Idealize.ShloMosaic.Lib.Pipeline.Value

namespace Idealize.ShloMosaic.Keepdims

open Idealize.ShloMosaic.ValueIdx

variable {α : Type}

/-- A vector recast as a column: entry `(i, 0)` of the column is entry `i` of the vector. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its unit axis: entry `(p, c)` of the result is entry `(p, 0)` of the column. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the indices of a vector is the sum over its coordinates. -/
theorem sum_idx1 {M : Type*} [AddCommMonoid M] {n : ℕ} (f : (⟨1, ![n]⟩ : Shape).Idx → M) :
    ∑ i, f i = ∑ a : Fin n, f (ix1 a) := by
  refine (Function.Bijective.sum_comp (e := fun a : Fin n => (ix1 a : (⟨1, ![n]⟩ : Shape).Idx)) ⟨?_, ?_⟩ f).symm
  · intro a a' h; exact congrFun h 0
  · intro j; exact ⟨j 0, (eq_ix1 j).symm⟩

/-- A sum over the indices of a `1 × 1 × n` array is the sum over the last coordinate. -/
theorem sum_idx3_11a {M : Type*} [AddCommMonoid M] {n : ℕ} (f : (⟨3, ![1, 1, n]⟩ : Shape).Idx → M) :
    ∑ i, f i = ∑ a : Fin n, f (ix3 (0 : Fin 1) (0 : Fin 1) a) := by
  refine (Function.Bijective.sum_comp
    (e := fun a : Fin n => (ix3 (0 : Fin 1) (0 : Fin 1) a : (⟨3, ![1, 1, n]⟩ : Shape).Idx)) ⟨?_, ?_⟩ f).symm
  · intro a a' h; exact congrFun h 2
  · intro j
    have h0 : (j 0).val = 0 := by have : (j 0).val < 1 := (j 0).isLt; omega
    have h1 : (j 1).val = 0 := by have : (j 1).val < 1 := (j 1).isLt; omega
    exact ⟨j 2, funext fun d => match d with
      | ⟨0, _⟩ => Fin.ext h0.symm
      | ⟨1, _⟩ => Fin.ext h1.symm
      | ⟨2, _⟩ => rfl⟩

/-- A sum over the indices of a `1 × n × 1` array is the sum over the middle coordinate. -/
theorem sum_idx3_1a1 {M : Type*} [AddCommMonoid M] {n : ℕ} (f : (⟨3, ![1, n, 1]⟩ : Shape).Idx → M) :
    ∑ i, f i = ∑ a : Fin n, f (ix3 (0 : Fin 1) a (0 : Fin 1)) := by
  refine (Function.Bijective.sum_comp
    (e := fun a : Fin n => (ix3 (0 : Fin 1) a (0 : Fin 1) : (⟨3, ![1, n, 1]⟩ : Shape).Idx)) ⟨?_, ?_⟩ f).symm
  · intro a a' h; exact congrFun h 1
  · intro j
    have h0 : (j 0).val = 0 := by have : (j 0).val < 1 := (j 0).isLt; omega
    have h2 : (j 2).val = 0 := by have : (j 2).val < 1 := (j 2).isLt; omega
    exact ⟨j 1, funext fun d => match d with
      | ⟨0, _⟩ => Fin.ext h0.symm
      | ⟨1, _⟩ => rfl
      | ⟨2, _⟩ => Fin.ext h2.symm⟩

/-- A sum over the indices of an `n × 1 × 1` array is the sum over the first coordinate. -/
theorem sum_idx3_a11 {M : Type*} [AddCommMonoid M] {n : ℕ} (f : (⟨3, ![n, 1, 1]⟩ : Shape).Idx → M) :
    ∑ i, f i = ∑ a : Fin n, f (ix3 a (0 : Fin 1) (0 : Fin 1)) := by
  refine (Function.Bijective.sum_comp
    (e := fun a : Fin n => (ix3 a (0 : Fin 1) (0 : Fin 1) : (⟨3, ![n, 1, 1]⟩ : Shape).Idx)) ⟨?_, ?_⟩ f).symm
  · intro a a' h; exact congrFun h 0
  · intro j
    have h1 : (j 1).val = 0 := by have : (j 1).val < 1 := (j 1).isLt; omega
    have h2 : (j 2).val = 0 := by have : (j 2).val < 1 := (j 2).isLt; omega
    exact ⟨j 0, funext fun d => match d with
      | ⟨0, _⟩ => rfl
      | ⟨1, _⟩ => Fin.ext h1.symm
      | ⟨2, _⟩ => Fin.ext h2.symm⟩

end Idealize.ShloMosaic.Keepdims
-- ==== Proof.LayerOne.lean ====
/-
  Layer-1 message passing on a vector of node features equals the same message passing on a one-column matrix.

  Each node carries one feature. For node `n` both forms compute

      x n + (0 + Σ over the edges a whose destination index, read as a signed integer, equals n,
                 of max (x (source a) + e a) 0),

  where `source a` is the edge's source index read signed and clamped into the node range. One form keeps `x`, the
  messages and the sum as vectors (`[N]`, `[E]`); the other keeps them as columns (`[N, 1]`, `[E, 1]`). A gather reads
  the same node either way, the second coordinate of a column index being 0; an edge's update lands on node `n` of the
  vector exactly when its pair `(a, 0)` lands on `(n, 0)` of the column; and the pairs `(a, 0)` are in bijection with
  the edges `a`, so the two sums have the same terms.
-/
import proofs.«118365_j37108517438028_2_alg».proof.KernelIdeal
import proofs.«118365_j37108517438028_2_alg».proof.ReferenceIdeal
import proofs.«118365_j37108517438028_2_alg».proof.Proof.Gen.KernelIdeal
import proofs.«118365_j37108517438028_2_alg».proof.Proof.Gen.ReferenceIdeal
import proofs.«118365_j37108517438028_2_alg».proof.Proof.RefTerms
import proofs.«118365_j37108517438028_2_alg».proof.Proof.LibKeepdims
import Idealize.ShloMosaic.Lib.ValueIdx
import Idealize.ShloMosaic.Lib.IdealHost
import Idealize.ShloMosaic.Lib.Pipeline.Value

noncomputable section

open scoped BigOperators

namespace Cert.LayerOne

open Idealize.ShloMosaic Idealize.ShloMosaic.ValueIdx Cert.RefTerms

/-! ## The four dimension records: vector and column gather, vector and column scatter -/

/-- Gather from a vector `[N]` at start indices `[E, 1]`, result `[E]`. -/
abbrev KG := Cert.KernelIdeal.gather_S100000_S1600000x1_S1600000_n_0_n_n_0_1_1
/-- Gather from a column `[N, 1]` at start indices `[E, 1]`, result `[E, 1]`. -/
abbrev RG := Cert.ReferenceIdeal.gather_S100000x1_S1600000x1_S1600000x1_1_0_n_n_0_1_11
/-- Scatter of updates `[E]` into a vector `[N]` at indices `[E, 1]`. -/
abbrev KS := Cert.KernelIdeal.scatter_S100000_S1600000x1_S1600000_n_0_0_1
/-- Scatter of updates `[E, 1]` into a column `[N, 1]` at indices `[E, 1]`. -/
abbrev RS := Cert.ReferenceIdeal.scatter_S100000x1_S1600000x1_S1600000x1_1_0_0_1

/-- The node a start index names: the index read signed, a negative one taken to 0, capped at the last node. -/
abbrev clampNode (w : BitVec 32) : Fin 100000 := ⟨min w.toInt.toNat 99999, by omega⟩

/-! ## The gathers at an index

On the one operand axis the start index names (axis 0, a collapsed axis) the operand coordinate is the clamped start
index of row `j` of the index array; the column's second axis is an offset axis and carries the result's second
coordinate. -/

/-- The vector gather at edge `j`: the operand at the clamped start index of row `j`. -/
theorem gatherFlat_apply {α : Type} (x : (⟨1, ![100000]⟩ : Shape).Idx → α) (idx : IVec ⟨2, ![1600000, 1]⟩ 32) (j : Fin 1600000) :
    Host.gather KG x idx (ix1 j) = x (ix1 (clampNode (idx (ix2 j (0 : Fin 1))))) := by
  unfold Host.gather
  congr 1
  funext a
  obtain rfl : a = 0 := Subsingleton.elim _ _
  refine Fin.ext ?_
  show KG.start (ix1 j) idx 0 + KG.batchCoord (ix1 j) 0 + KG.offCoord (ix1 j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ KG.startIndexMap from List.mem_singleton.mpr rfl)]
  have hsi : KG.siIdx (ix1 j) ⟨List.idxOf (0 : Fin 1) KG.startIndexMap,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]
  rfl

/-- The column gather at `(j, 0)`: the operand at (clamped start index of row `j`, 0). -/
theorem gatherCol_apply {α : Type} (v : (⟨2, ![100000, 1]⟩ : Shape).Idx → α) (idx : IVec ⟨2, ![1600000, 1]⟩ 32) (j : Fin 1600000) :
    Host.gather RG v idx (ix2 j (0 : Fin 1)) = v (ix2 (clampNode (idx (ix2 j (0 : Fin 1)))) (0 : Fin 1)) := by
  unfold Host.gather
  congr 1
  funext a
  refine Fin.ext ?_
  match a with
  | ⟨0, _⟩ =>
    show RG.start (ix2 j (0 : Fin 1)) idx (0 : Fin 2) + RG.batchCoord (ix2 j (0 : Fin 1)) (0 : Fin 2)
      + RG.offCoord (ix2 j (0 : Fin 1)) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ RG.startIndexMap from List.mem_singleton.mpr rfl)]
    have hsi : RG.siIdx (ix2 j (0 : Fin 1)) ⟨List.idxOf (0 : Fin 2) RG.startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl
  | ⟨1, _⟩ =>
    show RG.start (ix2 j (0 : Fin 1)) idx (1 : Fin 2) + RG.batchCoord (ix2 j (0 : Fin 1)) (1 : Fin 2)
      + RG.offCoord (ix2 j (0 : Fin 1)) (1 : Fin 2) = _
    rw [GatherDims.batchCoord_eq_zero _ _ _ List.not_mem_nil]
    have h1 : (1 : Fin 2) ∉ RG.startIndexMap := by decide
    unfold GatherDims.start
    rw [dif_neg h1]
    rfl

/-! ## Where an update lands

The scatter's start on axis 0 is the index of row `j` read signed and NOT clamped; the window coordinate is 0 on the
inserted axis 0 and the update's second coordinate on the column's axis 1. The update lands inside the operand exactly
when the signed index is a node, and then on that node. -/

/-- Edge `j`'s update lands on node `n` of the vector exactly when its index, read signed, is `n`. -/
theorem scatterFlat_iff (idx : IVec ⟨2, ![1600000, 1]⟩ 32) (j : Fin 1600000) (n : Fin 100000) :
    KS.resultIdx? (ix1 j) idx = some (ix1 n) ↔ (idx (ix2 j (0 : Fin 1))).toInt = (n.val : Int) := by
  have hstart : KS.start (ix1 j) idx (0 : Fin 1) = (idx (ix2 j (0 : Fin 1))).toInt := by
    unfold ScatterDims.start
    rw [dif_pos (show (0 : Fin 1) ∈ KS.scatterDimsToOperandDims from List.mem_singleton.mpr rfl)]
    have hsi : KS.siIdx (ix1 j) ⟨List.idxOf (0 : Fin 1) KS.scatterDimsToOperandDims,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi]
  have hwin : KS.window (ix1 j) (0 : Fin 1) = 0 := by
    unfold ScatterDims.window
    rw [dif_neg (by decide)]
  have hsize : Cert.KernelIdeal.S100000.size (0 : Fin 1) = 100000 := rfl
  have hn := n.isLt
  unfold ScatterDims.resultIdx?
  split
  next hc =>
    have h0 := hc (0 : Fin 1)
    rw [hstart, hwin, hsize] at h0
    constructor
    · intro h
      have h1 := congrArg Fin.val (congrFun (Option.some.inj h) (0 : Fin 1))
      change (KS.start (ix1 j) idx (0 : Fin 1) + (KS.window (ix1 j) (0 : Fin 1) : Int)).toNat = n.val at h1
      rw [hstart, hwin] at h1
      omega
    · intro h
      congr 1
      funext a
      obtain rfl : a = 0 := Subsingleton.elim _ _
      refine Fin.ext ?_
      change (KS.start (ix1 j) idx (0 : Fin 1) + (KS.window (ix1 j) (0 : Fin 1) : Int)).toNat = n.val
      rw [hstart, hwin]
      omega
  next hc =>
    constructor
    · intro h; cases h
    · intro h
      exfalso
      apply hc
      intro a
      obtain rfl : a = 0 := Subsingleton.elim _ _
      rw [hstart, hwin, hsize]
      constructor <;> omega

/-- The update at `(j, 0)` lands on `(n, 0)` of the column exactly when row `j`'s index, read signed, is `n`. -/
theorem scatterCol_iff (idx : IVec ⟨2, ![1600000, 1]⟩ 32) (j : Fin 1600000) (n : Fin 100000) :
    RS.resultIdx? (ix2 j (0 : Fin 1)) idx = some (ix2 n (0 : Fin 1)) ↔ (idx (ix2 j (0 : Fin 1))).toInt = (n.val : Int) := by
  have hstart0 : RS.start (ix2 j (0 : Fin 1)) idx (0 : Fin 2) = (idx (ix2 j (0 : Fin 1))).toInt := by
    unfold ScatterDims.start
    rw [dif_pos (show (0 : Fin 2) ∈ RS.scatterDimsToOperandDims from List.mem_singleton.mpr rfl)]
    have hsi : RS.siIdx (ix2 j (0 : Fin 1)) ⟨List.idxOf (0 : Fin 2) RS.scatterDimsToOperandDims,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi]
  have hstart1 : RS.start (ix2 j (0 : Fin 1)) idx (1 : Fin 2) = 0 := by
    unfold ScatterDims.start
    rw [dif_neg (by decide)]
  have hwin0 : RS.window (ix2 j (0 : Fin 1)) (0 : Fin 2) = 0 := by
    unfold ScatterDims.window
    rw [dif_neg (by decide)]
  have hwin1 : RS.window (ix2 j (0 : Fin 1)) (1 : Fin 2) = 0 := by
    unfold ScatterDims.window
    rw [dif_pos (by decide)]
    rfl
  have hsize0 : Cert.ReferenceIdeal.S100000x1.size (0 : Fin 2) = 100000 := rfl
  have hsize1 : Cert.ReferenceIdeal.S100000x1.size (1 : Fin 2) = 1 := rfl
  have hn := n.isLt
  unfold ScatterDims.resultIdx?
  split
  next hc =>
    have h0 := hc (0 : Fin 2)
    rw [hstart0, hwin0, hsize0] at h0
    constructor
    · intro h
      have h1 := congrArg Fin.val (congrFun (Option.some.inj h) (0 : Fin 2))
      change (RS.start (ix2 j (0 : Fin 1)) idx (0 : Fin 2) + (RS.window (ix2 j (0 : Fin 1)) (0 : Fin 2) : Int)).toNat = n.val at h1
      rw [hstart0, hwin0] at h1
      omega
    · intro h
      congr 1
      funext a
      refine Fin.ext ?_
      match a with
      | ⟨0, _⟩ =>
        change (RS.start (ix2 j (0 : Fin 1)) idx (0 : Fin 2) + (RS.window (ix2 j (0 : Fin 1)) (0 : Fin 2) : Int)).toNat = n.val
        rw [hstart0, hwin0]
        omega
      | ⟨1, _⟩ =>
        change (RS.start (ix2 j (0 : Fin 1)) idx (1 : Fin 2) + (RS.window (ix2 j (0 : Fin 1)) (1 : Fin 2) : Int)).toNat = 0
        rw [hstart1, hwin1]
        rfl
  next hc =>
    constructor
    · intro h; cases h
    · intro h
      exfalso
      apply hc
      intro a
      match a with
      | ⟨0, _⟩ =>
        change 0 ≤ RS.start (ix2 j (0 : Fin 1)) idx (0 : Fin 2) + (RS.window (ix2 j (0 : Fin 1)) (0 : Fin 2) : Int) ∧
          RS.start (ix2 j (0 : Fin 1)) idx (0 : Fin 2) + (RS.window (ix2 j (0 : Fin 1)) (0 : Fin 2) : Int)
            < (Cert.ReferenceIdeal.S100000x1.size (0 : Fin 2) : Int)
        rw [hstart0, hwin0, hsize0]
        constructor <;> omega
      | ⟨1, _⟩ =>
        change 0 ≤ RS.start (ix2 j (0 : Fin 1)) idx (1 : Fin 2) + (RS.window (ix2 j (0 : Fin 1)) (1 : Fin 2) : Int) ∧
          RS.start (ix2 j (0 : Fin 1)) idx (1 : Fin 2) + (RS.window (ix2 j (0 : Fin 1)) (1 : Fin 2) : Int)
            < (Cert.ReferenceIdeal.S100000x1.size (1 : Fin 2) : Int)
        rw [hstart1, hwin1, hsize1]
        constructor <;> omega

/-! ## The scatter-adds at an index, as sums over the edges -/

/-- A column recast as a vector: entry `i` of the vector is entry `(i, 0)` of the column. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The vector scatter-add read at node `n`: the operand there plus the updates of the edges whose destination,
    read signed, is `n`. -/
theorem scatterFlat_apply (z : (⟨1, ![100000]⟩ : Shape).Idx → EReal) (idx : IVec ⟨2, ![1600000, 1]⟩ 32)
    (upd : (⟨1, ![1600000]⟩ : Shape).Idx → EReal) (n : Fin 100000) :
    Ideal.hostScatterAdd KS z idx upd (ix1 n)
      = z (ix1 n) + ∑ a : Fin 1600000, if (idx (ix2 a (0 : Fin 1))).toInt = (n.val : Int) then upd (ix1 a) else 0 := by
  unfold Ideal.hostScatterAdd
  rw [Finset.sum_filter, Keepdims.sum_idx1]
  refine congrArg (fun t => z (ix1 n) + t) ?_
  refine Finset.sum_congr rfl fun a _ => ?_
  exact if_congr (scatterFlat_iff idx a n) rfl rfl

/-- The column scatter-add read at `(n, 0)`: the same sum, the update array's index pairs `(a, 0)` in bijection with
    the edges `a`. -/
theorem scatterCol_apply (z : (⟨2, ![100000, 1]⟩ : Shape).Idx → EReal) (idx : IVec ⟨2, ![1600000, 1]⟩ 32)
    (upd : (⟨2, ![1600000, 1]⟩ : Shape).Idx → EReal) (n : Fin 100000) :
    Ideal.hostScatterAdd RS z idx upd (ix2 n (0 : Fin 1))
      = z (ix2 n (0 : Fin 1))
        + ∑ a : Fin 1600000, if (idx (ix2 a (0 : Fin 1))).toInt = (n.val : Int) then upd (ix2 a (0 : Fin 1)) else 0 := by
  unfold Ideal.hostScatterAdd
  rw [Finset.sum_filter, sum_idx2]
  refine congrArg (fun t => z (ix2 n (0 : Fin 1)) + t) ?_
  refine Finset.sum_congr rfl fun a _ => ?_
  rw [Fin.sum_univ_one]
  exact if_congr (scatterCol_iff idx a n) rfl rfl

/-! ## The two forms agree -/

/-- One edge's message, on both sides: `max (x[clamped source] + e) 0`. The vector side reads the flat gather and the
    flattened edge encoding at `a`; the column side reads them at the pair `(a, 0)`. -/
theorem message_eq (x : A Cert.KernelIdeal.S100000) (sidx : I Cert.KernelIdeal.S1600000x1) (e : A Cert.KernelIdeal.S1600000x1)
    (a : Fin 1600000) :
    maximumf (addf (Host.gather KG x sidx) (shapeCast Cert.KernelIdeal.S1600000 e Cert.KernelIdeal.Facts₀.shapeCasts_S1600000x1_S1600000))
        (broadcastInDim Cert.KernelIdeal.S1600000 ![] Cert.KernelIdeal.Facts₀.bcast_S_S1600000 c0) (ix1 a)
      = reluE1 (addf (Host.gather RG (col x) sidx) e) (ix2 a (0 : Fin 1)) := by
  unfold reluE1 col
  rw [maximumf_apply, maximumf_apply, addf_apply, addf_apply, gatherFlat_apply, gatherCol_apply,
    shapeCast_a1_a_apply, Keepdims.shapeCast_a_a1_apply, broadcastInDim_scalar_apply, broadcastInDim_scalar_apply]

/-- The vector scatter-add as the program spells it, read at node `n`. -/
theorem hostScatterFlat_apply (z : A Cert.KernelIdeal.S100000) (idx : I Cert.KernelIdeal.S1600000x1)
    (upd : A Cert.KernelIdeal.S1600000) (n : Fin 100000) :
    Host.scatterAdd KS z idx upd (ix1 n)
      = z (ix1 n) + ∑ a : Fin 1600000, if (idx (ix2 a (0 : Fin 1))).toInt = (n.val : Int) then upd (ix1 a) else 0 := by
  unfold Host.scatterAdd
  rw [Ideal.hostScatterAdd_def]
  exact scatterFlat_apply z idx upd n

/-- The column scatter-add as the program spells it, read at `(n, 0)`. -/
theorem hostScatterCol_apply (z : A Cert.KernelIdeal.S100000x1) (idx : I Cert.KernelIdeal.S1600000x1)
    (upd : A Cert.KernelIdeal.S1600000x1) (n : Fin 100000) :
    Host.scatterAdd RS z idx upd (ix2 n (0 : Fin 1))
      = z (ix2 n (0 : Fin 1))
        + ∑ a : Fin 1600000, if (idx (ix2 a (0 : Fin 1))).toInt = (n.val : Int) then upd (ix2 a (0 : Fin 1)) else 0 := by
  unfold Host.scatterAdd
  rw [Ideal.hostScatterAdd_def]
  exact scatterCol_apply z idx upd n

/-- LAYER 1 BEFORE ITS PERCEPTRON, vector form recast as a column = column form. At `(n, 0)` both sides are
    `x n + (0 + Σ_a [destination a = n] · max (x (source a) + e a) 0)`, term by term. -/
theorem preA_eq (x : A Cert.KernelIdeal.S100000) (ei : I Cert.KernelIdeal.S2x1600000) (ea : A Cert.KernelIdeal.S1600000x7)
    (W : A Cert.KernelIdeal.S7x1) (b : A Cert.KernelIdeal.S1) :
    shapeCast Cert.KernelIdeal.S100000x1
      (addf x (Host.scatterAdd Cert.KernelIdeal.scatter_S100000_S1600000x1_S1600000_n_0_0_1
          (broadcastInDim Cert.KernelIdeal.S100000 ![] Cert.KernelIdeal.Facts₀.bcast_S_S100000 c0) (dstIdx ei)
          (maximumf (addf (Host.gather Cert.KernelIdeal.gather_S100000_S1600000x1_S1600000_n_0_n_n_0_1_1 x (srcIdx ei))
                          (shapeCast Cert.KernelIdeal.S1600000 (encA ea W b) Cert.KernelIdeal.Facts₀.shapeCasts_S1600000x1_S1600000))
                    (broadcastInDim Cert.KernelIdeal.S1600000 ![] Cert.KernelIdeal.Facts₀.bcast_S_S1600000 c0))))
      Cert.KernelIdeal.Facts₀.shapeCasts_S100000_S100000x1
    = Cert.RefTerms.preA x ei ea W b := by
  funext i
  obtain ⟨n, rfl⟩ : ∃ n : Fin 100000, i = ix2 n (0 : Fin 1) := ⟨i 0, by
    funext c
    match c with
    | ⟨0, _⟩ => rfl
    | ⟨1, _⟩ => exact Fin.ext (by have := idx2_lt1 (n0 := 100000) (n1 := 1) i; show (i 1).val = 0; omega)⟩
  rw [Keepdims.shapeCast_a_a1_apply, addf_apply, hostScatterFlat_apply, broadcastInDim_scalar_apply]
  unfold preA
  rw [addf_apply, hostScatterCol_apply, broadcastInDim_scalar_apply]
  unfold col
  rw [Keepdims.shapeCast_a_a1_apply]
  refine congrArg (fun t => x (ix1 n) + (c0 ix0 + t)) ?_
  refine Finset.sum_congr rfl fun a _ => ?_
  rw [message_eq]
  rfl

end Cert.LayerOne

end
-- ==== Proof.KGlue.lean ====
/-
  Two equations between the kernel's host-side message passing and the reference's, as whole arrays at the ideal
  instance.  Layer 1: the kernel works on flat vectors and recasts the result as a column, the reference works on
  columns throughout; the sums over the edges into a node are the same sums.  Layer 2: the kernel reads the node
  features and the edge encoding in the short float format and widens them, which is the identity here; the
  gather, the rectifier and the scatter-add are the reference's own.
-/
import proofs.«118365_j37108517438028_2_alg».proof.Proof.KHost
import proofs.«118365_j37108517438028_2_alg».proof.Proof.LayerOne
import Idealize.ShloMosaic.Lib.ValueIdx

noncomputable section

namespace Cert.KernelIdeal.KGlue

open Idealize.ShloMosaic
open Cert.KernelIdeal Cert.KernelIdeal.KHost
open Cert.RefTerms (A I srcRow dstRow srcIdx dstIdx encA preA aggB)

/-- Layer 1 before its perceptron: the flat form, recast as a column, is the column form. -/
theorem preK_eq (x : A S100000) (ei : I S2x1600000) (ea : A S1600000x7) (W : A S7x1) (b : A S1) :
    preK x (srcRow ei) (dstRow ei) (shapeCast S1600000 (encA ea W b) Facts₀.shapeCasts_S1600000x1_S1600000)
      = preA x ei ea W b := by
  unfold preK colK scatK scatInto msgK colOf idxOf
  exact Cert.LayerOne.preA_eq x ei ea W b

/-- Widening from the short float format is the identity on extended reals. -/
theorem widen {s : Shape} (v : FVec Ideal s .bf16) (h : FTy.bf16.bits < FTy.f32.bits) : (extf .f32 v h : FVec Ideal s .f32) = v := rfl

/-- The kernel's and the reference's dimension numbers for the 64-feature gather and scatter are the same records. -/
theorem gather64_eq : gather_S100000x64_S1600000x1_S1600000x64_1_0_n_n_0_1_164
    = Cert.ReferenceIdeal.gather_S100000x64_S1600000x1_S1600000x64_1_0_n_n_0_1_164 := rfl
theorem scatter64_eq : scatter_S100000x64_S1600000x1_S1600000x64_1_0_0_1
    = Cert.ReferenceIdeal.scatter_S100000x64_S1600000x1_S1600000x64_1_0_0_1 := rfl

/-- Layer-2 aggregation: the kernel's host code computes the reference's aggregation of the same arrays. -/
theorem aggK_eq (h : A S100000x64) (ei : I S2x1600000) (e : A S1600000x64) :
    aggK h (srcRow ei) (dstRow ei) e = aggB h ei e := by
  unfold aggK aggB Cert.RefTerms.reluE colOf idxOf
  rw [widen, widen, gather64_eq, scatter64_eq]
  rfl

end Cert.KernelIdeal.KGlue

end
-- ==== Proof.RowGlue.lean ====
/-
  A vector laid as one row, two ways.

  A bias vector of d entries becomes a 1 × d row either by a change of shape (the entries keep their row-major
  order) or by laying the vector along the second axis of a 1 × d array.  Both read, at (0, q), the vector's entry q,
  so they are the same row.
-/
import proofs.«118365_j37108517438028_2_alg».proof.KernelIdeal
import proofs.«118365_j37108517438028_2_alg».proof.Proof.Gen.KernelIdeal
import proofs.«118365_j37108517438028_2_alg».proof.Proof.RefTerms
import Idealize.ShloMosaic.Lib.Pipeline.Value
import Idealize.ShloMosaic.Lib.ValueIdx
import Idealize.ShloMosaic.Lib.ValueLayout

noncomputable section

namespace Cert.RowGlue

open Idealize.ShloMosaic Idealize.ShloMosaic.ValueIdx

/-- A vector of d entries cast to a 1 × d array is the vector laid along the second axis of a 1 × d array:
    at (u, q) both are the vector's entry q (the row coordinate u can only be 0). -/
theorem row_eq {α : Type} (d : Nat) (b : (⟨1, ![d]⟩ : Shape).Idx → α)
    (h1 : (⟨1, ![d]⟩ : Shape).ShapeCasts ⟨2, ![1, d]⟩)
    (dims : Fin (⟨1, ![d]⟩ : Shape).rank → Fin (⟨2, ![1, d]⟩ : Shape).rank) (hdims : (dims 0).val = 1)
    (h2 : (⟨1, ![d]⟩ : Shape).BroadcastsInDim ⟨2, ![1, d]⟩ dims) :
    shapeCast ⟨2, ![1, d]⟩ b h1 = broadcastInDim ⟨2, ![1, d]⟩ dims h2 b := by
  funext j
  obtain ⟨u, q, rfl⟩ : ∃ (u : Fin 1) (q : Fin d), j = ix2 u q := ⟨j 0, j 1, eq_ix2 j⟩
  refine (shapeCast_a_1a_apply b h1 u q).trans (Eq.symm ?_)
  refine broadcastInDim_apply dims h2 b (ix2 u q) (ix1 q) fun a => ?_
  match a with
  | ⟨0, _⟩ =>
    have e : dims 0 = (1 : Fin 2) := Fin.ext hdims
    show q.val = if d = 1 then 0 else ((ix2 u q : (⟨2, ![1, d]⟩ : Shape).Idx) (dims 0)).val
    rw [e]
    show q.val = if d = 1 then 0 else q.val
    split
    · have := q.isLt; omega
    · rfl

/-- The 64-entry bias vectors: the tiled program's row (a change of shape) is the reference's row. -/
theorem row64_eq (b : Cert.RefTerms.A Cert.KernelIdeal.S64) :
    shapeCast Cert.KernelIdeal.S1x64 b Cert.KernelIdeal.Facts₀.shapeCasts_S64_S1x64 = Cert.RefTerms.row64 b :=
  row_eq 64 b _ ![1] rfl _

/-- The 32-entry bias vectors likewise. -/
theorem row32_eq (b : Cert.RefTerms.A Cert.KernelIdeal.S32) :
    shapeCast Cert.KernelIdeal.S1x32 b Cert.KernelIdeal.Facts₀.shapeCasts_S32_S1x32 = Cert.RefTerms.row32 b :=
  row_eq 32 b _ ![1] rfl _

/-- The 6-entry bias vector likewise. -/
theorem row6_eq (b : Cert.RefTerms.A Cert.KernelIdeal.S6) :
    shapeCast Cert.KernelIdeal.S1x6 b Cert.KernelIdeal.Facts₀.shapeCasts_S6_S1x6 = Cert.RefTerms.row6 b :=
  row_eq 6 b _ ![1] rfl _

end Cert.RowGlue

end
-- ==== Proof.LibArrays.lean ====
/-
  Small general facts about arrays of literal shapes, used by the decoder's proof and tied to no program.

  * a product of a block of rows with a whole right operand, accumulated from zero, plus a bias vector added to every
    row, read at an entry;
  * a slot of a stack of matrices, loaded as a one-slot stack and cast to a matrix, read at an entry.
-/
import Idealize.ShloMosaic.Lib.Pipeline.Value
import Idealize.ShloMosaic.Lib.ValueIdx
import Idealize.ShloMosaic.Lib.ValueLayout
import Idealize.ShloMosaic.Lib.ValueIdxRank6
import Idealize.ShloMosaic.PureOps.Ideal.Laws

noncomputable section

namespace Cert.Decoder.Lib

open Idealize.ShloMosaic Idealize.ShloMosaic.ValueIdx

/-- Rows times a whole right operand, accumulated from the zero array: entry (p, q) is the sum over the shared axis. -/
theorem matmul_rows_apply {φ₁ φ₂ : FTy} (M K N : Nat) (x : FVec Ideal ⟨2, ![M, K]⟩ φ₁) (w : FVec Ideal ⟨2, ![K, N]⟩ φ₂)
    (p : Fin M) (q : Fin N) :
    (matmul (DotDims.plain M K N) none x w (constant ⟨2, ![M, N]⟩ .f32 0x00000000#32) : FVec Ideal ⟨2, ![M, N]⟩ .f32) (ix2 p q)
      = ∑ k : Fin K, x (ix2 p k) * w (ix2 k q) := by
  show FloatOps.matmul (DotDims.plain M K N) none x w (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A bias vector, cast to one row and broadcast down M rows, reads at (p, q) its entry q. -/
theorem bias_rows_apply {α : Type} (M N : Nat) (b : (⟨1, ![N]⟩ : Shape).Idx → α)
    (h1 : (⟨1, ![N]⟩ : Shape).ShapeCasts ⟨2, ![1, N]⟩) (h2 : (⟨2, ![1, N]⟩ : Shape).Broadcasts ⟨2, ![M, N]⟩) (p : Fin M) (q : Fin N) :
    broadcastTo ⟨2, ![M, N]⟩ (shapeCast ⟨2, ![1, N]⟩ b h1) h2 (ix2 p q) = b (ix1 q) :=
  (broadcastTo_1b_ab_apply _ h2 p q).trans (shapeCast_a_1a_apply b h1 0 q)

/-- Slot 0 of a one-slot stack of matrices, cast to a matrix, reads at (k, f) the stack at (0, k, f). -/
theorem slot_apply {α : Type} (K N : Nat) (v : (⟨3, ![1, K, N]⟩ : Shape).Idx → α)
    (h : (⟨3, ![1, K, N]⟩ : Shape).ShapeCasts ⟨2, ![K, N]⟩) (k : Fin K) (f : Fin N) :
    shapeCast ⟨2, ![K, N]⟩ v h (ix2 k f) = v (ix3 (0 : Fin 1) k f) :=
  shapeCast_apply v h _ _ (by
    rw [Shape.rowMajor_val_three, Shape.rowMajor_val_two]
    show (0 * K + k.val) * N + f.val = k.val * N + f.val
    rw [Nat.zero_mul, Nat.zero_add])

end Cert.Decoder.Lib

end
-- ==== Proof.LibLinearAt.lean ====
/-
  Affine maps between rows, read at one entry.

  A matrix product of an M × K array with a K × N array, plus a bias given as ONE ROW (1 × N) repeated down the
  M rows, has at entry (p, q) the value  (∑ k, x (p, k) * w (k, q)) + b (0, q).  The two ways the programs spell it —
  a product accumulated from the zero array with the row cast and repeated, and a contraction with the row laid along
  both axes — are read here at an entry, each as that same expression, for every M, K, N.  A change of number format
  is the identity on the extended reals, so the lemmas apply as they stand to operands that were converted first.
-/
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws
import proofs.«118365_j37108517438028_2_alg».proof.Proof.LibArrays

noncomputable section

namespace Cert.LinearAt

open Idealize.ShloMosaic Idealize.ShloMosaic.ValueIdx

/-- A product of an M × K array with a K × N array, accumulated from the zero array: entry (p, q) is the sum over the
    shared axis.  The contraction record is any one that is the plain rows-by-columns contraction. -/
theorem matmul_apply {φ₁ φ₂ : FTy} (M K N : Nat) (d : DotDims ⟨2, ![M, K]⟩ ⟨2, ![K, N]⟩ ⟨2, ![M, N]⟩)
    (hd : d = DotDims.plain M K N) (x : FVec Ideal ⟨2, ![M, K]⟩ φ₁) (w : FVec Ideal ⟨2, ![K, N]⟩ φ₂) (p : Fin M) (q : Fin N) :
    (matmul d none x w (constant ⟨2, ![M, N]⟩ .f32 0x00000000#32) : FVec Ideal ⟨2, ![M, N]⟩ .f32) (ix2 p q)
      = ∑ k : Fin K, x (ix2 p k) * w (ix2 k q) := by
  subst hd
  exact Cert.Decoder.Lib.matmul_rows_apply M K N x w p q

/-- The same product written as a contraction with no accumulator: entry (p, q) is the same sum. -/
theorem dot_apply {φ₁ φ₂ : FTy} (M K N : Nat) (d : DotDims ⟨2, ![M, K]⟩ ⟨2, ![K, N]⟩ ⟨2, ![M, N]⟩)
    (hd : d = DotDims.plain M K N) (x : FVec Ideal ⟨2, ![M, K]⟩ φ₁) (w : FVec Ideal ⟨2, ![K, N]⟩ φ₂) (p : Fin M) (q : Fin N) :
    (Host.dotGeneral d none x w : FVec Ideal ⟨2, ![M, N]⟩ .f32) (ix2 p q) = ∑ k : Fin K, x (ix2 p k) * w (ix2 k q) := by
  subst hd
  exact StackMember.dotGeneral_plain_apply none x w p q

/-- One row, cast to its own shape and repeated down M rows, reads at (p, q) the row's entry q. -/
theorem row_repeat_apply {α : Type} (M N : Nat) (b : (⟨2, ![1, N]⟩ : Shape).Idx → α)
    (h1 : (⟨2, ![1, N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix2 (0 : Fin 1) q) := by
  rw [shapeCast_self]
  exact broadcastTo_1b_ab_apply b h2 p q

/-- One row laid along both axes of an M × N array (its row axis of extent one stretched) reads at (p, q) the row's
    entry q. -/
theorem row_stretch_apply {α : Type} (M N : Nat) (b : (⟨2, ![1, N]⟩ : Shape).Idx → α)
    (dims : Fin (⟨2, ![1, N]⟩ : Shape).rank → Fin (⟨2, ![M, N]⟩ : Shape).rank) (hdims : (dims 1).val = 1)
    (h : (⟨2, ![1, N]⟩ : Shape).BroadcastsInDim ⟨2, ![M, N]⟩ dims) (p : Fin M) (q : Fin N) :
    broadcastInDim ⟨2, ![M, N]⟩ dims h b (ix2 p q) = b (ix2 (0 : Fin 1) q) := by
  refine broadcastInDim_apply dims h b (ix2 p q) (ix2 (0 : Fin 1) q) fun a => ?_
  match a with
  | ⟨0, _⟩ => rfl
  | ⟨1, _⟩ =>
    have e : dims 1 = (1 : Fin 2) := Fin.ext hdims
    show q.val = if N = 1 then 0 else ((ix2 p q : (⟨2, ![M, N]⟩ : Shape).Idx) (dims 1)).val
    rw [e]
    show q.val = if N = 1 then 0 else q.val
    split
    · have := q.isLt; omega
    · rfl

/-- Product accumulated from zero plus the repeated row, at entry (p, q). -/
theorem matmul_bias_apply {φ₁ φ₂ : FTy} (M K N : Nat) (d : DotDims ⟨2, ![M, K]⟩ ⟨2, ![K, N]⟩ ⟨2, ![M, N]⟩)
    (hd : d = DotDims.plain M K N) (x : FVec Ideal ⟨2, ![M, K]⟩ φ₁) (w : FVec Ideal ⟨2, ![K, N]⟩ φ₂)
    (b : FVec Ideal ⟨2, ![1, N]⟩ .f32)
    (h1 : (⟨2, ![1, N]⟩ : Shape).ShapeCasts ⟨2, ![1, N]⟩) (h2 : (⟨2, ![1, N]⟩ : Shape).Broadcasts ⟨2, ![M, N]⟩)
    (p : Fin M) (q : Fin N) :
    (addf (matmul d none x w (constant ⟨2, ![M, N]⟩ .f32 0x00000000#32))
        (broadcastTo ⟨2, ![M, N]⟩ (shapeCast ⟨2, ![1, N]⟩ b h1) h2) : FVec Ideal ⟨2, ![M, N]⟩ .f32) (ix2 p q)
      = (∑ k : Fin K, x (ix2 p k) * w (ix2 k q)) + b (ix2 (0 : Fin 1) q) := by
  rw [addf_apply, matmul_apply M K N d hd x w p q, row_repeat_apply M N b h1 h2 p q]

/-- Contraction plus the stretched row, at entry (p, q). -/
theorem dot_bias_apply {φ₁ φ₂ : FTy} (M K N : Nat) (d : DotDims ⟨2, ![M, K]⟩ ⟨2, ![K, N]⟩ ⟨2, ![M, N]⟩)
    (hd : d = DotDims.plain M K N) (x : FVec Ideal ⟨2, ![M, K]⟩ φ₁) (w : FVec Ideal ⟨2, ![K, N]⟩ φ₂)
    (b : FVec Ideal ⟨2, ![1, N]⟩ .f32)
    (dims : Fin (⟨2, ![1, N]⟩ : Shape).rank → Fin (⟨2, ![M, N]⟩ : Shape).rank) (hdims : (dims 1).val = 1)
    (h : (⟨2, ![1, N]⟩ : Shape).BroadcastsInDim ⟨2, ![M, N]⟩ dims) (p : Fin M) (q : Fin N) :
    (addf (Host.dotGeneral d none x w) (broadcastInDim ⟨2, ![M, N]⟩ dims h b) : FVec Ideal ⟨2, ![M, N]⟩ .f32) (ix2 p q)
      = (∑ k : Fin K, x (ix2 p k) * w (ix2 k q)) + b (ix2 (0 : Fin 1) q) := by
  rw [addf_apply, dot_apply M K N d hd x w p q, row_stretch_apply M N b dims hdims h p q]

end Cert.LinearAt

end
-- ==== Proof.RegionLinearEnc.lean ====
/-
  The edge-encoder stage of the tiled program, as a whole-array statement.

  The stage multiplies the edge attributes (1600000 × 7) by the layer's edge weights (7 × 64) and adds the bias, given
  as one row (1 × 64), to every row.  It works on 8000 rows at a time: grid point t reads rows 8000 t … 8000 t + 7999
  of the edge attributes, the whole weights and the whole bias row, and writes the same rows of the result.  The map
  is row-wise — row r of the result depends on row r of the edge attributes only — so each block written is the
  restriction of ONE whole-array function, the reference's edge encoding: both sides at (r, q) are
  (∑ k, ea (r, k) * W (k, q)) + b (0, q).  The 200 blocks tile the rows (row r lies in block r / 8000), hence the
  array after the stage is that function.
-/
import proofs.«118365_j37108517438028_2_alg».proof.Proof.Gen.KernelIdeal.Frame
import proofs.«118365_j37108517438028_2_alg».proof.Proof.RefTerms
import proofs.«118365_j37108517438028_2_alg».proof.Proof.LibArrays
import proofs.«118365_j37108517438028_2_alg».proof.Proof.LibKeepdims
import proofs.«118365_j37108517438028_2_alg».proof.Proof.LibLinearAt
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionLinear

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, however they are spelt. -/
theorem zeros_enc : (![0, 0] : Fin 2 → Nat) = fun _ => 0 := funext fun a => by fin_cases a <;> rfl

/-! ## The edge encoder: a 1600000 × 7 array times a 7 × 64 array plus a row of 64, 8000 rows at a time -/

/-- What the encoder's body computes from a block of 8000 rows, the weights and the bias row, at entry (p, q). -/
theorem encoder_body_apply (x0 : Vec Ideal S8000x7 .f32) (x1 : Vec Ideal S7x64 .f32) (x2 : Vec Ideal S1x64 .f32)
    (p : Fin 8000) (q : Fin 64) :
    k0_pay1 x0 x1 x2 (ix2 p q) = (∑ k : Fin 7, x0 (ix2 p k) * x1 (ix2 k q)) + x2 (ix2 (0 : Fin 1) q) := by
  unfold k0_pay1
  refine (Cert.LinearAt.matmul_bias_apply 8000 7 64 dot_S8000x7_S7x64_S8000x64_1_0_0_1_n_n rfl _ _ x2 _ _ p q).trans ?_
  rfl

/-- The reference's edge encoding at entry (p, q): the same expression over the whole edge table. -/
theorem encE_apply (ea : Cert.RefTerms.A S1600000x7) (W : Cert.RefTerms.A S7x64) (b : Cert.RefTerms.A S1x64)
    (p : Fin 1600000) (q : Fin 64) :
    Cert.RefTerms.encE ea W b (ix2 p q) = (∑ k : Fin 7, ea (ix2 p k) * W (ix2 k q)) + b (ix2 (0 : Fin 1) q) := by
  unfold Cert.RefTerms.encE
  exact Cert.LinearAt.dot_bias_apply 1600000 7 64 Cert.ReferenceIdeal.dot_S1600000x7_S7x64_S1600000x64_1_0_0_1_n_n rfl ea W b ![0, 1] rfl _ p q

/-- The map is row-wise: the body on a block whose row `j 0` is row `i 0` of the edge table, with the same weights
    and bias row, gives at `j` the reference's encoding at `i` whenever the two indices name the same column. -/
theorem encoder_body_row (x0 : Vec Ideal S8000x7 .f32) (x1 : Vec Ideal S7x64 .f32) (x2 : Vec Ideal S1x64 .f32)
    (ea : Cert.RefTerms.A S1600000x7) (W : Cert.RefTerms.A S7x64) (b : Cert.RefTerms.A S1x64)
    (j : S8000x64.Idx) (i : S1600000x64.Idx)
    (h0 : ∀ k : Fin 7, x0 (ix2 (j 0) k) = ea (ix2 (i 0) k)) (h1 : x1 = W) (h2 : x2 = b)
    (hq : (j 1).val = (i 1).val) :
    k0_pay1 x0 x1 x2 j = Cert.RefTerms.encE ea W b i := by
  obtain ⟨p, q, rfl⟩ : ∃ (p : Fin 8000) (q : Fin 64), j = ix2 p q := ⟨j 0, j 1, eq_ix2 j⟩
  obtain ⟨p', q', rfl⟩ : ∃ (p' : Fin 1600000) (q' : Fin 64), i = ix2 p' q' := ⟨i 0, i 1, eq_ix2 i⟩
  obtain rfl : q = q' := Fin.ext hq
  subst h1 h2
  rw [encoder_body_apply, encE_apply]
  exact congrArg (· + _) (Finset.sum_congr rfl fun k _ => congrArg (· * _) (h0 k))

/-- The printed index maps over the 200 points: the edge rows and the result move with the point, block (t, 0);
    the weights and the bias row stay at block (0, 0). -/
theorem encoder_blocks : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` (rows 8000 t … 8000 t + 7999) of the reference's edge encoding of the
    three arrays as the stage finds them. -/
theorem encoder_written (c : Dev nD) (t : Fin cfg0.N) :
    (dat0 V c).flushed 3 t = ((cfg0.win 3).blk t).view.read (Elt Ideal)
      (Cert.RefTerms.encE (V c main_arg2) (V c main_arg11) (V c main_call0_v9)) := by
  show (cfg0.win 3).cut (grid0.coords t) ((dat0 V c).after 3 t) = _
  rw [after0_3]
  unfold out0_3
  rw [View.canon_unit_zero zeros_enc]
  simp only [View.ld_unit_zero (S := S8000x7) zeros_enc, View.ld_unit_zero (S := S7x64) zeros_enc, View.ld_unit_zero (S := S1x64) zeros_enc]
  obtain ⟨a0, a1, b0, b1, c0, c1, d0, d1⟩ := encoder_blocks t
  funext j
  show k0_pay1 (iblk0 V c 0 t) (iblk0 V c 1 t) (iblk0 V c 2 t) j
      = Cert.RefTerms.encE (V c main_arg2) (V c main_arg11) (V c main_call0_v9) (((cfg0.win 3).blk t).view.emb j)
  refine encoder_body_row _ _ _ _ _ _ j _ (fun k => ?_) (funext fun y => ?_) (funext fun y => ?_) ?_
  · show V c main_arg2 (((cfg0.win 0).blk t).view.emb (ix2 (j 0) k)) = V c main_arg2 (ix2 ((((cfg0.win 3).blk t).view.emb j) 0) k)
    refine congrArg _ (funext fun a => Fin.ext ?_)
    match a with
    | ⟨0, _⟩ => show win0_0.index t (0 : Fin 2) * 8000 + 1 * (j 0).val = win0_3.index t (0 : Fin 2) * 8000 + 1 * (j 0).val; omega
    | ⟨1, _⟩ => show win0_0.index t (1 : Fin 2) * 7 + 1 * k.val = k.val; omega
  · show V c main_arg11 (((cfg0.win 1).blk t).view.emb y) = V c main_arg11 y
    refine congrArg _ (funext fun a => Fin.ext ?_)
    match a with
    | ⟨0, _⟩ => show win0_1.index t (0 : Fin 2) * 7 + 1 * (y 0).val = (y 0).val; omega
    | ⟨1, _⟩ => show win0_1.index t (1 : Fin 2) * 64 + 1 * (y 1).val = (y 1).val; omega
  · show V c main_call0_v9 (((cfg0.win 2).blk t).view.emb y) = V c main_call0_v9 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 64 + 1 * (y 1).val = (y 1).val; omega
  · show (j 1).val = win0_3.index t (1 : Fin 2) * 64 + 1 * (j 1).val
    omega

/-- An index of the encoding is in point `t`'s block iff each coordinate is in the block's range on its axis. -/
theorem encoder_mem_block (t : Fin cfg0.N) (i : S1600000x64.Idx) :
    i ∈ ((cfg0.win 3).blk t).view.set ↔ ∀ a : Fin 2, win0_3.index t a * S8000x64.size a ≤ (i a).val ∧ (i a).val < win0_3.index t a * S8000x64.size a + S8000x64.size a := by
  show i ∈ ((View.whole main_call0_v10).slice (win0_3.rect t)).set ↔ _
  rw [View.set_slice_whole, Rect.mem_set_unit]
  exact Iff.rfl

/-- The 200 blocks of 8000 rows tile the 1600000 rows (row r lies in block r / 8000), so after the stage the array is
    the reference's edge encoding of the edge attributes, the weights and the bias row as the stage finds them. -/
theorem final0_3 (c : Dev nD) :
    (dat0 V c).arrAt 3 cfg0.N = Cert.RefTerms.encE (V c main_arg2) (V c main_arg11) (V c main_call0_v9) :=
  (dat0 V c).arrAt_eq_of_cover 3 (Cert.RefTerms.encE (V c main_arg2) (V c main_arg11) (V c main_call0_v9))
    (fun t _ => encoder_written V c t) fun i => by
      have h0 : (i 0).val < 1600000 := (i 0).isLt
      have h1 : (i 1).val < 64 := (i 1).isLt
      have ht : (i 0).val / 8000 < grid0.N := by rw [N_0]; omega
      refine ⟨⟨(i 0).val / 8000, ht⟩, flush0_3 _, ?_⟩
      rw [encoder_mem_block]
      obtain ⟨a0, a1, b0, b1, c0, c1, d0, d1⟩ := encoder_blocks ⟨(i 0).val / 8000, ht⟩
      have d0' : win0_3.index ⟨(i 0).val / 8000, ht⟩ (0 : Fin 2) = (i 0).val / 8000 := d0
      intro a
      match a with
      | ⟨0, _⟩ => show win0_3.index ⟨(i 0).val / 8000, ht⟩ (0 : Fin 2) * 8000 ≤ (i 0).val ∧ (i 0).val < win0_3.index ⟨(i 0).val / 8000, ht⟩ (0 : Fin 2) * 8000 + 8000; omega
      | ⟨1, _⟩ => show win0_3.index ⟨(i 0).val / 8000, ht⟩ (1 : Fin 2) * 64 ≤ (i 1).val ∧ (i 1).val < win0_3.index ⟨(i 0).val / 8000, ht⟩ (1 : Fin 2) * 64 + 64; omega

end Cert.KernelIdeal.RegionLinear

end
-- ==== Proof.RegionLinearCls.lean ====
/-
  The classifier stage of the tiled program, as a whole-array statement.

  The stage multiplies the pooled features (512 × 32) by the classifier's weights (32 × 6) and adds the bias, given as
  one row (1 × 6), to every row.  Its grid has a single point whose blocks are the whole arrays, so the result array
  is that affine map of the three arrays as the stage finds them — which is the reference's classifier, entry by
  entry: both sides are  (∑ k, g (p, k) * W (k, q)) + b (0, q).
-/
import proofs.«118365_j37108517438028_2_alg».proof.Proof.Gen.KernelIdeal.Frame
import proofs.«118365_j37108517438028_2_alg».proof.Proof.RefTerms
import proofs.«118365_j37108517438028_2_alg».proof.Proof.LibArrays
import proofs.«118365_j37108517438028_2_alg».proof.Proof.LibKeepdims
import proofs.«118365_j37108517438028_2_alg».proof.Proof.LibLinearAt
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionLinear

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, however they are spelt. -/
theorem zeros_cls : (![0, 0] : Fin 2 → Nat) = fun _ => 0 := funext fun a => by fin_cases a <;> rfl

/-! ## The classifier: a 512 × 32 array times a 32 × 6 array plus a row of 6 -/

/-- What the classifier's body computes from its three blocks, at entry (p, q). -/
theorem classifier_body_apply (x0 : Vec Ideal S512x32 .f32) (x1 : Vec Ideal S32x6 .f32) (x2 : Vec Ideal S1x6 .f32)
    (p : Fin 512) (q : Fin 6) :
    k3_pay1 x0 x1 x2 (ix2 p q) = (∑ k : Fin 32, x0 (ix2 p k) * x1 (ix2 k q)) + x2 (ix2 (0 : Fin 1) q) := by
  unfold k3_pay1
  refine (Cert.LinearAt.matmul_bias_apply 512 32 6 dot_S512x32_S32x6_S512x6_1_0_0_1_n_n rfl _ _ x2 _ _ p q).trans ?_
  rw [shapeCast_self]
  rfl

/-- The reference's classifier at entry (p, q): the same expression. -/
theorem classify_apply (g : Cert.RefTerms.A S512x32) (W : Cert.RefTerms.A S32x6) (b : Cert.RefTerms.A S1x6)
    (p : Fin 512) (q : Fin 6) :
    Cert.RefTerms.classify g W b (ix2 p q) = (∑ k : Fin 32, g (ix2 p k) * W (ix2 k q)) + b (ix2 (0 : Fin 1) q) := by
  unfold Cert.RefTerms.classify
  exact Cert.LinearAt.dot_bias_apply 512 32 6 Cert.ReferenceIdeal.dot_S512x32_S32x6_S512x6_1_0_0_1_n_n rfl g W b ![0, 1] rfl _ p q

/-- So the body's result on whole arrays IS the reference's classifier of them. -/
theorem classifier_body_eq (x0 : Vec Ideal S512x32 .f32) (x1 : Vec Ideal S32x6 .f32) (x2 : Vec Ideal S1x6 .f32) :
    k3_pay1 x0 x1 x2 = Cert.RefTerms.classify x0 x1 x2 := by
  funext j
  obtain ⟨p, q, rfl⟩ : ∃ (p : Fin 512) (q : Fin 6), j = ix2 p q := ⟨j 0, j 1, eq_ix2 j⟩
  rw [classifier_body_apply, classify_apply]

/-- Every window of the classifier's one-point grid sits at block (0, 0). -/
theorem classifier_blocks : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- What the one point writes back is the whole of the reference's classifier of the three arrays. -/
theorem classifier_written (c : Dev nD) (t : Fin cfg3.N) :
    (dat3 V c).flushed 3 t = ((cfg3.win 3).blk t).view.read (Elt Ideal)
      (Cert.RefTerms.classify (V c main_call0_v58) (V c main_arg21) (V c main_call0_v59)) := by
  show (cfg3.win 3).cut (grid3.coords t) ((dat3 V c).after 3 t) = _
  rw [after3_3]
  unfold out3_3
  rw [View.canon_unit_zero zeros_cls]
  simp only [View.ld_unit_zero (S := S512x32) zeros_cls, View.ld_unit_zero (S := S32x6) zeros_cls, View.ld_unit_zero (S := S1x6) zeros_cls]
  obtain ⟨a0, a1, b0, b1, c0, c1, d0, d1⟩ := classifier_blocks t
  funext j
  show k3_pay1 (iblk3 V c 0 t) (iblk3 V c 1 t) (iblk3 V c 2 t) j
      = Cert.RefTerms.classify (V c main_call0_v58) (V c main_arg21) (V c main_call0_v59) (((cfg3.win 3).blk t).view.emb j)
  refine (congrFun (classifier_body_eq _ _ _) j).trans ?_
  have e0 : iblk3 V c 0 t = (V c main_call0_v58 : S512x32.Idx → Elt Ideal .f32) := funext fun y => by
    show V c main_call0_v58 (((cfg3.win 0).blk t).view.emb y) = V c main_call0_v58 y
    refine congrArg _ (funext fun a => Fin.ext ?_)
    match a with
    | ⟨0, _⟩ => show win3_0.index t (0 : Fin 2) * 512 + 1 * (y 0).val = (y 0).val; omega
    | ⟨1, _⟩ => show win3_0.index t (1 : Fin 2) * 32 + 1 * (y 1).val = (y 1).val; omega
  have e1 : iblk3 V c 1 t = (V c main_arg21 : S32x6.Idx → Elt Ideal .f32) := funext fun y => by
    show V c main_arg21 (((cfg3.win 1).blk t).view.emb y) = V c main_arg21 y
    refine congrArg _ (funext fun a => Fin.ext ?_)
    match a with
    | ⟨0, _⟩ => show win3_1.index t (0 : Fin 2) * 32 + 1 * (y 0).val = (y 0).val; omega
    | ⟨1, _⟩ => show win3_1.index t (1 : Fin 2) * 6 + 1 * (y 1).val = (y 1).val; omega
  have e2 : iblk3 V c 2 t = (V c main_call0_v59 : S1x6.Idx → Elt Ideal .f32) := funext fun y => by
    show V c main_call0_v59 (((cfg3.win 2).blk t).view.emb y) = V c main_call0_v59 y
    refine congrArg _ (funext fun a => Fin.ext ?_)
    match a with
    | ⟨0, _⟩ => show win3_2.index t (0 : Fin 2) * 1 + 1 * (y 0).val = (y 0).val; omega
    | ⟨1, _⟩ => show win3_2.index t (1 : Fin 2) * 6 + 1 * (y 1).val = (y 1).val; omega
  have e3 : ((cfg3.win 3).blk t).view.emb j = j := funext fun a => Fin.ext (by
    match a with
    | ⟨0, _⟩ => show win3_3.index t (0 : Fin 2) * 512 + 1 * (j 0).val = (j 0).val; omega
    | ⟨1, _⟩ => show win3_3.index t (1 : Fin 2) * 6 + 1 * (j 1).val = (j 1).val; omega)
  rw [e0, e1, e2, e3]

/-- An index of the result array is in the point's block iff each coordinate is in the block's range on its axis. -/
theorem classifier_mem_block (t : Fin cfg3.N) (i : S512x6.Idx) :
    i ∈ ((cfg3.win 3).blk t).view.set ↔ ∀ a : Fin 2, win3_3.index t a * S512x6.size a ≤ (i a).val ∧ (i a).val < win3_3.index t a * S512x6.size a + S512x6.size a := by
  show i ∈ ((View.whole main_v0_3).slice (win3_3.rect t)).set ↔ _
  rw [View.set_slice_whole, Rect.mem_set_unit]
  exact Iff.rfl

/-- The one block is the whole array, so after the region the result array is the reference's classifier of the
    pooled features, the weights and the bias row as the region finds them. -/
theorem final3_3 (c : Dev nD) :
    (dat3 V c).arrAt 3 cfg3.N = Cert.RefTerms.classify (V c main_call0_v58) (V c main_arg21) (V c main_call0_v59) :=
  (dat3 V c).arrAt_eq_of_cover 3 (Cert.RefTerms.classify (V c main_call0_v58) (V c main_arg21) (V c main_call0_v59))
    (fun t _ => classifier_written V c t) fun i => by
      refine ⟨t3_0, flush3_3 t3_0, ?_⟩
      rw [classifier_mem_block]
      obtain ⟨a0, a1, b0, b1, c0, c1, d0, d1⟩ := classifier_blocks t3_0
      have h0 : (i 0).val < 512 := (i 0).isLt
      have h1 : (i 1).val < 6 := (i 1).isLt
      intro a
      match a with
      | ⟨0, _⟩ => show win3_3.index t3_0 (0 : Fin 2) * 512 ≤ (i 0).val ∧ (i 0).val < win3_3.index t3_0 (0 : Fin 2) * 512 + 512; omega
      | ⟨1, _⟩ => show win3_3.index t3_0 (1 : Fin 2) * 6 ≤ (i 1).val ∧ (i 1).val < win3_3.index t3_0 (1 : Fin 2) * 6 + 6; omega

end Cert.KernelIdeal.RegionLinear

end
-- ==== Proof.RegionLinear.lean ====
/-
  The two purely affine stages of the tiled program — the edge encoder and the classifier — each as a whole-array
  equation between the array the stage leaves and the reference's term for it:

  * `Cert.KernelIdeal.RegionLinear.final0_3`: the edge encoding, 1600000 × 64;
  * `Cert.KernelIdeal.RegionLinear.final3_3`: the class scores, 512 × 6.
-/
import proofs.«118365_j37108517438028_2_alg».proof.Proof.RegionLinearEnc
import proofs.«118365_j37108517438028_2_alg».proof.Proof.RegionLinearCls
-- ==== Proof.RegionMlpA.lean ====
/-
  The first perceptron of the network, evaluated in blocks of rows, is the reference's first perceptron.

  Every node carries ONE feature h.  The perceptron takes it to 64 hidden values  max (h * Wa k + ba k) 0,  then to
  64 outputs  leak (∑ k, hidden k * Wb (k, q) + bb q),  where leak keeps a value that is at least zero and takes a
  tenth of any other.  Row i of the result depends on row i of the feature column and on the whole weight and bias
  arrays, on nothing else.

  The tiled evaluation cuts the 100000 nodes into 25 blocks of 4000 consecutive rows; point t of the grid reads rows
  4000 t … 4000 t + 3999 of the column and the whole of the weights, and writes the same rows of the result (twice:
  once as it stands and once after a change of number format, which is the identity on extended reals).  Inside a
  block the feature column is spread across the 64 hidden units and multiplied entry by entry with the weight row;
  the reference writes the same thing as a matrix product whose shared axis has extent one, a sum of one term.
  So both sides have, at row i and column q, one and the same expression (entry below), and the blocks tile the
  rows: the node i is in block i / 4000.
-/
import proofs.«118365_j37108517438028_2_alg».proof.Proof.Gen.KernelIdeal.Frame
import proofs.«118365_j37108517438028_2_alg».proof.Proof.RefTerms
import proofs.«118365_j37108517438028_2_alg».proof.Proof.LibArrays
import proofs.«118365_j37108517438028_2_alg».proof.Proof.LibKeepdims
import proofs.«118365_j37108517438028_2_alg».proof.Proof.LibLinearAt
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws

set_option maxRecDepth 16384

noncomputable section

namespace Cert.KernelIdeal.RegionMlpA

open Idealize.ShloMosaic Idealize.ShloMosaic.ValueIdx

/-- The words of zero and of the slope one tenth, as extended reals. -/
abbrev zeroE : EReal := Ideal.ofBits .f32 0x00000000#32
abbrev tenthE : EReal := Ideal.ofBits .f32 0x3DCCCCCD#32

/-- The leaky rectifier on one extended real: the value where it is at least zero, a tenth of it elsewhere. -/
def leak (b : EReal) : EReal :=
  Scalar.select (FloatOps.cmpf (F := Ideal) (φ := .f32) .oge b zeroE) b (tenthE * b)

/-- One entry of the perceptron's result, from the node's one feature h, the first layer's weight row and bias row,
    the column of the second layer's weights that belongs to the entry, and the second bias at the entry. -/
def entry (h : EReal) (wa ba wb : Fin 64 → EReal) (bb : EReal) : EReal :=
  leak ((∑ k : Fin 64, max (h * wa k + ba k) zeroE * wb k) + bb)

theorem dot_plain : dot_S4000x64_S64x64_S4000x64_1_0_0_1_n_n = DotDims.plain 4000 64 64 := rfl

/-! ## One entry, on both sides -/

/-- The hidden layer at row p, unit k: the node's one feature times the weight row's entry, plus the bias row's
    entry, cut off below at z.  The feature column and the two rows are spread over the block by broadcasts that read
    the column at (p, 0) and a row at (0, k). -/
theorem hidden_apply {M : Nat} (x0 : FVec Ideal ⟨2, ![M, 1]⟩ .f32) (x1 x2 : FVec Ideal ⟨2, ![1, 64]⟩ .f32)
    (h0 : (⟨2, ![M, 1]⟩ : Shape).ShapeCasts ⟨2, ![M, 1]⟩) (h1 : (⟨2, ![M, 1]⟩ : Shape).Broadcasts ⟨2, ![M, 64]⟩)
    (h2 : (⟨2, ![1, 64]⟩ : Shape).Broadcasts ⟨2, ![M, 64]⟩) (h3 : (⟨2, ![1, 64]⟩ : Shape).ShapeCasts ⟨2, ![1, 64]⟩)
    (z : EReal) (p : Fin M) (k : Fin 64) :
    (maximumf (addf (mulf (broadcastTo ⟨2, ![M, 64]⟩ (shapeCast ⟨2, ![M, 1]⟩ x0 h0) h1) (broadcastTo ⟨2, ![M, 64]⟩ x1 h2))
        (broadcastTo ⟨2, ![M, 64]⟩ (shapeCast ⟨2, ![1, 64]⟩ x2 h3) h2))
      (broadcast ⟨2, ![M, 64]⟩ z) : FVec Ideal ⟨2, ![M, 64]⟩ .f32) (ix2 p k)
      = max (x0 (ix2 p (0 : Fin 1)) * x1 (ix2 (0 : Fin 1) k) + x2 (ix2 (0 : Fin 1) k)) z := by
  show max (broadcastTo ⟨2, ![M, 64]⟩ (shapeCast ⟨2, ![M, 1]⟩ x0 h0) h1 (ix2 p k) * broadcastTo ⟨2, ![M, 64]⟩ x1 h2 (ix2 p k)
      + broadcastTo ⟨2, ![M, 64]⟩ (shapeCast ⟨2, ![1, 64]⟩ x2 h3) h2 (ix2 p k)) z = _
  rw [shapeCast_self, shapeCast_self, Keepdims.broadcastTo_a1_ab_apply, broadcastTo_1b_ab_apply, broadcastTo_1b_ab_apply]

/-- The second layer and the rectifier at row p, column q, for a block of any height: the row of hidden values
    against column q of the weights, summed over the 64 hidden units, plus the bias row's entry, then the leaky
    rectifier.  A change of number format is the identity on extended reals. -/
theorem outer_apply {M : Nat} (a : FVec Ideal ⟨2, ![M, 64]⟩ .f32) (W : FVec Ideal ⟨2, ![64, 64]⟩ .f32)
    (b : FVec Ideal ⟨2, ![1, 64]⟩ .f32) (hb : (.bf16 : FTy).bits < (.f32 : FTy).bits)
    (h3 : (⟨2, ![1, 64]⟩ : Shape).ShapeCasts ⟨2, ![1, 64]⟩) (h2 : (⟨2, ![1, 64]⟩ : Shape).Broadcasts ⟨2, ![M, 64]⟩)
    (p : Fin M) (q : Fin 64) :
    (select
      (cmpf .oge
        (addf (matmul (DotDims.plain M 64 64) none (truncf .bf16 a hb) (truncf .bf16 W hb) (constant ⟨2, ![M, 64]⟩ .f32 0x00000000#32))
          (broadcastTo ⟨2, ![M, 64]⟩ (shapeCast ⟨2, ![1, 64]⟩ b h3) h2))
        (broadcast ⟨2, ![M, 64]⟩ (FloatOps.ofBits (F := Ideal) .f32 0x00000000#32)))
      (addf (matmul (DotDims.plain M 64 64) none (truncf .bf16 a hb) (truncf .bf16 W hb) (constant ⟨2, ![M, 64]⟩ .f32 0x00000000#32))
        (broadcastTo ⟨2, ![M, 64]⟩ (shapeCast ⟨2, ![1, 64]⟩ b h3) h2))
      (mulf (broadcast ⟨2, ![M, 64]⟩ (FloatOps.ofBits (F := Ideal) .f32 0x3DCCCCCD#32))
        (addf (matmul (DotDims.plain M 64 64) none (truncf .bf16 a hb) (truncf .bf16 W hb) (constant ⟨2, ![M, 64]⟩ .f32 0x00000000#32))
          (broadcastTo ⟨2, ![M, 64]⟩ (shapeCast ⟨2, ![1, 64]⟩ b h3) h2))) : FVec Ideal ⟨2, ![M, 64]⟩ .f32) (ix2 p q)
      = leak ((∑ k : Fin 64, a (ix2 p k) * W (ix2 k q)) + b (ix2 (0 : Fin 1) q)) := by
  have e : (addf (matmul (DotDims.plain M 64 64) none (truncf .bf16 a hb) (truncf .bf16 W hb) (constant ⟨2, ![M, 64]⟩ .f32 0x00000000#32))
        (broadcastTo ⟨2, ![M, 64]⟩ (shapeCast ⟨2, ![1, 64]⟩ b h3) h2) : FVec Ideal ⟨2, ![M, 64]⟩ .f32) (ix2 p q)
      = (∑ k : Fin 64, a (ix2 p k) * W (ix2 k q)) + b (ix2 (0 : Fin 1) q) := by
    show matmul (DotDims.plain M 64 64) none (truncf .bf16 a hb) (truncf .bf16 W hb) (constant ⟨2, ![M, 64]⟩ .f32 0x00000000#32) (ix2 p q)
      + broadcastTo ⟨2, ![M, 64]⟩ (shapeCast ⟨2, ![1, 64]⟩ b h3) h2 (ix2 p q) = _
    rw [Cert.Decoder.Lib.matmul_rows_apply, shapeCast_self, broadcastTo_1b_ab_apply]
    rfl
  exact congrArg leak e

/-- The body's value at row p, column q of a block of 4000 rows. -/
theorem pay_apply (x0 : Vec Ideal S4000x1 .f32) (x1 x2 : Vec Ideal S1x64 .f32) (x3 : Vec Ideal S64x64 .f32)
    (x4 : Vec Ideal S1x64 .f32) (p : Fin 4000) (q : Fin 64) :
    Gen.k1_pay1 x0 x1 x2 x3 x4 (ix2 p q)
      = entry (x0 (ix2 p (0 : Fin 1))) (fun k => x1 (ix2 (0 : Fin 1) k)) (fun k => x2 (ix2 (0 : Fin 1) k))
          (fun k => x3 (ix2 k q)) (x4 (ix2 (0 : Fin 1) q)) := by
  unfold Gen.k1_pay1
  rw [dot_plain]
  refine (outer_apply _ x3 x4 _ _ _ p q).trans ?_
  unfold entry
  refine congrArg (fun s => leak (s + x4 (ix2 (0 : Fin 1) q))) (Finset.sum_congr rfl fun k _ => ?_)
  exact congrArg (· * x3 (ix2 k q)) (hidden_apply x0 x1 x2 _ _ _ _ _ p k)

/-- The reference's first perceptron at node i, column q: the same entry.  Its first product contracts an axis of
    extent one, so the sum over that axis is its one term. -/
theorem mlpA_apply (h : Cert.RefTerms.A Cert.ReferenceIdeal.S100000x1) (Wa ba : Cert.RefTerms.A Cert.ReferenceIdeal.S1x64)
    (Wb : Cert.RefTerms.A Cert.ReferenceIdeal.S64x64) (bb : Cert.RefTerms.A Cert.ReferenceIdeal.S1x64)
    (i : Fin 100000) (q : Fin 64) :
    Cert.RefTerms.mlpA h Wa ba Wb bb (ix2 i q)
      = entry (h (ix2 i (0 : Fin 1))) (fun k => Wa (ix2 (0 : Fin 1) k)) (fun k => ba (ix2 (0 : Fin 1) k))
          (fun k => Wb (ix2 k q)) (bb (ix2 (0 : Fin 1) q)) := by
  unfold Cert.RefTerms.mlpA Cert.RefTerms.leaky Cert.RefTerms.reluN
  have e := Cert.LinearAt.dot_bias_apply 100000 64 64 Cert.ReferenceIdeal.dot_S100000x64_S64x64_S100000x64_1_0_0_1_n_n rfl
    (maximumf (addf (Host.dotGeneral Cert.ReferenceIdeal.dot_S100000x1_S1x64_S100000x64_1_0_0_1_n_n none h Wa)
        (broadcastInDim Cert.ReferenceIdeal.S100000x64 ![0, 1] Cert.ReferenceIdeal.Facts₀.bcast_S1x64_S100000x64_0_1 ba))
      (broadcastInDim Cert.ReferenceIdeal.S100000x64 ![] Cert.ReferenceIdeal.Facts₀.bcast_S_S100000x64 Cert.RefTerms.c0))
    Wb bb ![0, 1] rfl Cert.ReferenceIdeal.Facts₀.bcast_S1x64_S100000x64_0_1 i q
  refine (congrArg leak e).trans ?_
  unfold entry
  refine congrArg (fun s => leak (s + bb (ix2 (0 : Fin 1) q))) (Finset.sum_congr rfl fun k _ => ?_)
  refine congrArg (· * Wb (ix2 k q)) ?_
  show max ((addf (Host.dotGeneral Cert.ReferenceIdeal.dot_S100000x1_S1x64_S100000x64_1_0_0_1_n_n none h Wa)
        (broadcastInDim Cert.ReferenceIdeal.S100000x64 ![0, 1] Cert.ReferenceIdeal.Facts₀.bcast_S1x64_S100000x64_0_1 ba) : FVec Ideal ⟨2, ![100000, 64]⟩ .f32) (ix2 i k)) zeroE = _
  rw [Cert.LinearAt.dot_bias_apply 100000 1 64 Cert.ReferenceIdeal.dot_S100000x1_S1x64_S100000x64_1_0_0_1_n_n rfl h Wa ba ![0, 1] rfl
    Cert.ReferenceIdeal.Facts₀.bcast_S1x64_S100000x64_0_1 i k, Fin.sum_univ_one]

open Idealize.ShloMosaic.TcCoe Idealize.SL.Sem
open Idealize.ShloMosaic.Pipeline (Dat)
open Cert.KernelIdeal.Gen

/-! ## From blocks of rows to the whole array -/

variable (V : (c : Dev nD) → (b : Ref sig .tc) → Buf (Elt Ideal) ((c : Thread nD τ).loc b))

theorem zeros2 : (![0, 0] : Fin 2 → Nat) = fun _ => 0 := funext fun a => by fin_cases a <;> rfl

/-- Where each window's block sits at grid point t: the feature column and both results at block row t, the weights
    and biases at their one block. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

theorem points : cfg1.N = 25 := N_1

/-- Row p of the feature column's block at point t is row 4000 t + p of the column. -/
theorem column_block (c : Dev nD) (t : Fin cfg1.N) (p : Fin 4000) (u : Fin 1) (hp : 4000 * t.val + p.val < 100000) :
    (iblk1 V c 0 t : Vec Ideal S4000x1 .f32) (ix2 p u)
      = (V c main_call0_v24 : S100000x1.Idx → EReal) (ix2 ⟨4000 * t.val + p.val, hp⟩ u) := by
  obtain ⟨e0, e1, -⟩ := block_index t
  unfold iblk1
  rw [View.read_apply]
  show V c main_call0_v24 _ = V c main_call0_v24 _
  congr 1
  funext a
  apply Fin.ext
  match a with
  | ⟨0, _⟩ => show win1_0.index t (0 : Fin 2) * 4000 + 1 * p.val = 4000 * t.val + p.val; rw [e0]; omega
  | ⟨1, _⟩ => show win1_0.index t (1 : Fin 2) * 1 + 1 * u.val = u.val; rw [e1]; omega

/-- The weight row's one block is the whole row, at every point. -/
theorem weight_row_block (c : Dev nD) (t : Fin cfg1.N) (u : Fin 1) (k : Fin 64) :
    (iblk1 V c 1 t : Vec Ideal S1x64 .f32) (ix2 u k) = (V c main_arg7 : S1x64.Idx → EReal) (ix2 u k) := by
  obtain ⟨-, -, e0, e1, -⟩ := block_index t
  unfold iblk1
  rw [View.read_apply]
  show V c main_arg7 _ = V c main_arg7 _
  congr 1
  funext a
  apply Fin.ext
  match a with
  | ⟨0, _⟩ => show win1_1.index t (0 : Fin 2) * 1 + 1 * u.val = u.val; rw [e0]; omega
  | ⟨1, _⟩ => show win1_1.index t (1 : Fin 2) * 64 + 1 * k.val = k.val; rw [e1]; omega

/-- So is the first bias row's … -/
theorem bias_row_block (c : Dev nD) (t : Fin cfg1.N) (u : Fin 1) (k : Fin 64) :
    (iblk1 V c 2 t : Vec Ideal S1x64 .f32) (ix2 u k) = (V c main_call0_v25 : S1x64.Idx → EReal) (ix2 u k) := by
  obtain ⟨-, -, -, -, e0, e1, -⟩ := block_index t
  unfold iblk1
  rw [View.read_apply]
  show V c main_call0_v25 _ = V c main_call0_v25 _
  congr 1
  funext a
  apply Fin.ext
  match a with
  | ⟨0, _⟩ => show win1_2.index t (0 : Fin 2) * 1 + 1 * u.val = u.val; rw [e0]; omega
  | ⟨1, _⟩ => show win1_2.index t (1 : Fin 2) * 64 + 1 * k.val = k.val; rw [e1]; omega

/-- … the second layer's weight matrix … -/
theorem weight_matrix_block (c : Dev nD) (t : Fin cfg1.N) (k q : Fin 64) :
    (iblk1 V c 3 t : Vec Ideal S64x64 .f32) (ix2 k q) = (V c main_arg9 : S64x64.Idx → EReal) (ix2 k q) := by
  obtain ⟨-, -, -, -, -, -, e0, e1, -⟩ := block_index t
  unfold iblk1
  rw [View.read_apply]
  show V c main_arg9 _ = V c main_arg9 _
  congr 1
  funext a
  apply Fin.ext
  match a with
  | ⟨0, _⟩ => show win1_3.index t (0 : Fin 2) * 64 + 1 * k.val = k.val; rw [e0]; omega
  | ⟨1, _⟩ => show win1_3.index t (1 : Fin 2) * 64 + 1 * q.val = q.val; rw [e1]; omega

/-- … and the second bias row's. -/
theorem bias2_row_block (c : Dev nD) (t : Fin cfg1.N) (u : Fin 1) (k : Fin 64) :
    (iblk1 V c 4 t : Vec Ideal S1x64 .f32) (ix2 u k) = (V c main_call0_v26 : S1x64.Idx → EReal) (ix2 u k) := by
  obtain ⟨-, -, -, -, -, -, -, -, e0, e1, -⟩ := block_index t
  unfold iblk1
  rw [View.read_apply]
  show V c main_call0_v26 _ = V c main_call0_v26 _
  congr 1
  funext a
  apply Fin.ext
  match a with
  | ⟨0, _⟩ => show win1_4.index t (0 : Fin 2) * 1 + 1 * u.val = u.val; rw [e0]; omega
  | ⟨1, _⟩ => show win1_4.index t (1 : Fin 2) * 64 + 1 * k.val = k.val; rw [e1]; omega

/-- The reference's perceptron of the arrays the region finds. -/
abbrev spec (c : Dev nD) : S100000x64.Idx → EReal :=
  Cert.RefTerms.mlpA (V c main_call0_v24) (V c main_arg7) (V c main_call0_v25) (V c main_arg9) (V c main_call0_v26)

/-- The body's value at an entry of point t's block is the reference's perceptron at the entry of the array that the
    block's entry is: row 4000 t + p, column q. -/
theorem block_entry (c : Dev nD) (t : Fin cfg1.N) (j : S4000x64.Idx) :
    k1_pay1 (iblk1 V c 0 t) (iblk1 V c 1 t) (iblk1 V c 2 t) (iblk1 V c 3 t) (iblk1 V c 4 t) j
      = ((cfg1.win 5).blk t).view.read (Elt Ideal) (spec V c) j := by
  have ht : t.val < 25 := lt_of_lt_of_eq t.isLt points
  obtain ⟨p, q, rfl⟩ : ∃ (p : Fin 4000) (q : Fin 64), j = ix2 p q := ⟨j 0, j 1, eq_ix2 j⟩
  have hp : 4000 * t.val + p.val < 100000 := by have := p.isLt; omega
  obtain ⟨-, -, -, -, -, -, -, -, -, -, e0, e1, -⟩ := block_index t
  rw [View.read_apply]
  have hemb : ((cfg1.win 5).blk t).view.emb (ix2 p q) = (ix2 ⟨4000 * t.val + p.val, hp⟩ q : S100000x64.Idx) := by
    funext a
    apply Fin.ext
    match a with
    | ⟨0, _⟩ => show win1_5.index t (0 : Fin 2) * 4000 + 1 * p.val = 4000 * t.val + p.val; rw [e0]; omega
    | ⟨1, _⟩ => show win1_5.index t (1 : Fin 2) * 64 + 1 * q.val = q.val; rw [e1]; omega
  refine Eq.trans ?_ (congrArg (spec V c) hemb.symm)
  refine (pay_apply (iblk1 V c 0 t) (iblk1 V c 1 t) (iblk1 V c 2 t) (iblk1 V c 3 t) (iblk1 V c 4 t) p q).trans ?_
  refine Eq.trans ?_ (mlpA_apply (V c main_call0_v24) (V c main_arg7) (V c main_call0_v25) (V c main_arg9) (V c main_call0_v26) ⟨_, hp⟩ q).symm
  rw [column_block V c t p 0 hp, bias2_row_block V c t 0 q]
  refine congrArg₂ (fun f g => entry _ f g _ _) (funext fun k => weight_row_block V c t 0 k) (funext fun k => bias_row_block V c t 0 k) |>.trans ?_
  exact congrArg (fun f => entry _ _ _ f _) (funext fun k => weight_matrix_block V c t k q)

/-- What point t writes back of the first result is block t of the reference's perceptron. -/
theorem written_f32 (c : Dev nD) (t : Fin cfg1.N) :
    (dat1 (F := Ideal) V c).flushed 5 t = ((cfg1.win 5).blk t).view.read (Elt Ideal) (spec V c) := by
  show (cfg1.win 5).cut (grid1.coords t) ((dat1 V c).after 5 t) = _
  rw [after1_5]
  unfold out1_5
  rw [View.canon_unit_zero zeros2]
  simp only [View.ld_unit_zero (S := S4000x1) zeros2, View.ld_unit_zero (S := S1x64) zeros2, View.ld_unit_zero (S := S64x64) zeros2]
  funext j
  exact block_entry V c t j

/-- An index of the result is in point t's block iff each coordinate is in the block's range on its axis. -/
theorem mem_block_f32 (t : Fin cfg1.N) (i : S100000x64.Idx) :
    i ∈ ((cfg1.win 5).blk t).view.set ↔ ∀ a : Fin 2, win1_5.index t a * S4000x64.size a ≤ (i a).val ∧ (i a).val < win1_5.index t a * S4000x64.size a + S4000x64.size a := by
  show i ∈ ((View.whole main_call0_v27_0).slice (win1_5.rect t)).set ↔ _
  rw [View.set_slice_whole, Rect.mem_set_unit]
  exact Iff.rfl

/-- Every row is in a block: row r in block r / 4000. -/
theorem covered_f32 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : (i 0).val / 4000 < cfg1.N := by rw [points]; omega
  obtain ⟨-, -, -, -, -, -, -, -, -, -, e0, e1, -⟩ := block_index ⟨(i 0).val / 4000, hN⟩
  refine ⟨⟨(i 0).val / 4000, hN⟩, flush1_5 _, ?_⟩
  rw [mem_block_f32]
  intro a
  match a with
  | ⟨0, _⟩ =>
    show win1_5.index ⟨(i 0).val / 4000, hN⟩ (0 : Fin 2) * 4000 ≤ (i 0).val ∧ (i 0).val < win1_5.index ⟨(i 0).val / 4000, hN⟩ (0 : Fin 2) * 4000 + 4000
    rw [e0]; show (i 0).val / 4000 * 4000 ≤ (i 0).val ∧ (i 0).val < (i 0).val / 4000 * 4000 + 4000; omega
  | ⟨1, _⟩ =>
    show win1_5.index ⟨(i 0).val / 4000, hN⟩ (1 : Fin 2) * 64 ≤ (i 1).val ∧ (i 1).val < win1_5.index ⟨(i 0).val / 4000, hN⟩ (1 : Fin 2) * 64 + 64
    rw [e1]; omega

/-- The first result array after the region: the reference's perceptron of the arrays the region found. -/
theorem final1_5 (c : Dev nD) :
    (dat1 (F := Ideal) V c).arrAt 5 cfg1.N
      = Cert.RefTerms.mlpA (V c main_call0_v24) (V c main_arg7) (V c main_call0_v25) (V c main_arg9) (V c main_call0_v26) :=
  (dat1 (F := Ideal) V c).arrAt_eq_of_cover 5 (spec V c) (fun t _ => written_f32 V c t) covered_f32

/-- The second result is written from the same values after a change of number format, the identity on extended
    reals; its blocks sit at the same rows. -/
theorem block_entry_bf16 (c : Dev nD) (t : Fin cfg1.N) (j : S4000x64.Idx) :
    k1_pay2 (iblk1 V c 0 t) (iblk1 V c 1 t) (iblk1 V c 2 t) (iblk1 V c 3 t) (iblk1 V c 4 t) j
      = ((cfg1.win 6).blk t).view.read (Elt Ideal) (spec V c) j := by
  refine (block_entry V c t j).trans ?_
  obtain ⟨-, -, -, -, -, -, -, -, -, -, e0, e1, f0, f1⟩ := block_index t
  rw [View.read_apply, View.read_apply]
  refine congrArg (spec V c) ?_
  funext a
  apply Fin.ext
  match a with
  | ⟨0, _⟩ => show win1_5.index t (0 : Fin 2) * 4000 + 1 * (j 0).val = win1_6.index t (0 : Fin 2) * 4000 + 1 * (j 0).val; rw [e0, f0]
  | ⟨1, _⟩ => show win1_5.index t (1 : Fin 2) * 64 + 1 * (j 1).val = win1_6.index t (1 : Fin 2) * 64 + 1 * (j 1).val; rw [e1, f1]

/-- What point t writes back of the second result is block t of the reference's perceptron. -/
theorem written_bf16 (c : Dev nD) (t : Fin cfg1.N) :
    (dat1 (F := Ideal) V c).flushed 6 t = ((cfg1.win 6).blk t).view.read (Elt Ideal) (spec V c) := by
  show (cfg1.win 6).cut (grid1.coords t) ((dat1 V c).after 6 t) = _
  rw [after1_6]
  unfold out1_6
  rw [View.canon_unit_zero zeros2]
  simp only [View.ld_unit_zero (S := S4000x1) zeros2, View.ld_unit_zero (S := S1x64) zeros2, View.ld_unit_zero (S := S64x64) zeros2]
  funext j
  exact block_entry_bf16 V c t j

theorem mem_block_bf16 (t : Fin cfg1.N) (i : S100000x64.Idx) :
    i ∈ ((cfg1.win 6).blk t).view.set ↔ ∀ a : Fin 2, win1_6.index t a * S4000x64.size a ≤ (i a).val ∧ (i a).val < win1_6.index t a * S4000x64.size a + S4000x64.size a := by
  show i ∈ ((View.whole main_call0_v27_1).slice (win1_6.rect t)).set ↔ _
  rw [View.set_slice_whole, Rect.mem_set_unit]
  exact Iff.rfl

theorem covered_bf16 (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : (i 0).val / 4000 < cfg1.N := by rw [points]; omega
  obtain ⟨-, -, -, -, -, -, -, -, -, -, -, -, e0, e1⟩ := block_index ⟨(i 0).val / 4000, hN⟩
  refine ⟨⟨(i 0).val / 4000, hN⟩, flush1_6 _, ?_⟩
  rw [mem_block_bf16]
  intro a
  match a with
  | ⟨0, _⟩ =>
    show win1_6.index ⟨(i 0).val / 4000, hN⟩ (0 : Fin 2) * 4000 ≤ (i 0).val ∧ (i 0).val < win1_6.index ⟨(i 0).val / 4000, hN⟩ (0 : Fin 2) * 4000 + 4000
    rw [e0]; show (i 0).val / 4000 * 4000 ≤ (i 0).val ∧ (i 0).val < (i 0).val / 4000 * 4000 + 4000; omega
  | ⟨1, _⟩ =>
    show win1_6.index ⟨(i 0).val / 4000, hN⟩ (1 : Fin 2) * 64 ≤ (i 1).val ∧ (i 1).val < win1_6.index ⟨(i 0).val / 4000, hN⟩ (1 : Fin 2) * 64 + 64
    rw [e1]; omega

/-- The second result array after the region: the same values. -/
theorem final1_6 (c : Dev nD) :
    (dat1 (F := Ideal) V c).arrAt 6 cfg1.N
      = Cert.RefTerms.mlpA (V c main_call0_v24) (V c main_arg7) (V c main_call0_v25) (V c main_arg9) (V c main_call0_v26) :=
  (dat1 (F := Ideal) V c).arrAt_eq_of_cover 6 (spec V c) (fun t _ => written_bf16 V c t) covered_bf16

end Cert.KernelIdeal.RegionMlpA

end
-- ==== Proof.RegionVae.lean ====
/-
  The third region of the network — residual add, second perceptron, variational head — against the whole-array terms.

  For node features `h` and aggregated messages `agg` (both N × 64), the region computes, node by node,
      hid  = max ((h + agg) · Wa + ba) 0,        h2 = leaky (hid · Wb + bb),
      mu   = h2 · Wmu + bmu,   logvar = h2 · Wlv + blv,   z = mu + eps * exp (0.5 * logvar).
  A node's row of each result depends only on the same node's rows of `h`, `agg` and `eps` and on the whole matrices
  and bias rows.  The region evaluates this on 50 tiles of 2000 rows; the whole-array terms evaluate it on all
  100000 rows at once.  Both are read here at one entry as the same scalar expression (`feature`, then a sum over the
  64 features), so a tile of the region's result is the tile of the whole-array term; the tiles cover the rows, so the
  three arrays the region leaves are the whole-array terms.  Changes of number format are the identity on extended
  reals, and no law of arithmetic is used: the two sides are the same expression.
-/
import proofs.«118365_j37108517438028_2_alg».proof.Proof.Gen.KernelIdeal.Frame
import proofs.«118365_j37108517438028_2_alg».proof.Proof.RefTerms
import proofs.«118365_j37108517438028_2_alg».proof.Proof.LibLinearAt
import Idealize.ShloMosaic.Lib.IdealHost
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RegionVae

open Idealize.ShloMosaic Idealize.ShloMosaic.ValueIdx

/-! ## One node's row through the second perceptron and the two heads

Everything a node's output row needs is that node's rows of the two feature arrays and the whole weight
matrices and bias rows.  The functions below are that dependence written once, so that a tile of rows and the
whole array can both be compared with it. -/

/-- The float words for zero, one tenth (the leaky slope) and one half. -/
abbrev zeroW : EReal := Ideal.ofBits .f32 0x00000000#32
abbrev tenthW : EReal := Ideal.ofBits .f32 0x3DCCCCCD#32
abbrev halfW : EReal := Ideal.ofBits .f32 0x3F000000#32

/-- The leaky rectifier on one value: `v` where `v ≥ 0`, else a tenth of it. -/
def leak (v : EReal) : EReal :=
  Scalar.select (FloatOps.cmpf (F := Ideal) (φ := .f32) .oge v zeroW) v (tenthW * v)

/-- Hidden unit `k` of a node: `max (Σ_j (r_j + s_j) Wa_jk + ba_k) 0`, for the node's two feature rows `r`, `s`. -/
def hidden (r s : Fin 64 → EReal) (Wa : Fin 64 → Fin 64 → EReal) (ba : Fin 64 → EReal) (k : Fin 64) : EReal :=
  max ((∑ j : Fin 64, (r j + s j) * Wa j k) + ba k) zeroW

/-- Feature `q` of a node after the perceptron: the leaky rectifier of `Σ_k hidden_k Wb_kq + bb_q`. -/
def feature (r s : Fin 64 → EReal) (Wa : Fin 64 → Fin 64 → EReal) (ba : Fin 64 → EReal)
    (Wb : Fin 64 → Fin 64 → EReal) (bb : Fin 64 → EReal) (q : Fin 64) : EReal :=
  leak ((∑ k : Fin 64, hidden r s Wa ba k * Wb k q) + bb q)

section Tile
open Cert.KernelIdeal Cert.KernelIdeal.Facts₀

/-! ### The tile's side -/

/-- The first layer of the perceptron on a tile, before its rectifier. -/
def tileLayerA (x0 x1 : Vec Ideal S2000x64 .f32) (x3 : Vec Ideal S64x64 .f32) (x4 : Vec Ideal S1x64 .f32) : FVec Ideal S2000x64 .f32 :=
  addf (matmul dot_S2000x64_S64x64_S2000x64_1_0_0_1_n_n none
      (truncf .bf16 (addf (shapeCast S2000x64 x0 shapeCasts_S2000x64_S2000x64) (shapeCast S2000x64 x1 shapeCasts_S2000x64_S2000x64)) bitsLt_bf16_f32)
      (truncf .bf16 x3 bitsLt_bf16_f32) (constant S2000x64 .f32 0x00000000#32))
    (broadcastTo S2000x64 (shapeCast S1x64 x4 shapeCasts_S1x64_S1x64) broadcasts_S1x64_S2000x64)

/-- The second layer on a tile of first-layer values `y`, before its rectifier. -/
def tileLayerB (y : FVec Ideal S2000x64 .f32) (x5 : Vec Ideal S64x64 .f32) (x6 : Vec Ideal S1x64 .f32) : FVec Ideal S2000x64 .f32 :=
  addf (matmul dot_S2000x64_S64x64_S2000x64_1_0_0_1_n_n none
      (truncf .bf16 (maximumf y (broadcast S2000x64 (Scalar.ofBits .f32 0x00000000#32))) bitsLt_bf16_f32)
      (truncf .bf16 x5 bitsLt_bf16_f32) (constant S2000x64 .f32 0x00000000#32))
    (broadcastTo S2000x64 (shapeCast S1x64 x6 shapeCasts_S1x64_S1x64) broadcasts_S1x64_S2000x64)

theorem tileLayerA_apply (x0 x1 : Vec Ideal S2000x64 .f32) (x3 : Vec Ideal S64x64 .f32) (x4 : Vec Ideal S1x64 .f32)
    (p : Fin 2000) (k : Fin 64) :
    tileLayerA x0 x1 x3 x4 (ix2 p k) = (∑ j : Fin 64, (x0 (ix2 p j) + x1 (ix2 p j)) * x3 (ix2 j k)) + x4 (ix2 (0 : Fin 1) k) := by
  unfold tileLayerA
  refine (Cert.LinearAt.matmul_bias_apply 2000 64 64 dot_S2000x64_S64x64_S2000x64_1_0_0_1_n_n rfl _ _ x4 _ _ p k).trans ?_
  rw [shapeCast_self, shapeCast_self]
  rfl

theorem tileLayerB_apply (y : FVec Ideal S2000x64 .f32) (x5 : Vec Ideal S64x64 .f32) (x6 : Vec Ideal S1x64 .f32)
    (p : Fin 2000) (q : Fin 64) :
    tileLayerB y x5 x6 (ix2 p q) = (∑ k : Fin 64, max (y (ix2 p k)) zeroW * x5 (ix2 k q)) + x6 (ix2 (0 : Fin 1) q) := by
  unfold tileLayerB
  exact Cert.LinearAt.matmul_bias_apply 2000 64 64 dot_S2000x64_S64x64_S2000x64_1_0_0_1_n_n rfl _ _ x6 _ _ p q

/-- The tile's perceptron output at row `p`, feature `q`, is `feature` of row `p` of the two feature tiles. -/
theorem tile_feature (x0 x1 : Vec Ideal S2000x64 .f32) (x3 : Vec Ideal S64x64 .f32) (x4 : Vec Ideal S1x64 .f32)
    (x5 : Vec Ideal S64x64 .f32) (x6 : Vec Ideal S1x64 .f32) (p : Fin 2000) (q : Fin 64) :
    Gen.k2_pay3 (F := Ideal) x0 x1 x3 x4 x5 x6 (ix2 p q)
      = feature (fun j => x0 (ix2 p j)) (fun j => x1 (ix2 p j)) (fun j k => x3 (ix2 j k)) (fun k => x4 (ix2 (0 : Fin 1) k))
          (fun k q => x5 (ix2 k q)) (fun q => x6 (ix2 (0 : Fin 1) q)) q := by
  show leak (tileLayerB (tileLayerA x0 x1 x3 x4) x5 x6 (ix2 p q)) = _
  unfold feature
  refine congrArg leak ?_
  rw [tileLayerB_apply]
  refine congrArg (· + x6 (ix2 (0 : Fin 1) q)) (Finset.sum_congr rfl fun k _ => ?_)
  rw [tileLayerA_apply]
  rfl

/-- A head on a tile: the tile's perceptron output times the head's matrix plus its bias row. -/
theorem tile_head_first (x0 x1 : Vec Ideal S2000x64 .f32) (x3 : Vec Ideal S64x64 .f32) (x4 : Vec Ideal S1x64 .f32)
    (x5 : Vec Ideal S64x64 .f32) (x6 : Vec Ideal S1x64 .f32) (x7 : Vec Ideal S64x32 .f32) (x8 : Vec Ideal S1x32 .f32)
    (p : Fin 2000) (q : Fin 32) :
    Gen.k2_pay4 (F := Ideal) x0 x1 x3 x4 x5 x6 x7 x8 (ix2 p q)
      = (∑ k : Fin 64, Gen.k2_pay3 (F := Ideal) x0 x1 x3 x4 x5 x6 (ix2 p k) * x7 (ix2 k q)) + x8 (ix2 (0 : Fin 1) q) := by
  unfold Gen.k2_pay4
  exact Cert.LinearAt.matmul_bias_apply 2000 64 32 dot_S2000x64_S64x32_S2000x32_1_0_0_1_n_n rfl _ _ x8 _ _ p q

theorem tile_head_second (v28 : FVec Ideal S2000x64 .bf16) (x9 : Vec Ideal S64x32 .f32) (x10 : Vec Ideal S1x32 .f32)
    (p : Fin 2000) (q : Fin 32) :
    Gen.k2_pay1 (F := Ideal) v28 x9 x10 (ix2 p q) = (∑ k : Fin 64, v28 (ix2 p k) * x9 (ix2 k q)) + x10 (ix2 (0 : Fin 1) q) := by
  unfold Gen.k2_pay1
  exact Cert.LinearAt.matmul_bias_apply 2000 64 32 dot_S2000x64_S64x32_S2000x32_1_0_0_1_n_n rfl _ _ x10 _ _ p q

/-- The sample on a tile, entry by entry. -/
theorem tile_sample (v28 : FVec Ideal S2000x64 .bf16) (v35 : FVec Ideal S2000x32 .f32) (x9 : Vec Ideal S64x32 .f32)
    (x10 : Vec Ideal S1x32 .f32) (x2 : Vec Ideal S2000x32 .f32) (j : S2000x32.Idx) :
    Gen.k2_pay2 (F := Ideal) v28 v35 x9 x10 x2 j = v35 j + x2 j * Ideal.exp (halfW * Gen.k2_pay1 (F := Ideal) v28 x9 x10 j) := rfl

end Tile

/-! ### The whole arrays' side -/

section Arrays
open Cert.ReferenceIdeal Cert.ReferenceIdeal.Facts₀ Cert.RefTerms

/-- The first layer of the perceptron on the whole arrays, before its rectifier. -/
def arrLayerA (h agg : A S100000x64) (Wa : A S64x64) (ba : A S1x64) : A S100000x64 :=
  addf (Host.dotGeneral dot_S100000x64_S64x64_S100000x64_1_0_0_1_n_n none (addf h agg) Wa)
    (broadcastInDim S100000x64 ![0, 1] bcast_S1x64_S100000x64_0_1 ba)

/-- The second layer on first-layer values `y`, before its rectifier. -/
def arrLayerB (y : A S100000x64) (Wb : A S64x64) (bb : A S1x64) : A S100000x64 :=
  addf (Host.dotGeneral dot_S100000x64_S64x64_S100000x64_1_0_0_1_n_n none (reluN y) Wb)
    (broadcastInDim S100000x64 ![0, 1] bcast_S1x64_S100000x64_0_1 bb)

theorem arrLayerA_apply (h agg : A S100000x64) (Wa : A S64x64) (ba : A S1x64) (i : Fin 100000) (k : Fin 64) :
    arrLayerA h agg Wa ba (ix2 i k)
      = (∑ j : Fin 64, (h (ix2 i j) + agg (ix2 i j)) * Wa (ix2 j k)) + ba (ix2 (0 : Fin 1) k) := by
  unfold arrLayerA
  exact Cert.LinearAt.dot_bias_apply 100000 64 64 dot_S100000x64_S64x64_S100000x64_1_0_0_1_n_n rfl (addf h agg) Wa ba
    ![0, 1] rfl bcast_S1x64_S100000x64_0_1 i k

theorem arrLayerB_apply (y : A S100000x64) (Wb : A S64x64) (bb : A S1x64) (i : Fin 100000) (q : Fin 64) :
    arrLayerB y Wb bb (ix2 i q) = (∑ k : Fin 64, max (y (ix2 i k)) zeroW * Wb (ix2 k q)) + bb (ix2 (0 : Fin 1) q) := by
  unfold arrLayerB
  exact Cert.LinearAt.dot_bias_apply 100000 64 64 dot_S100000x64_S64x64_S100000x64_1_0_0_1_n_n rfl (reluN y) Wb bb
    ![0, 1] rfl bcast_S1x64_S100000x64_0_1 i q

/-- The whole-array perceptron at node `i`, feature `q`, is `feature` of row `i` of the two feature arrays. -/
theorem mlpB_apply (h agg : A S100000x64) (Wa : A S64x64) (ba : A S1x64) (Wb : A S64x64) (bb : A S1x64)
    (i : Fin 100000) (q : Fin 64) :
    mlpB h agg Wa ba Wb bb (ix2 i q)
      = feature (fun j => h (ix2 i j)) (fun j => agg (ix2 i j)) (fun j k => Wa (ix2 j k)) (fun k => ba (ix2 (0 : Fin 1) k))
          (fun k q => Wb (ix2 k q)) (fun q => bb (ix2 (0 : Fin 1) q)) q := by
  show leak (arrLayerB (arrLayerA h agg Wa ba) Wb bb (ix2 i q)) = _
  unfold feature
  refine congrArg leak ?_
  rw [arrLayerB_apply]
  refine congrArg (· + bb (ix2 (0 : Fin 1) q)) (Finset.sum_congr rfl fun k _ => ?_)
  rw [arrLayerA_apply]
  rfl

/-- A head on the whole arrays, at node `i`, column `q`. -/
theorem head_apply (H : A S100000x64) (W : A S64x32) (b : A S1x32) (i : Fin 100000) (q : Fin 32) :
    head H W b (ix2 i q) = (∑ k : Fin 64, H (ix2 i k) * W (ix2 k q)) + b (ix2 (0 : Fin 1) q) := by
  unfold head
  exact Cert.LinearAt.dot_bias_apply 100000 64 32 dot_S100000x64_S64x32_S100000x32_1_0_0_1_n_n rfl H W b
    ![0, 1] rfl bcast_S1x32_S100000x32_0_1 i q

/-- The sample on the whole arrays, entry by entry. -/
theorem sample_apply (m lv eps : A S100000x32) (j : S100000x32.Idx) :
    sample m lv eps j = m j + eps j * Ideal.exp (halfW * lv j) := rfl

end Arrays

/-! ### A tile's row against the arrays' row -/

section Bridge
open Cert.RefTerms

/-- If row `p` of the two feature tiles is row `i` of the two feature arrays, the tile's perceptron output in row `p`
    is the whole-array perceptron's row `i` (same matrices and bias rows on both sides). -/
theorem feature_row (h1 agg : A Cert.ReferenceIdeal.S100000x64) (Wa : A Cert.ReferenceIdeal.S64x64) (ba : A Cert.ReferenceIdeal.S1x64)
    (Wb : A Cert.ReferenceIdeal.S64x64) (bb : A Cert.ReferenceIdeal.S1x64)
    (x0 x1 : Vec Ideal Cert.KernelIdeal.S2000x64 .f32) (i : Fin 100000) (p : Fin 2000)
    (e0 : ∀ j : Fin 64, x0 (ix2 p j) = h1 (ix2 i j)) (e1 : ∀ j : Fin 64, x1 (ix2 p j) = agg (ix2 i j)) (k : Fin 64) :
    Gen.k2_pay3 (F := Ideal) x0 x1 Wa ba Wb bb (ix2 p k) = mlpB h1 agg Wa ba Wb bb (ix2 i k) := by
  rw [tile_feature, mlpB_apply]
  simp only [e0, e1]

/-- The first head's tile entry is the whole-array head's entry of the same node. -/
theorem mu_row (h1 agg : A Cert.ReferenceIdeal.S100000x64) (Wa : A Cert.ReferenceIdeal.S64x64) (ba : A Cert.ReferenceIdeal.S1x64)
    (Wb : A Cert.ReferenceIdeal.S64x64) (bb : A Cert.ReferenceIdeal.S1x64) (Wm : A Cert.ReferenceIdeal.S64x32) (bm : A Cert.ReferenceIdeal.S1x32)
    (x0 x1 : Vec Ideal Cert.KernelIdeal.S2000x64 .f32) (i : Fin 100000) (p : Fin 2000)
    (e0 : ∀ j : Fin 64, x0 (ix2 p j) = h1 (ix2 i j)) (e1 : ∀ j : Fin 64, x1 (ix2 p j) = agg (ix2 i j)) (q : Fin 32) :
    Gen.k2_pay4 (F := Ideal) x0 x1 Wa ba Wb bb Wm bm (ix2 p q) = head (mlpB h1 agg Wa ba Wb bb) Wm bm (ix2 i q) := by
  rw [tile_head_first, head_apply]
  simp only [feature_row h1 agg Wa ba Wb bb x0 x1 i p e0 e1]

/-- The second head's tile entry likewise. -/
theorem logvar_row (h1 agg : A Cert.ReferenceIdeal.S100000x64) (Wa : A Cert.ReferenceIdeal.S64x64) (ba : A Cert.ReferenceIdeal.S1x64)
    (Wb : A Cert.ReferenceIdeal.S64x64) (bb : A Cert.ReferenceIdeal.S1x64) (Wl : A Cert.ReferenceIdeal.S64x32) (bl : A Cert.ReferenceIdeal.S1x32)
    (x0 x1 : Vec Ideal Cert.KernelIdeal.S2000x64 .f32) (i : Fin 100000) (p : Fin 2000)
    (e0 : ∀ j : Fin 64, x0 (ix2 p j) = h1 (ix2 i j)) (e1 : ∀ j : Fin 64, x1 (ix2 p j) = agg (ix2 i j)) (q : Fin 32) :
    Gen.k2_pay1 (F := Ideal) (Gen.k2_pay3 (F := Ideal) x0 x1 Wa ba Wb bb) Wl bl (ix2 p q)
      = head (mlpB h1 agg Wa ba Wb bb) Wl bl (ix2 i q) := by
  rw [tile_head_second, head_apply]
  simp only [feature_row h1 agg Wa ba Wb bb x0 x1 i p e0 e1]

/-- The sample's tile entry is the whole-array sample's entry of the same node. -/
theorem z_row (h1 agg : A Cert.ReferenceIdeal.S100000x64) (eps : A Cert.ReferenceIdeal.S100000x32)
    (Wa : A Cert.ReferenceIdeal.S64x64) (ba : A Cert.ReferenceIdeal.S1x64)
    (Wb : A Cert.ReferenceIdeal.S64x64) (bb : A Cert.ReferenceIdeal.S1x64) (Wm : A Cert.ReferenceIdeal.S64x32) (bm : A Cert.ReferenceIdeal.S1x32)
    (Wl : A Cert.ReferenceIdeal.S64x32) (bl : A Cert.ReferenceIdeal.S1x32)
    (x0 x1 : Vec Ideal Cert.KernelIdeal.S2000x64 .f32) (x2 : Vec Ideal Cert.KernelIdeal.S2000x32 .f32) (i : Fin 100000) (p : Fin 2000)
    (e0 : ∀ j : Fin 64, x0 (ix2 p j) = h1 (ix2 i j)) (e1 : ∀ j : Fin 64, x1 (ix2 p j) = agg (ix2 i j))
    (e2 : ∀ q : Fin 32, x2 (ix2 p q) = eps (ix2 i q)) (q : Fin 32) :
    Gen.k2_pay2 (F := Ideal) (Gen.k2_pay3 (F := Ideal) x0 x1 Wa ba Wb bb) (Gen.k2_pay4 (F := Ideal) x0 x1 Wa ba Wb bb Wm bm) Wl bl x2 (ix2 p q)
      = sample (head (mlpB h1 agg Wa ba Wb bb) Wm bm) (head (mlpB h1 agg Wa ba Wb bb) Wl bl) eps (ix2 i q) := by
  rw [tile_sample, sample_apply, mu_row h1 agg Wa ba Wb bb Wm bm x0 x1 i p e0 e1 q,
    logvar_row h1 agg Wa ba Wb bb Wl bl x0 x1 i p e0 e1 q, e2 q]

end Bridge

section Tiles
open Cert.RefTerms

/-- The first head's tile against the whole-array head, the tile's matrices and bias rows being the arrays'. -/
theorem mu_tile (h1 agg : A Cert.ReferenceIdeal.S100000x64) (Wa : A Cert.ReferenceIdeal.S64x64) (ba : A Cert.ReferenceIdeal.S1x64) (Wb : A Cert.ReferenceIdeal.S64x64) (bb : A Cert.ReferenceIdeal.S1x64) (Wm : A Cert.ReferenceIdeal.S64x32) (bm : A Cert.ReferenceIdeal.S1x32)
    (x0 x1 : Vec Ideal Cert.KernelIdeal.S2000x64 .f32) (x3 : Vec Ideal Cert.KernelIdeal.S64x64 .f32) (x4 : Vec Ideal Cert.KernelIdeal.S1x64 .f32)
    (x5 : Vec Ideal Cert.KernelIdeal.S64x64 .f32) (x6 : Vec Ideal Cert.KernelIdeal.S1x64 .f32) (x7 : Vec Ideal Cert.KernelIdeal.S64x32 .f32) (x8 : Vec Ideal Cert.KernelIdeal.S1x32 .f32)
    (i : Fin 100000) (p : Fin 2000) (e0 : ∀ j : Fin 64, x0 (ix2 p j) = h1 (ix2 i j)) (e1 : ∀ j : Fin 64, x1 (ix2 p j) = agg (ix2 i j))
    (e3 : ∀ y, x3 y = Wa y) (e4 : ∀ y, x4 y = ba y) (e5 : ∀ y, x5 y = Wb y) (e6 : ∀ y, x6 y = bb y) (e7 : ∀ y, x7 y = Wm y) (e8 : ∀ y, x8 y = bm y) (q : Fin 32) :
    Gen.k2_pay4 (F := Ideal) x0 x1 x3 x4 x5 x6 x7 x8 (ix2 p q) = head (mlpB h1 agg Wa ba Wb bb) Wm bm (ix2 i q) := by
  obtain rfl : x3 = Wa := funext e3
  obtain rfl : x4 = ba := funext e4
  obtain rfl : x5 = Wb := funext e5
  obtain rfl : x6 = bb := funext e6
  obtain rfl : x7 = Wm := funext e7
  obtain rfl : x8 = bm := funext e8
  exact mu_row h1 agg x3 x4 x5 x6 x7 x8 x0 x1 i p e0 e1 q

/-- The second head's tile likewise. -/
theorem logvar_tile (h1 agg : A Cert.ReferenceIdeal.S100000x64) (Wa : A Cert.ReferenceIdeal.S64x64) (ba : A Cert.ReferenceIdeal.S1x64) (Wb : A Cert.ReferenceIdeal.S64x64) (bb : A Cert.ReferenceIdeal.S1x64) (Wl : A Cert.ReferenceIdeal.S64x32) (bl : A Cert.ReferenceIdeal.S1x32)
    (x0 x1 : Vec Ideal Cert.KernelIdeal.S2000x64 .f32) (x3 : Vec Ideal Cert.KernelIdeal.S64x64 .f32) (x4 : Vec Ideal Cert.KernelIdeal.S1x64 .f32)
    (x5 : Vec Ideal Cert.KernelIdeal.S64x64 .f32) (x6 : Vec Ideal Cert.KernelIdeal.S1x64 .f32) (x9 : Vec Ideal Cert.KernelIdeal.S64x32 .f32) (x10 : Vec Ideal Cert.KernelIdeal.S1x32 .f32)
    (i : Fin 100000) (p : Fin 2000) (e0 : ∀ j : Fin 64, x0 (ix2 p j) = h1 (ix2 i j)) (e1 : ∀ j : Fin 64, x1 (ix2 p j) = agg (ix2 i j))
    (e3 : ∀ y, x3 y = Wa y) (e4 : ∀ y, x4 y = ba y) (e5 : ∀ y, x5 y = Wb y) (e6 : ∀ y, x6 y = bb y) (e9 : ∀ y, x9 y = Wl y) (e10 : ∀ y, x10 y = bl y) (q : Fin 32) :
    Gen.k2_pay1 (F := Ideal) (Gen.k2_pay3 (F := Ideal) x0 x1 x3 x4 x5 x6) x9 x10 (ix2 p q)
      = head (mlpB h1 agg Wa ba Wb bb) Wl bl (ix2 i q) := by
  obtain rfl : x3 = Wa := funext e3
  obtain rfl : x4 = ba := funext e4
  obtain rfl : x5 = Wb := funext e5
  obtain rfl : x6 = bb := funext e6
  obtain rfl : x9 = Wl := funext e9
  obtain rfl : x10 = bl := funext e10
  exact logvar_row h1 agg x3 x4 x5 x6 x9 x10 x0 x1 i p e0 e1 q

/-- The sample's tile likewise, the noise tile's row `p` being the noise array's row `i`. -/
theorem z_tile (h1 agg : A Cert.ReferenceIdeal.S100000x64) (Wa : A Cert.ReferenceIdeal.S64x64) (ba : A Cert.ReferenceIdeal.S1x64) (Wb : A Cert.ReferenceIdeal.S64x64) (bb : A Cert.ReferenceIdeal.S1x64) (Wm : A Cert.ReferenceIdeal.S64x32) (bm : A Cert.ReferenceIdeal.S1x32) (Wl : A Cert.ReferenceIdeal.S64x32) (bl : A Cert.ReferenceIdeal.S1x32)
    (eps : A Cert.ReferenceIdeal.S100000x32)
    (x0 x1 : Vec Ideal Cert.KernelIdeal.S2000x64 .f32) (x3 : Vec Ideal Cert.KernelIdeal.S64x64 .f32) (x4 : Vec Ideal Cert.KernelIdeal.S1x64 .f32)
    (x5 : Vec Ideal Cert.KernelIdeal.S64x64 .f32) (x6 : Vec Ideal Cert.KernelIdeal.S1x64 .f32) (x7 : Vec Ideal Cert.KernelIdeal.S64x32 .f32) (x8 : Vec Ideal Cert.KernelIdeal.S1x32 .f32)
    (x9 : Vec Ideal Cert.KernelIdeal.S64x32 .f32) (x10 : Vec Ideal Cert.KernelIdeal.S1x32 .f32) (x2 : Vec Ideal Cert.KernelIdeal.S2000x32 .f32)
    (i : Fin 100000) (p : Fin 2000) (e0 : ∀ j : Fin 64, x0 (ix2 p j) = h1 (ix2 i j)) (e1 : ∀ j : Fin 64, x1 (ix2 p j) = agg (ix2 i j))
    (e2 : ∀ q : Fin 32, x2 (ix2 p q) = eps (ix2 i q))
    (e3 : ∀ y, x3 y = Wa y) (e4 : ∀ y, x4 y = ba y) (e5 : ∀ y, x5 y = Wb y) (e6 : ∀ y, x6 y = bb y) (e7 : ∀ y, x7 y = Wm y) (e8 : ∀ y, x8 y = bm y) (e9 : ∀ y, x9 y = Wl y) (e10 : ∀ y, x10 y = bl y) (q : Fin 32) :
    Gen.k2_pay2 (F := Ideal) (Gen.k2_pay3 (F := Ideal) x0 x1 x3 x4 x5 x6) (Gen.k2_pay4 (F := Ideal) x0 x1 x3 x4 x5 x6 x7 x8) x9 x10 x2 (ix2 p q)
      = sample (head (mlpB h1 agg Wa ba Wb bb) Wm bm) (head (mlpB h1 agg Wa ba Wb bb) Wl bl) eps (ix2 i q) := by
  obtain rfl : x3 = Wa := funext e3
  obtain rfl : x4 = ba := funext e4
  obtain rfl : x5 = Wb := funext e5
  obtain rfl : x6 = bb := funext e6
  obtain rfl : x7 = Wm := funext e7
  obtain rfl : x8 = bm := funext e8
  obtain rfl : x9 = Wl := funext e9
  obtain rfl : x10 = bl := funext e10
  exact z_row h1 agg eps x3 x4 x5 x6 x7 x8 x9 x10 x0 x1 x2 i p e0 e1 e2 q

end Tiles

/-! ## From tiles to the arrays

The region runs 50 grid points; point `t` reads rows `2000 t … 2000 t + 1999` of the two feature arrays and of the
noise, and the whole matrices and bias rows, and writes the same rows of the three results.  Each written tile is the
tile of the whole-array term, and the 50 tiles cover the 100000 rows. -/

section Blocks
open Cert.KernelIdeal Cert.KernelIdeal.Gen Idealize.ShloMosaic.TcCoe Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The region's tile-index maps, decided over the 50 grid points: a row-tiled window's tile at point `t` is tile `(t, 0)`
    of its array; a matrix's or a bias row's is the whole array, tile `(0, 0)`. -/
theorem index_feat : ∀ t : Fin cfg2.N, win2_0.index t (0 : Fin 2) = t.val ∧ win2_0.index t (1 : Fin 2) = 0 :=
  (by decide +kernel : ∀ t : Fin grid2.N, _)
theorem index_agg : ∀ t : Fin cfg2.N, win2_1.index t (0 : Fin 2) = t.val ∧ win2_1.index t (1 : Fin 2) = 0 :=
  (by decide +kernel : ∀ t : Fin grid2.N, _)
theorem index_noise : ∀ t : Fin cfg2.N, win2_2.index t (0 : Fin 2) = t.val ∧ win2_2.index t (1 : Fin 2) = 0 :=
  (by decide +kernel : ∀ t : Fin grid2.N, _)
theorem index_Wa : ∀ t : Fin cfg2.N, win2_3.index t (0 : Fin 2) = 0 ∧ win2_3.index t (1 : Fin 2) = 0 :=
  (by decide +kernel : ∀ t : Fin grid2.N, _)
theorem index_ba : ∀ t : Fin cfg2.N, win2_4.index t (0 : Fin 2) = 0 ∧ win2_4.index t (1 : Fin 2) = 0 :=
  (by decide +kernel : ∀ t : Fin grid2.N, _)
theorem index_Wb : ∀ t : Fin cfg2.N, win2_5.index t (0 : Fin 2) = 0 ∧ win2_5.index t (1 : Fin 2) = 0 :=
  (by decide +kernel : ∀ t : Fin grid2.N, _)
theorem index_bb : ∀ t : Fin cfg2.N, win2_6.index t (0 : Fin 2) = 0 ∧ win2_6.index t (1 : Fin 2) = 0 :=
  (by decide +kernel : ∀ t : Fin grid2.N, _)
theorem index_Wmu : ∀ t : Fin cfg2.N, win2_7.index t (0 : Fin 2) = 0 ∧ win2_7.index t (1 : Fin 2) = 0 :=
  (by decide +kernel : ∀ t : Fin grid2.N, _)
theorem index_bmu : ∀ t : Fin cfg2.N, win2_8.index t (0 : Fin 2) = 0 ∧ win2_8.index t (1 : Fin 2) = 0 :=
  (by decide +kernel : ∀ t : Fin grid2.N, _)
theorem index_Wlv : ∀ t : Fin cfg2.N, win2_9.index t (0 : Fin 2) = 0 ∧ win2_9.index t (1 : Fin 2) = 0 :=
  (by decide +kernel : ∀ t : Fin grid2.N, _)
theorem index_blv : ∀ t : Fin cfg2.N, win2_10.index t (0 : Fin 2) = 0 ∧ win2_10.index t (1 : Fin 2) = 0 :=
  (by decide +kernel : ∀ t : Fin grid2.N, _)
theorem index_mu : ∀ t : Fin cfg2.N, win2_11.index t (0 : Fin 2) = t.val ∧ win2_11.index t (1 : Fin 2) = 0 :=
  (by decide +kernel : ∀ t : Fin grid2.N, _)
theorem index_logvar : ∀ t : Fin cfg2.N, win2_12.index t (0 : Fin 2) = t.val ∧ win2_12.index t (1 : Fin 2) = 0 :=
  (by decide +kernel : ∀ t : Fin grid2.N, _)
theorem index_z : ∀ t : Fin cfg2.N, win2_13.index t (0 : Fin 2) = t.val ∧ win2_13.index t (1 : Fin 2) = 0 :=
  (by decide +kernel : ∀ t : Fin grid2.N, _)

/-- Where a tile's entry sits in its array: entry `(p, q)` of the tile at point `t` is entry `(2000 t + p, q)` of a
    row-tiled array, and entry `(p, q)` itself of a matrix or bias row. -/
theorem at_feat (t : Fin cfg2.N) (p : Fin 2000) (q : Fin 64) (hp : t.val * 2000 + p.val < 100000) :
    ((cfg2.win 0).blk t).view.emb (ix2 p q) = (ix2 (⟨t.val * 2000 + p.val, hp⟩ : Fin 100000) q : S100000x64.Idx) := by
  obtain ⟨a0, a1⟩ := index_feat t
  funext a; apply Fin.ext
  match a with
  | ⟨0, _⟩ => show win2_0.index t (0 : Fin 2) * 2000 + 1 * p.val = t.val * 2000 + p.val; omega
  | ⟨1, _⟩ => show win2_0.index t (1 : Fin 2) * 64 + 1 * q.val = q.val; omega
theorem at_agg (t : Fin cfg2.N) (p : Fin 2000) (q : Fin 64) (hp : t.val * 2000 + p.val < 100000) :
    ((cfg2.win 1).blk t).view.emb (ix2 p q) = (ix2 (⟨t.val * 2000 + p.val, hp⟩ : Fin 100000) q : S100000x64.Idx) := by
  obtain ⟨a0, a1⟩ := index_agg t
  funext a; apply Fin.ext
  match a with
  | ⟨0, _⟩ => show win2_1.index t (0 : Fin 2) * 2000 + 1 * p.val = t.val * 2000 + p.val; omega
  | ⟨1, _⟩ => show win2_1.index t (1 : Fin 2) * 64 + 1 * q.val = q.val; omega
theorem at_noise (t : Fin cfg2.N) (p : Fin 2000) (q : Fin 32) (hp : t.val * 2000 + p.val < 100000) :
    ((cfg2.win 2).blk t).view.emb (ix2 p q) = (ix2 (⟨t.val * 2000 + p.val, hp⟩ : Fin 100000) q : S100000x32.Idx) := by
  obtain ⟨a0, a1⟩ := index_noise t
  funext a; apply Fin.ext
  match a with
  | ⟨0, _⟩ => show win2_2.index t (0 : Fin 2) * 2000 + 1 * p.val = t.val * 2000 + p.val; omega
  | ⟨1, _⟩ => show win2_2.index t (1 : Fin 2) * 32 + 1 * q.val = q.val; omega
theorem at_Wa (t : Fin cfg2.N) (y : S64x64.Idx) : ((cfg2.win 3).blk t).view.emb y = y := by
  obtain ⟨a0, a1⟩ := index_Wa t
  funext a; apply Fin.ext
  match a with
  | ⟨0, _⟩ => show win2_3.index t (0 : Fin 2) * 64 + 1 * (y 0).val = (y 0).val; omega
  | ⟨1, _⟩ => show win2_3.index t (1 : Fin 2) * 64 + 1 * (y 1).val = (y 1).val; omega
theorem at_ba (t : Fin cfg2.N) (y : S1x64.Idx) : ((cfg2.win 4).blk t).view.emb y = y := by
  obtain ⟨a0, a1⟩ := index_ba t
  funext a; apply Fin.ext
  match a with
  | ⟨0, _⟩ => show win2_4.index t (0 : Fin 2) * 1 + 1 * (y 0).val = (y 0).val; omega
  | ⟨1, _⟩ => show win2_4.index t (1 : Fin 2) * 64 + 1 * (y 1).val = (y 1).val; omega
theorem at_Wb (t : Fin cfg2.N) (y : S64x64.Idx) : ((cfg2.win 5).blk t).view.emb y = y := by
  obtain ⟨a0, a1⟩ := index_Wb t
  funext a; apply Fin.ext
  match a with
  | ⟨0, _⟩ => show win2_5.index t (0 : Fin 2) * 64 + 1 * (y 0).val = (y 0).val; omega
  | ⟨1, _⟩ => show win2_5.index t (1 : Fin 2) * 64 + 1 * (y 1).val = (y 1).val; omega
theorem at_bb (t : Fin cfg2.N) (y : S1x64.Idx) : ((cfg2.win 6).blk t).view.emb y = y := by
  obtain ⟨a0, a1⟩ := index_bb t
  funext a; apply Fin.ext
  match a with
  | ⟨0, _⟩ => show win2_6.index t (0 : Fin 2) * 1 + 1 * (y 0).val = (y 0).val; omega
  | ⟨1, _⟩ => show win2_6.index t (1 : Fin 2) * 64 + 1 * (y 1).val = (y 1).val; omega
theorem at_Wmu (t : Fin cfg2.N) (y : S64x32.Idx) : ((cfg2.win 7).blk t).view.emb y = y := by
  obtain ⟨a0, a1⟩ := index_Wmu t
  funext a; apply Fin.ext
  match a with
  | ⟨0, _⟩ => show win2_7.index t (0 : Fin 2) * 64 + 1 * (y 0).val = (y 0).val; omega
  | ⟨1, _⟩ => show win2_7.index t (1 : Fin 2) * 32 + 1 * (y 1).val = (y 1).val; omega
theorem at_bmu (t : Fin cfg2.N) (y : S1x32.Idx) : ((cfg2.win 8).blk t).view.emb y = y := by
  obtain ⟨a0, a1⟩ := index_bmu t
  funext a; apply Fin.ext
  match a with
  | ⟨0, _⟩ => show win2_8.index t (0 : Fin 2) * 1 + 1 * (y 0).val = (y 0).val; omega
  | ⟨1, _⟩ => show win2_8.index t (1 : Fin 2) * 32 + 1 * (y 1).val = (y 1).val; omega
theorem at_Wlv (t : Fin cfg2.N) (y : S64x32.Idx) : ((cfg2.win 9).blk t).view.emb y = y := by
  obtain ⟨a0, a1⟩ := index_Wlv t
  funext a; apply Fin.ext
  match a with
  | ⟨0, _⟩ => show win2_9.index t (0 : Fin 2) * 64 + 1 * (y 0).val = (y 0).val; omega
  | ⟨1, _⟩ => show win2_9.index t (1 : Fin 2) * 32 + 1 * (y 1).val = (y 1).val; omega
theorem at_blv (t : Fin cfg2.N) (y : S1x32.Idx) : ((cfg2.win 10).blk t).view.emb y = y := by
  obtain ⟨a0, a1⟩ := index_blv t
  funext a; apply Fin.ext
  match a with
  | ⟨0, _⟩ => show win2_10.index t (0 : Fin 2) * 1 + 1 * (y 0).val = (y 0).val; omega
  | ⟨1, _⟩ => show win2_10.index t (1 : Fin 2) * 32 + 1 * (y 1).val = (y 1).val; omega
theorem at_mu (t : Fin cfg2.N) (p : Fin 2000) (q : Fin 32) (hp : t.val * 2000 + p.val < 100000) :
    ((cfg2.win 11).blk t).view.emb (ix2 p q) = (ix2 (⟨t.val * 2000 + p.val, hp⟩ : Fin 100000) q : S100000x32.Idx) := by
  obtain ⟨a0, a1⟩ := index_mu t
  funext a; apply Fin.ext
  match a with
  | ⟨0, _⟩ => show win2_11.index t (0 : Fin 2) * 2000 + 1 * p.val = t.val * 2000 + p.val; omega
  | ⟨1, _⟩ => show win2_11.index t (1 : Fin 2) * 32 + 1 * q.val = q.val; omega
theorem at_logvar (t : Fin cfg2.N) (p : Fin 2000) (q : Fin 32) (hp : t.val * 2000 + p.val < 100000) :
    ((cfg2.win 12).blk t).view.emb (ix2 p q) = (ix2 (⟨t.val * 2000 + p.val, hp⟩ : Fin 100000) q : S100000x32.Idx) := by
  obtain ⟨a0, a1⟩ := index_logvar t
  funext a; apply Fin.ext
  match a with
  | ⟨0, _⟩ => show win2_12.index t (0 : Fin 2) * 2000 + 1 * p.val = t.val * 2000 + p.val; omega
  | ⟨1, _⟩ => show win2_12.index t (1 : Fin 2) * 32 + 1 * q.val = q.val; omega
theorem at_z (t : Fin cfg2.N) (p : Fin 2000) (q : Fin 32) (hp : t.val * 2000 + p.val < 100000) :
    ((cfg2.win 13).blk t).view.emb (ix2 p q) = (ix2 (⟨t.val * 2000 + p.val, hp⟩ : Fin 100000) q : S100000x32.Idx) := by
  obtain ⟨a0, a1⟩ := index_z t
  funext a; apply Fin.ext
  match a with
  | ⟨0, _⟩ => show win2_13.index t (0 : Fin 2) * 2000 + 1 * p.val = t.val * 2000 + p.val; omega
  | ⟨1, _⟩ => show win2_13.index t (1 : Fin 2) * 32 + 1 * q.val = q.val; omega

/-- What point `t` writes back to the mu array is tile `t` of the whole-array term. -/
theorem mu_flushed (c : Dev nD) (t : Fin cfg2.N) :
    (dat2 V c).flushed 11 t = ((cfg2.win 11).blk t).view.read (Elt Ideal) (Cert.RefTerms.head (Cert.RefTerms.mlpB (V c main_call0_v27_0) (V c main_call0_v41) (V c main_arg13) (V c main_call0_v42) (V c main_arg15) (V c main_call0_v43)) (V c main_arg17) (V c main_call0_v44)) := by
  show (cfg2.win 11).cut (grid2.coords t) ((dat2 V c).after 11 t) = _
  rw [after2_11]
  unfold out2_11
  rw [View.canon_unit_zero zero_offsets]
  simp only [View.ld_unit_zero (S := S2000x64) zero_offsets, View.ld_unit_zero (S := S2000x32) zero_offsets,
    View.ld_unit_zero (S := S64x64) zero_offsets, View.ld_unit_zero (S := S1x64) zero_offsets,
    View.ld_unit_zero (S := S64x32) zero_offsets, View.ld_unit_zero (S := S1x32) zero_offsets]
  funext j
  obtain ⟨p, q, rfl⟩ : ∃ (p : Fin 2000) (q : Fin 32), j = ix2 p q := ⟨j 0, j 1, eq_ix2 j⟩
  have hp : t.val * 2000 + p.val < 100000 := by
    have ht : t.val < 50 := t.isLt
    have := p.isLt
    omega
  show k2_pay4 (F := Ideal) (iblk2 V c 0 t) (iblk2 V c 1 t) (iblk2 V c 3 t) (iblk2 V c 4 t) (iblk2 V c 5 t) (iblk2 V c 6 t) (iblk2 V c 7 t) (iblk2 V c 8 t) (ix2 p q) = (Cert.RefTerms.head (Cert.RefTerms.mlpB (V c main_call0_v27_0) (V c main_call0_v41) (V c main_arg13) (V c main_call0_v42) (V c main_arg15) (V c main_call0_v43)) (V c main_arg17) (V c main_call0_v44)) (((cfg2.win 11).blk t).view.emb (ix2 p q))
  rw [at_mu t p q hp]
  exact mu_tile (V c main_call0_v27_0) (V c main_call0_v41) (V c main_arg13) (V c main_call0_v42) (V c main_arg15) (V c main_call0_v43) (V c main_arg17) (V c main_call0_v44)
    (iblk2 V c 0 t) (iblk2 V c 1 t) (iblk2 V c 3 t) (iblk2 V c 4 t) (iblk2 V c 5 t) (iblk2 V c 6 t) (iblk2 V c 7 t) (iblk2 V c 8 t)
    ⟨t.val * 2000 + p.val, hp⟩ p (fun j => congrArg (V c main_call0_v27_0) (at_feat t p j hp)) (fun j => congrArg (V c main_call0_v41) (at_agg t p j hp))
    (fun y => congrArg (V c main_arg13) (at_Wa t y)) (fun y => congrArg (V c main_call0_v42) (at_ba t y)) (fun y => congrArg (V c main_arg15) (at_Wb t y)) (fun y => congrArg (V c main_call0_v43) (at_bb t y)) (fun y => congrArg (V c main_arg17) (at_Wmu t y)) (fun y => congrArg (V c main_call0_v44) (at_bmu t y)) q

/-- What point `t` writes back to the logvar array is tile `t` of the whole-array term. -/
theorem logvar_flushed (c : Dev nD) (t : Fin cfg2.N) :
    (dat2 V c).flushed 12 t = ((cfg2.win 12).blk t).view.read (Elt Ideal) (Cert.RefTerms.head (Cert.RefTerms.mlpB (V c main_call0_v27_0) (V c main_call0_v41) (V c main_arg13) (V c main_call0_v42) (V c main_arg15) (V c main_call0_v43)) (V c main_arg19) (V c main_call0_v45)) := by
  show (cfg2.win 12).cut (grid2.coords t) ((dat2 V c).after 12 t) = _
  rw [after2_12]
  unfold out2_12
  rw [View.canon_unit_zero zero_offsets]
  simp only [View.ld_unit_zero (S := S2000x64) zero_offsets, View.ld_unit_zero (S := S2000x32) zero_offsets,
    View.ld_unit_zero (S := S64x64) zero_offsets, View.ld_unit_zero (S := S1x64) zero_offsets,
    View.ld_unit_zero (S := S64x32) zero_offsets, View.ld_unit_zero (S := S1x32) zero_offsets]
  funext j
  obtain ⟨p, q, rfl⟩ : ∃ (p : Fin 2000) (q : Fin 32), j = ix2 p q := ⟨j 0, j 1, eq_ix2 j⟩
  have hp : t.val * 2000 + p.val < 100000 := by
    have ht : t.val < 50 := t.isLt
    have := p.isLt
    omega
  show k2_pay1 (F := Ideal) (k2_pay3 (F := Ideal) (iblk2 V c 0 t) (iblk2 V c 1 t) (iblk2 V c 3 t) (iblk2 V c 4 t) (iblk2 V c 5 t) (iblk2 V c 6 t)) (iblk2 V c 9 t) (iblk2 V c 10 t) (ix2 p q) = (Cert.RefTerms.head (Cert.RefTerms.mlpB (V c main_call0_v27_0) (V c main_call0_v41) (V c main_arg13) (V c main_call0_v42) (V c main_arg15) (V c main_call0_v43)) (V c main_arg19) (V c main_call0_v45)) (((cfg2.win 12).blk t).view.emb (ix2 p q))
  rw [at_logvar t p q hp]
  exact logvar_tile (V c main_call0_v27_0) (V c main_call0_v41) (V c main_arg13) (V c main_call0_v42) (V c main_arg15) (V c main_call0_v43) (V c main_arg19) (V c main_call0_v45)
    (iblk2 V c 0 t) (iblk2 V c 1 t) (iblk2 V c 3 t) (iblk2 V c 4 t) (iblk2 V c 5 t) (iblk2 V c 6 t) (iblk2 V c 9 t) (iblk2 V c 10 t)
    ⟨t.val * 2000 + p.val, hp⟩ p (fun j => congrArg (V c main_call0_v27_0) (at_feat t p j hp)) (fun j => congrArg (V c main_call0_v41) (at_agg t p j hp))
    (fun y => congrArg (V c main_arg13) (at_Wa t y)) (fun y => congrArg (V c main_call0_v42) (at_ba t y)) (fun y => congrArg (V c main_arg15) (at_Wb t y)) (fun y => congrArg (V c main_call0_v43) (at_bb t y)) (fun y => congrArg (V c main_arg19) (at_Wlv t y)) (fun y => congrArg (V c main_call0_v45) (at_blv t y)) q

set_option maxHeartbeats 1000000 in
/-- What point `t` writes back to the z array is tile `t` of the whole-array term. -/
theorem z_flushed (c : Dev nD) (t : Fin cfg2.N) :
    (dat2 V c).flushed 13 t = ((cfg2.win 13).blk t).view.read (Elt Ideal) (Cert.RefTerms.sample (Cert.RefTerms.head (Cert.RefTerms.mlpB (V c main_call0_v27_0) (V c main_call0_v41) (V c main_arg13) (V c main_call0_v42) (V c main_arg15) (V c main_call0_v43)) (V c main_arg17) (V c main_call0_v44)) (Cert.RefTerms.head (Cert.RefTerms.mlpB (V c main_call0_v27_0) (V c main_call0_v41) (V c main_arg13) (V c main_call0_v42) (V c main_arg15) (V c main_call0_v43)) (V c main_arg19) (V c main_call0_v45)) (V c main_arg4)) := by
  show (cfg2.win 13).cut (grid2.coords t) ((dat2 V c).after 13 t) = _
  rw [after2_13]
  unfold out2_13
  rw [View.canon_unit_zero zero_offsets]
  simp only [View.ld_unit_zero (S := S2000x64) zero_offsets, View.ld_unit_zero (S := S2000x32) zero_offsets,
    View.ld_unit_zero (S := S64x64) zero_offsets, View.ld_unit_zero (S := S1x64) zero_offsets,
    View.ld_unit_zero (S := S64x32) zero_offsets, View.ld_unit_zero (S := S1x32) zero_offsets]
  funext j
  obtain ⟨p, q, rfl⟩ : ∃ (p : Fin 2000) (q : Fin 32), j = ix2 p q := ⟨j 0, j 1, eq_ix2 j⟩
  have hp : t.val * 2000 + p.val < 100000 := by
    have ht : t.val < 50 := t.isLt
    have := p.isLt
    omega
  show k2_pay2 (F := Ideal) (k2_pay3 (F := Ideal) (iblk2 V c 0 t) (iblk2 V c 1 t) (iblk2 V c 3 t) (iblk2 V c 4 t) (iblk2 V c 5 t) (iblk2 V c 6 t)) (k2_pay4 (F := Ideal) (iblk2 V c 0 t) (iblk2 V c 1 t) (iblk2 V c 3 t) (iblk2 V c 4 t) (iblk2 V c 5 t) (iblk2 V c 6 t) (iblk2 V c 7 t) (iblk2 V c 8 t)) (iblk2 V c 9 t) (iblk2 V c 10 t) (iblk2 V c 2 t) (ix2 p q) = (Cert.RefTerms.sample (Cert.RefTerms.head (Cert.RefTerms.mlpB (V c main_call0_v27_0) (V c main_call0_v41) (V c main_arg13) (V c main_call0_v42) (V c main_arg15) (V c main_call0_v43)) (V c main_arg17) (V c main_call0_v44)) (Cert.RefTerms.head (Cert.RefTerms.mlpB (V c main_call0_v27_0) (V c main_call0_v41) (V c main_arg13) (V c main_call0_v42) (V c main_arg15) (V c main_call0_v43)) (V c main_arg19) (V c main_call0_v45)) (V c main_arg4)) (((cfg2.win 13).blk t).view.emb (ix2 p q))
  rw [at_z t p q hp]
  exact z_tile (V c main_call0_v27_0) (V c main_call0_v41) (V c main_arg13) (V c main_call0_v42) (V c main_arg15) (V c main_call0_v43) (V c main_arg17) (V c main_call0_v44) (V c main_arg19) (V c main_call0_v45) (V c main_arg4)
    (iblk2 V c 0 t) (iblk2 V c 1 t) (iblk2 V c 3 t) (iblk2 V c 4 t) (iblk2 V c 5 t) (iblk2 V c 6 t) (iblk2 V c 7 t) (iblk2 V c 8 t) (iblk2 V c 9 t) (iblk2 V c 10 t) (iblk2 V c 2 t)
    ⟨t.val * 2000 + p.val, hp⟩ p (fun j => congrArg (V c main_call0_v27_0) (at_feat t p j hp)) (fun j => congrArg (V c main_call0_v41) (at_agg t p j hp)) (fun j => congrArg (V c main_arg4) (at_noise t p j hp))
    (fun y => congrArg (V c main_arg13) (at_Wa t y)) (fun y => congrArg (V c main_call0_v42) (at_ba t y)) (fun y => congrArg (V c main_arg15) (at_Wb t y)) (fun y => congrArg (V c main_call0_v43) (at_bb t y)) (fun y => congrArg (V c main_arg17) (at_Wmu t y)) (fun y => congrArg (V c main_call0_v44) (at_bmu t y)) (fun y => congrArg (V c main_arg19) (at_Wlv t y)) (fun y => congrArg (V c main_call0_v45) (at_blv t y)) q

/-- An entry of the mu array lies in point `t`'s tile iff each coordinate lies in the tile's range on its axis. -/
theorem mem_mu (t : Fin cfg2.N) (i : S100000x32.Idx) :
    i ∈ ((cfg2.win 11).blk t).view.set ↔ ∀ a : Fin 2, win2_11.index t a * S2000x32.size a ≤ (i a).val ∧ (i a).val < win2_11.index t a * S2000x32.size a + S2000x32.size a := by
  show i ∈ ((View.whole main_v0_1).slice (win2_11.rect t)).set ↔ _
  rw [View.set_slice_whole, Rect.mem_set_unit]
  exact Iff.rfl

/-- Every entry of the mu array is written: row `r` by point `r / 2000`. -/
theorem cover_mu (i : S100000x32.Idx) : ∃ t : Fin cfg2.N, (cfg2.win 11).flush t = true ∧ i ∈ ((cfg2.win 11).blk t).view.set := by
  have hi0 : (i 0).val < 100000 := (i 0).isLt
  have hi1 : (i 1).val < 32 := (i 1).isLt
  have hN : cfg2.N = 50 := N_2
  have ht : (i 0).val / 2000 < cfg2.N := by rw [hN]; omega
  obtain ⟨a0, a1⟩ := index_mu ⟨(i 0).val / 2000, ht⟩
  refine ⟨⟨(i 0).val / 2000, ht⟩, flush2_11 _, ?_⟩
  rw [mem_mu]
  intro a
  match a with
  | ⟨0, _⟩ =>
    show win2_11.index ⟨(i 0).val / 2000, ht⟩ (0 : Fin 2) * 2000 ≤ (i 0).val
      ∧ (i 0).val < win2_11.index ⟨(i 0).val / 2000, ht⟩ (0 : Fin 2) * 2000 + 2000
    rw [a0]
    show (i 0).val / 2000 * 2000 ≤ (i 0).val ∧ (i 0).val < (i 0).val / 2000 * 2000 + 2000
    omega
  | ⟨1, _⟩ =>
    show win2_11.index ⟨(i 0).val / 2000, ht⟩ (1 : Fin 2) * 32 ≤ (i 1).val
      ∧ (i 1).val < win2_11.index ⟨(i 0).val / 2000, ht⟩ (1 : Fin 2) * 32 + 32
    rw [a1]
    omega

/-- An entry of the logvar array lies in point `t`'s tile iff each coordinate lies in the tile's range on its axis. -/
theorem mem_logvar (t : Fin cfg2.N) (i : S100000x32.Idx) :
    i ∈ ((cfg2.win 12).blk t).view.set ↔ ∀ a : Fin 2, win2_12.index t a * S2000x32.size a ≤ (i a).val ∧ (i a).val < win2_12.index t a * S2000x32.size a + S2000x32.size a := by
  show i ∈ ((View.whole main_v0_2).slice (win2_12.rect t)).set ↔ _
  rw [View.set_slice_whole, Rect.mem_set_unit]
  exact Iff.rfl

/-- Every entry of the logvar array is written: row `r` by point `r / 2000`. -/
theorem cover_logvar (i : S100000x32.Idx) : ∃ t : Fin cfg2.N, (cfg2.win 12).flush t = true ∧ i ∈ ((cfg2.win 12).blk t).view.set := by
  have hi0 : (i 0).val < 100000 := (i 0).isLt
  have hi1 : (i 1).val < 32 := (i 1).isLt
  have hN : cfg2.N = 50 := N_2
  have ht : (i 0).val / 2000 < cfg2.N := by rw [hN]; omega
  obtain ⟨a0, a1⟩ := index_logvar ⟨(i 0).val / 2000, ht⟩
  refine ⟨⟨(i 0).val / 2000, ht⟩, flush2_12 _, ?_⟩
  rw [mem_logvar]
  intro a
  match a with
  | ⟨0, _⟩ =>
    show win2_12.index ⟨(i 0).val / 2000, ht⟩ (0 : Fin 2) * 2000 ≤ (i 0).val
      ∧ (i 0).val < win2_12.index ⟨(i 0).val / 2000, ht⟩ (0 : Fin 2) * 2000 + 2000
    rw [a0]
    show (i 0).val / 2000 * 2000 ≤ (i 0).val ∧ (i 0).val < (i 0).val / 2000 * 2000 + 2000
    omega
  | ⟨1, _⟩ =>
    show win2_12.index ⟨(i 0).val / 2000, ht⟩ (1 : Fin 2) * 32 ≤ (i 1).val
      ∧ (i 1).val < win2_12.index ⟨(i 0).val / 2000, ht⟩ (1 : Fin 2) * 32 + 32
    rw [a1]
    omega

/-- An entry of the z array lies in point `t`'s tile iff each coordinate lies in the tile's range on its axis. -/
theorem mem_z (t : Fin cfg2.N) (i : S100000x32.Idx) :
    i ∈ ((cfg2.win 13).blk t).view.set ↔ ∀ a : Fin 2, win2_13.index t a * S2000x32.size a ≤ (i a).val ∧ (i a).val < win2_13.index t a * S2000x32.size a + S2000x32.size a := by
  show i ∈ ((View.whole main_v0_0).slice (win2_13.rect t)).set ↔ _
  rw [View.set_slice_whole, Rect.mem_set_unit]
  exact Iff.rfl

/-- Every entry of the z array is written: row `r` by point `r / 2000`. -/
theorem cover_z (i : S100000x32.Idx) : ∃ t : Fin cfg2.N, (cfg2.win 13).flush t = true ∧ i ∈ ((cfg2.win 13).blk t).view.set := by
  have hi0 : (i 0).val < 100000 := (i 0).isLt
  have hi1 : (i 1).val < 32 := (i 1).isLt
  have hN : cfg2.N = 50 := N_2
  have ht : (i 0).val / 2000 < cfg2.N := by rw [hN]; omega
  obtain ⟨a0, a1⟩ := index_z ⟨(i 0).val / 2000, ht⟩
  refine ⟨⟨(i 0).val / 2000, ht⟩, flush2_13 _, ?_⟩
  rw [mem_z]
  intro a
  match a with
  | ⟨0, _⟩ =>
    show win2_13.index ⟨(i 0).val / 2000, ht⟩ (0 : Fin 2) * 2000 ≤ (i 0).val
      ∧ (i 0).val < win2_13.index ⟨(i 0).val / 2000, ht⟩ (0 : Fin 2) * 2000 + 2000
    rw [a0]
    show (i 0).val / 2000 * 2000 ≤ (i 0).val ∧ (i 0).val < (i 0).val / 2000 * 2000 + 2000
    omega
  | ⟨1, _⟩ =>
    show win2_13.index ⟨(i 0).val / 2000, ht⟩ (1 : Fin 2) * 32 ≤ (i 1).val
      ∧ (i 1).val < win2_13.index ⟨(i 0).val / 2000, ht⟩ (1 : Fin 2) * 32 + 32
    rw [a1]
    omega

/-- The mean array after the region: the first head of the second perceptron of the region's input arrays. -/
theorem final2_11 (c : Dev nD) : (dat2 (F := Ideal) V c).arrAt 11 cfg2.N = (Cert.RefTerms.head (Cert.RefTerms.mlpB (V c main_call0_v27_0) (V c main_call0_v41) (V c main_arg13) (V c main_call0_v42) (V c main_arg15) (V c main_call0_v43)) (V c main_arg17) (V c main_call0_v44)) :=
  (dat2 V c).arrAt_eq_of_cover 11 _ (fun t _ => mu_flushed V c t) cover_mu

/-- The log-variance array after the region: the second head. -/
theorem final2_12 (c : Dev nD) : (dat2 (F := Ideal) V c).arrAt 12 cfg2.N = (Cert.RefTerms.head (Cert.RefTerms.mlpB (V c main_call0_v27_0) (V c main_call0_v41) (V c main_arg13) (V c main_call0_v42) (V c main_arg15) (V c main_call0_v43)) (V c main_arg19) (V c main_call0_v45)) :=
  (dat2 V c).arrAt_eq_of_cover 12 _ (fun t _ => logvar_flushed V c t) cover_logvar

/-- The sample array after the region: mean plus noise times the exponential of half the log-variance. -/
theorem final2_13 (c : Dev nD) : (dat2 (F := Ideal) V c).arrAt 13 cfg2.N = (Cert.RefTerms.sample (Cert.RefTerms.head (Cert.RefTerms.mlpB (V c main_call0_v27_0) (V c main_call0_v41) (V c main_arg13) (V c main_call0_v42) (V c main_arg15) (V c main_call0_v43)) (V c main_arg17) (V c main_call0_v44)) (Cert.RefTerms.head (Cert.RefTerms.mlpB (V c main_call0_v27_0) (V c main_call0_v41) (V c main_arg13) (V c main_call0_v42) (V c main_arg15) (V c main_call0_v43)) (V c main_arg19) (V c main_call0_v45)) (V c main_arg4)) :=
  (dat2 V c).arrAt_eq_of_cover 13 _ (fun t _ => z_flushed V c t) cover_z

end Blocks

end Cert.KernelIdeal.RegionVae

end
-- ==== Proof.KValue.lean ====
/-
  The kernel program's four results at the ideal instance, as the reference's whole-array terms of the argument
  arrays.  The run leaves every buffer at the last of a chain of valuations (the launch memory, then alternately a
  stretch of host operations and a tiled stage); each result is walked back along that chain:

    the samples, means and log-variances are the third stage's three output arrays, functions of the first stage's
    node features, the layer-2 aggregation and the weights; the node features are the second stage's output, a
    function of the layer-1 column; the layer-2 aggregation gathers from the second stage's short-format copy of the
    same features and adds the first stage's edge encoding; the class scores are the fourth stage's output, a
    function of the per-graph mean of the samples.

  Every step is one of: a stage's output array as a function of the arrays it finds (the stage's own theorem), a
  stretch's result as a function of what it finds, a buffer no operation in between writes, or a bias vector laid
  as a row.
-/
import proofs.«118365_j37108517438028_2_alg».proof.Proof.KRun
import proofs.«118365_j37108517438028_2_alg».proof.Proof.KHost
import proofs.«118365_j37108517438028_2_alg».proof.Proof.KGlue
import proofs.«118365_j37108517438028_2_alg».proof.Proof.RowGlue
import proofs.«118365_j37108517438028_2_alg».proof.Proof.RegionLinear
import proofs.«118365_j37108517438028_2_alg».proof.Proof.RegionMlpA
import proofs.«118365_j37108517438028_2_alg».proof.Proof.RegionVae

noncomputable section

namespace Cert.KernelIdeal.KValue

open Idealize.ShloMosaic Idealize.ShloMosaic.TcCoe Idealize.SL.Sem
open Cert.KernelIdeal Cert.KernelIdeal.Gen Cert.KernelIdeal.KRun Cert.KernelIdeal.KHost Cert.KernelIdeal.KGlue
open Cert.RefTerms (Args A I srcRow dstRow encA encE preA aggB mlpA mlpB head sample classify pool row64 row32 row6)

variable (m : (ℓ : Loc nD τ sig) → Buf (Elt Ideal) ℓ) (ρ : Dev nD → PrngReg)

/-- The argument arrays read off the launch memory. -/
def argsOf (c : Dev nD) : Args where
  x := m ((c.tc : Thread nD τ).loc main_arg0)
  ei := m ((c.tc : Thread nD τ).loc main_arg1)
  ea := m ((c.tc : Thread nD τ).loc main_arg2)
  batch := m ((c.tc : Thread nD τ).loc main_arg3)
  eps := m ((c.tc : Thread nD τ).loc main_arg4)
  We1 := m ((c.tc : Thread nD τ).loc main_arg5)
  be1 := m ((c.tc : Thread nD τ).loc main_arg6)
  W1a := m ((c.tc : Thread nD τ).loc main_arg7)
  b1a := m ((c.tc : Thread nD τ).loc main_arg8)
  W1b := m ((c.tc : Thread nD τ).loc main_arg9)
  b1b := m ((c.tc : Thread nD τ).loc main_arg10)
  We2 := m ((c.tc : Thread nD τ).loc main_arg11)
  be2 := m ((c.tc : Thread nD τ).loc main_arg12)
  W2a := m ((c.tc : Thread nD τ).loc main_arg13)
  b2a := m ((c.tc : Thread nD τ).loc main_arg14)
  W2b := m ((c.tc : Thread nD τ).loc main_arg15)
  b2b := m ((c.tc : Thread nD τ).loc main_arg16)
  Wmu := m ((c.tc : Thread nD τ).loc main_arg17)
  bmu := m ((c.tc : Thread nD τ).loc main_arg18)
  Wlv := m ((c.tc : Thread nD τ).loc main_arg19)
  blv := m ((c.tc : Thread nD τ).loc main_arg20)
  Wcls := m ((c.tc : Thread nD τ).loc main_arg21)
  bcls := m ((c.tc : Thread nD τ).loc main_arg22)

/-! ## The edge table's rows and the layer-1 edge encoding, carried along the chain -/

theorem w1_src (c : Dev nD) : W1 m ρ c (Proc.devRef .tc main_call0_v1) = srcRow (argsOf m c).ei :=
  ops0_src (W0 m ρ c)
theorem w1_dst (c : Dev nD) : W1 m ρ c (Proc.devRef .tc main_call0_v3) = dstRow (argsOf m c).ei :=
  ops0_dst (W0 m ρ c)
theorem w1_e1 (c : Dev nD) : W1 m ρ c (Proc.devRef .tc main_call0_v8)
    = shapeCast S1600000 (encA (argsOf m c).ea (argsOf m c).We1 (argsOf m c).be1) Facts₀.shapeCasts_S1600000x1_S1600000 :=
  ops0_e1 (W0 m ρ c)

theorem w2_src (c : Dev nD) : W2 m ρ c (Proc.devRef .tc main_call0_v1) = srcRow (argsOf m c).ei :=
  (W2_of_ne m ρ c main_call0_v1 (by decide)).trans (w1_src m ρ c)
theorem w2_dst (c : Dev nD) : W2 m ρ c (Proc.devRef .tc main_call0_v3) = dstRow (argsOf m c).ei :=
  (W2_of_ne m ρ c main_call0_v3 (by decide)).trans (w1_dst m ρ c)
theorem w2_e1 (c : Dev nD) : W2 m ρ c (Proc.devRef .tc main_call0_v8)
    = shapeCast S1600000 (encA (argsOf m c).ea (argsOf m c).We1 (argsOf m c).be1) Facts₀.shapeCasts_S1600000x1_S1600000 :=
  (W2_of_ne m ρ c main_call0_v8 (by decide)).trans (w1_e1 m ρ c)

theorem w4_src (c : Dev nD) : W4 m ρ c (Proc.devRef .tc main_call0_v1) = srcRow (argsOf m c).ei :=
  (W4_of_ne m ρ c main_call0_v1 (by decide)).trans ((keep1 (W2 m ρ c) main_call0_v1 (by decide)).trans (w2_src m ρ c))
theorem w4_dst (c : Dev nD) : W4 m ρ c (Proc.devRef .tc main_call0_v3) = dstRow (argsOf m c).ei :=
  (W4_of_ne m ρ c main_call0_v3 (by decide)).trans ((keep1 (W2 m ρ c) main_call0_v3 (by decide)).trans (w2_dst m ρ c))

/-! ## Stage 1: the layer-2 edge encoding -/

theorem v1_be2 (c : Dev nD) : V1 m ρ c main_call0_v9 = row64 (argsOf m c).be2 :=
  (ops0_be2 (W0 m ρ c)).trans (Cert.RowGlue.row64_eq _)

/-- The first stage's output as the layer-2 aggregation finds it: the reference's layer-2 edge encoding. -/
theorem w4_enc (c : Dev nD) : W4 m ρ c (Proc.devRef .tc main_call0_v10)
    = encE (argsOf m c).ea (argsOf m c).We2 (row64 (argsOf m c).be2) := by
  rw [w4_e2 m ρ c, Cert.KernelIdeal.RegionLinear.final0_3 (V1 m ρ) c, V1_arg2 m ρ c, V1_arg11 m ρ c, v1_be2 m ρ c]
  rfl

/-! ## Stage 2: the node features after layer 1 -/

/-- The column the second stage reads: layer 1 before its perceptron. -/
theorem v3_col (c : Dev nD) : V3 m ρ c main_call0_v24
    = preA (argsOf m c).x (argsOf m c).ei (argsOf m c).ea (argsOf m c).We1 (argsOf m c).be1 := by
  refine (ops1_col (W2 m ρ c)).trans ?_
  simp only [rd]
  rw [W2_arg0 m ρ c, w2_src m ρ c, w2_dst m ρ c, w2_e1 m ρ c]
  exact preK_eq _ _ _ _ _
theorem v3_b1a (c : Dev nD) : V3 m ρ c main_call0_v25 = row64 (argsOf m c).b1a := by
  refine (ops1_b1a (W2 m ρ c)).trans ?_
  simp only [rd]
  rw [W2_arg8 m ρ c]
  exact Cert.RowGlue.row64_eq _
theorem v3_b1b (c : Dev nD) : V3 m ρ c main_call0_v26 = row64 (argsOf m c).b1b := by
  refine (ops1_b1b (W2 m ρ c)).trans ?_
  simp only [rd]
  rw [W2_arg10 m ρ c]
  exact Cert.RowGlue.row64_eq _

/-- What the second stage computes from what it finds: the reference's node features after layer 1. -/
theorem stage2 (c : Dev nD) :
    mlpA (V3 m ρ c main_call0_v24) (V3 m ρ c main_arg7) (V3 m ρ c main_call0_v25) (V3 m ρ c main_arg9) (V3 m ρ c main_call0_v26)
      = Cert.RefTerms.h1 (argsOf m c) := by
  rw [v3_col m ρ c, V3_arg7 m ρ c, v3_b1a m ρ c, V3_arg9 m ρ c, v3_b1b m ρ c]
  rfl

theorem v5_h1 (c : Dev nD) : V5 m ρ c main_call0_v27_0 = Cert.RefTerms.h1 (argsOf m c) := by
  rw [in5_h1 m ρ c, Cert.KernelIdeal.RegionMlpA.final1_5 (V3 m ρ) c]
  exact stage2 m ρ c
theorem w4_h1 (c : Dev nD) : W4 m ρ c (Proc.devRef .tc main_call0_v27_1) = Cert.RefTerms.h1 (argsOf m c) := by
  rw [w4_h1b m ρ c, Cert.KernelIdeal.RegionMlpA.final1_6 (V3 m ρ) c]
  exact stage2 m ρ c

/-! ## Stage 3: layer 2 and the variational head -/

/-- The layer-2 aggregation the third stage reads. -/
theorem v5_agg (c : Dev nD) : V5 m ρ c main_call0_v41
    = aggB (Cert.RefTerms.h1 (argsOf m c)) (argsOf m c).ei (encE (argsOf m c).ea (argsOf m c).We2 (row64 (argsOf m c).be2)) := by
  refine (ops2_agg (W4 m ρ c)).trans ?_
  simp only [rd]
  rw [w4_h1 m ρ c, w4_src m ρ c, w4_dst m ρ c, w4_enc m ρ c]
  exact aggK_eq _ _ _
theorem v5_b2a (c : Dev nD) : V5 m ρ c main_call0_v42 = row64 (argsOf m c).b2a := by
  refine (ops2_b2a (W4 m ρ c)).trans ?_
  simp only [rd]
  rw [W4_arg14 m ρ c]
  exact Cert.RowGlue.row64_eq _
theorem v5_b2b (c : Dev nD) : V5 m ρ c main_call0_v43 = row64 (argsOf m c).b2b := by
  refine (ops2_b2b (W4 m ρ c)).trans ?_
  simp only [rd]
  rw [W4_arg16 m ρ c]
  exact Cert.RowGlue.row64_eq _
theorem v5_bmu (c : Dev nD) : V5 m ρ c main_call0_v44 = row32 (argsOf m c).bmu := by
  refine (ops2_bmu (W4 m ρ c)).trans ?_
  simp only [rd]
  rw [W4_arg18 m ρ c]
  exact Cert.RowGlue.row32_eq _
theorem v5_blv (c : Dev nD) : V5 m ρ c main_call0_v45 = row32 (argsOf m c).blv := by
  refine (ops2_blv (W4 m ρ c)).trans ?_
  simp only [rd]
  rw [W4_arg20 m ρ c]
  exact Cert.RowGlue.row32_eq _

/-- The node features after layer 2, from what the third stage finds. -/
theorem stage3_h2 (c : Dev nD) :
    mlpB (V5 m ρ c main_call0_v27_0) (V5 m ρ c main_call0_v41) (V5 m ρ c main_arg13) (V5 m ρ c main_call0_v42)
        (V5 m ρ c main_arg15) (V5 m ρ c main_call0_v43)
      = Cert.RefTerms.h2 (argsOf m c) := by
  rw [v5_h1 m ρ c, v5_agg m ρ c, V5_arg13 m ρ c, v5_b2a m ρ c, V5_arg15 m ρ c, v5_b2b m ρ c]
  rfl

theorem mu_eq (c : Dev nD) : W8 m ρ c (Proc.devRef .tc main_v0_1) = Cert.RefTerms.mu (argsOf m c) := by
  rw [out_mu m ρ c, Cert.KernelIdeal.RegionVae.final2_11 (V5 m ρ) c, stage3_h2 m ρ c, V5_arg17 m ρ c, v5_bmu m ρ c]
  rfl
theorem logvar_eq (c : Dev nD) : W8 m ρ c (Proc.devRef .tc main_v0_2) = Cert.RefTerms.logvar (argsOf m c) := by
  rw [out_logvar m ρ c, Cert.KernelIdeal.RegionVae.final2_12 (V5 m ρ) c, stage3_h2 m ρ c, V5_arg19 m ρ c, v5_blv m ρ c]
  rfl
theorem z_at (c : Dev nD) : (dat2 (V5 m ρ) c).arrAt 13 cfg2.N = Cert.RefTerms.z (argsOf m c) := by
  rw [Cert.KernelIdeal.RegionVae.final2_13 (V5 m ρ) c, stage3_h2 m ρ c, V5_arg17 m ρ c, v5_bmu m ρ c, V5_arg19 m ρ c, v5_blv m ρ c,
    V5_arg4 m ρ c]
  rfl
theorem z_eq (c : Dev nD) : W8 m ρ c (Proc.devRef .tc main_v0_0) = Cert.RefTerms.z (argsOf m c) :=
  (out_z m ρ c).trans (z_at m ρ c)

/-! ## Stage 4: the class scores -/

theorem v7_pool (c : Dev nD) : V7 m ρ c main_call0_v58 = pool (Cert.RefTerms.z (argsOf m c)) (argsOf m c).batch := by
  refine (ops3_pool (W6 m ρ c)).trans ?_
  simp only [rd]
  rw [w6_z m ρ c, z_at m ρ c, W6_arg3 m ρ c]
  rfl
theorem v7_bcls (c : Dev nD) : V7 m ρ c main_call0_v59 = row6 (argsOf m c).bcls := by
  refine (ops3_bcls (W6 m ρ c)).trans ?_
  simp only [rd]
  rw [W6_arg22 m ρ c]
  exact Cert.RowGlue.row6_eq _
theorem logits_eq (c : Dev nD) : W8 m ρ c (Proc.devRef .tc main_v0_3) = Cert.RefTerms.logits (argsOf m c) := by
  rw [out_logits m ρ c, Cert.KernelIdeal.RegionLinear.final3_3 (V7 m ρ) c, v7_pool m ρ c, V7_arg21 m ρ c, v7_bcls m ρ c]
  rfl

/-! ## The run -/

/-- Every weakly fair execution of the kernel program terminates with its four results at the reference's terms of
    the argument arrays, and the arguments unchanged. -/
theorem run : θ_run (defs (F := Ideal)) (onTc (τ := τ) (main (F := Ideal))) ⟨m, fun _ => 0, ρ⟩ (fun r => ∀ c : Dev nD,
      r.2.mem ((c.tc : Thread nD τ).loc main_v0_0) = Cert.RefTerms.z (argsOf m c)
      ∧ r.2.mem ((c.tc : Thread nD τ).loc main_v0_1) = Cert.RefTerms.mu (argsOf m c)
      ∧ r.2.mem ((c.tc : Thread nD τ).loc main_v0_2) = Cert.RefTerms.logvar (argsOf m c)
      ∧ r.2.mem ((c.tc : Thread nD τ).loc main_v0_3) = Cert.RefTerms.logits (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c =>
    ⟨(h c).1.trans (z_eq m ρ c), (h c).2.1.trans (mu_eq m ρ c), (h c).2.2.1.trans (logvar_eq m ρ c),
      (h c).2.2.2.1.trans (logits_eq m ρ c), (h c).2.2.2.2⟩) (run_named (F := Ideal) m ρ)

end Cert.KernelIdeal.KValue

end
-- ==== Proof.lean ====
/- The certificate's claim, assembled.

   Three programs are in play: the kernel program over machine words, the same program read over the extended reals,
   and the plain reference read over the extended reals.  Each of the three runs to completion from any memory with
   zero counters and leaves its argument arrays as launched (the three frame claims).  The passage from words to
   extended reals rewrote no operation, so what it has to preserve is the trivial statement.  Over the extended
   reals, from memories that agree on the 23 argument arrays, the kernel program and the reference end with the same
   four result arrays: each is shown to end at one and the same whole-array term of its arguments — the sample, the
   mean, the log-variance and the class scores of the two-layer graph network with its variational head and pooled
   classifier — and the two terms are equal because the arguments are. -/
import proofs.«118365_j37108517438028_2_alg».proof.Defs
import proofs.«118365_j37108517438028_2_alg».proof.Proof.Gen.Kernel
import proofs.«118365_j37108517438028_2_alg».proof.Proof.Gen.Kernel.Skeleton
import proofs.«118365_j37108517438028_2_alg».proof.Proof.Gen.Kernel.Launch
import proofs.«118365_j37108517438028_2_alg».proof.Proof.Gen.Kernel.Points
import proofs.«118365_j37108517438028_2_alg».proof.Proof.Gen.Kernel.Frame
import proofs.«118365_j37108517438028_2_alg».proof.Proof.Gen.KernelIdeal
import proofs.«118365_j37108517438028_2_alg».proof.Proof.Gen.KernelIdeal.Skeleton
import proofs.«118365_j37108517438028_2_alg».proof.Proof.Gen.KernelIdeal.Launch
import proofs.«118365_j37108517438028_2_alg».proof.Proof.Gen.KernelIdeal.Points
import proofs.«118365_j37108517438028_2_alg».proof.Proof.Gen.KernelIdeal.Frame
import proofs.«118365_j37108517438028_2_alg».proof.Proof.Gen.ReferenceIdeal
import proofs.«118365_j37108517438028_2_alg».proof.Proof.Gen.Pre_finite_inputs
import proofs.«118365_j37108517438028_2_alg».proof.Proof.RefTerms
import proofs.«118365_j37108517438028_2_alg».proof.Proof.RRun
import proofs.«118365_j37108517438028_2_alg».proof.Proof.KValue
import Idealize.ShloMosaic.Adequacy
import Idealize.ShloMosaic.Init

noncomputable section

namespace Cert.Proof

open Idealize.ShloMosaic Idealize.SL.Sem Cert.Kernel

/-- The kernel program over machine words runs and leaves its arguments as launched. -/
theorem frame_k : Cert.frame_Kernel := fun m ρ _ => Cert.Kernel.Gen.frame m ρ

/-- So does the same program read over the extended reals. -/
theorem frame_ki : Cert.frame_KernelIdeal := fun m ρ _ => Cert.KernelIdeal.Gen.frame m ρ

/-- So does the reference: its run with the results named says more, and the statement about the arguments is the
    tail of that conjunction. -/
theorem frame_ri : Cert.frame_ReferenceIdeal := fun m ρ _ =>
  (θ_run Cert.ReferenceIdeal.defs _ _).mono (fun _ h c => (h c).2.2.2.2) (Cert.ReferenceIdeal.RRun.run m ρ)

/-- No operation was rewritten on the way from words to extended reals: nothing to preserve. -/
theorem preserves : Cert.preserves_Kernel_KernelIdeal := trivial

/-- Over the extended reals the kernel program ends with the sample, the mean, the log-variance and the class scores at
    the network's terms of ITS argument arrays, and the reference at the same terms of ITS argument arrays.  The two
    memories agree on every argument array, so the two records of arguments are one record, and the terms, being
    functions of that record, are equal. -/
theorem algebraic : Cert.algebraic_KernelIdeal_ReferenceIdeal := by
  intro m ρ m' ρ' _ hagree
  have hargs : ∀ c : Dev Cert.KernelIdeal.nD,
      Cert.ReferenceIdeal.RRun.argsOf m' c = Cert.KernelIdeal.KValue.argsOf m c := fun c => by
    unfold Cert.ReferenceIdeal.RRun.argsOf Cert.KernelIdeal.KValue.argsOf
    rw [(hagree c).1,
      (hagree c).2.1,
      (hagree c).2.2.1,
      (hagree c).2.2.2.1,
      (hagree c).2.2.2.2.1,
      (hagree c).2.2.2.2.2.1,
      (hagree c).2.2.2.2.2.2.1,
      (hagree c).2.2.2.2.2.2.2.1,
      (hagree c).2.2.2.2.2.2.2.2.1,
      (hagree c).2.2.2.2.2.2.2.2.2.1,
      (hagree c).2.2.2.2.2.2.2.2.2.2.1,
      (hagree c).2.2.2.2.2.2.2.2.2.2.2.1,
      (hagree c).2.2.2.2.2.2.2.2.2.2.2.2.1,
      (hagree c).2.2.2.2.2.2.2.2.2.2.2.2.2.1,
      (hagree c).2.2.2.2.2.2.2.2.2.2.2.2.2.2.1,
      (hagree c).2.2.2.2.2.2.2.2.2.2.2.2.2.2.2.1,
      (hagree c).2.2.2.2.2.2.2.2.2.2.2.2.2.2.2.2.1,
      (hagree c).2.2.2.2.2.2.2.2.2.2.2.2.2.2.2.2.2.1,
      (hagree c).2.2.2.2.2.2.2.2.2.2.2.2.2.2.2.2.2.2.1,
      (hagree c).2.2.2.2.2.2.2.2.2.2.2.2.2.2.2.2.2.2.2.1,
      (hagree c).2.2.2.2.2.2.2.2.2.2.2.2.2.2.2.2.2.2.2.2.1,
      (hagree c).2.2.2.2.2.2.2.2.2.2.2.2.2.2.2.2.2.2.2.2.2.1,
      (hagree c).2.2.2.2.2.2.2.2.2.2.2.2.2.2.2.2.2.2.2.2.2.2]
  refine ⟨fun c => Cert.RefTerms.z (Cert.KernelIdeal.KValue.argsOf m c),
    fun c => Cert.RefTerms.mu (Cert.KernelIdeal.KValue.argsOf m c),
    fun c => Cert.RefTerms.logvar (Cert.KernelIdeal.KValue.argsOf m c),
    fun c => Cert.RefTerms.logits (Cert.KernelIdeal.KValue.argsOf m c),
    Cert.KernelIdeal.KValue.run m ρ, ?_⟩
  exact (θ_run Cert.ReferenceIdeal.defs _ _).mono (fun _ h c =>
    ⟨(h c).1.trans (congrArg Cert.RefTerms.z (hargs c)),
     (h c).2.1.trans (congrArg Cert.RefTerms.mu (hargs c)),
     (h c).2.2.1.trans (congrArg Cert.RefTerms.logvar (hargs c)),
     (h c).2.2.2.1.trans (congrArg Cert.RefTerms.logits (hargs c)),
     (h c).2.2.2.2⟩) (Cert.ReferenceIdeal.RRun.run m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
